-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x4096x1024, .bf16⟩
  | .hbm, ⟨8, _⟩ => ⟨S4x4096x1024, .bf16⟩
  | .hbm, ⟨9, _⟩ => ⟨S4x4096x1024, .bf16⟩
  | .hbm, ⟨10, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v40 : BitVec 1 := Scalar.cmpi .eq arg2 c7_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_1_0_0_n_n_wf : DotDims.WF S512x1024 S1024x1024 S512x1024 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x4096x1024.size a
  hwx0_4 : ∀ i : grid0.Coords, EltTy.bits .bf16 = 32 ∨ (Rect.block (s := S4x4096x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x4096x1024.size a
  hwx0_5 : ∀ i : grid0.Coords, EltTy.bits .bf16 = 32 ∨ (Rect.block (s := S4x4096x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x4096x1024.size a
  hwx0_6 : ∀ i : grid0.Coords, EltTy.bits .bf16 = 32 ∨ (Rect.block (s := S4x4096x1024) S1x512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KFrame0.lean ====
/-
  The projection region (the first of the two kernel regions), at any float instance and at a parameter `V`, the
  contents of the core's buffers when the region is entered. Grid 4 x 8: point (b, s) reads rows 512 s .. 512 s + 511
  of batch b of the activations and the three whole weight matrices, and writes the same rows of the three
  projections. The body loads its four operands whole, forms three matrix products (the first scaled), and stores
  each whole: what each output's staging buffer holds after the body is one store's payload of the operands' blocks.
-/
import proofs.«148373_j65481071407281_2_alg».proof.Proof.Gen.Kernel.Launch
import proofs.«148373_j65481071407281_2_alg».proof.Proof.Gen.Kernel.Skeleton
import proofs.«148373_j65481071407281_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved: the weights are fetched once, at the first point), for any proof data whose array is
    `V`'s and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The body's two access rectangles: a whole activation (or projection) block, a whole weight matrix. -/
abbrev rA : Rect S1x512x1024 := Rect.unit (s := S1x512x1024) ![0, 0, 0] S1x512x1024.size inb_S1x512x1024_S1x512x1024_0_0_0
abbrev rW : Rect S1024x1024 := Rect.unit (s := S1024x1024) ![0, 0] S1024x1024.size inb_S1024x1024_S1024x1024_0_0

/-- What the body leaves in the three outputs' staging buffers, from the operands' blocks: one whole store each. -/
def out0_4 (x0 : Vec F S1x512x1024 .f32) (x1 : Vec F S1024x1024 .bf16) : Vec F S1x512x1024 .bf16 :=
  View.canon [⟨rA, k0_pay2 (View.ld x0 rA) (View.ld x1 rW)⟩]
def out0_5 (x0 : Vec F S1x512x1024 .f32) (x2 : Vec F S1024x1024 .bf16) : Vec F S1x512x1024 .bf16 :=
  View.canon [⟨rA, k0_pay3 (View.ld x0 rA) (View.ld x2 rW)⟩]
def out0_6 (x0 : Vec F S1x512x1024 .f32) (x3 : Vec F S1024x1024 .bf16) : Vec F S1x512x1024 .bf16 :=
  View.canon [⟨rA, k0_pay4 (View.ld x0 rA) (View.ld x3 rW)⟩]

/-- One whole store covers the buffer. -/
theorem cover0 (p0 : Vec F S1x512x1024 .bf16) (y : S1x512x1024.Idx) :
    ∃ pc ∈ ([⟨rA, p0⟩] : List (View.Piece (Elt F) S1x512x1024 .bf16)), y ∈ pc.1.set :=
  View.cover_of_tiled [⟨rA, p0⟩] S1x512x1024.size (by rfl) y

set_option maxHeartbeats 2000000 in
/-- The body on whole staging memrefs, the operands' at read contents and the outputs' at anything, runs to its
    return with the operands' as they were and each output's at its payload. -/
theorem sound_kernel0 (c : Dev nD) (E : Set ℕ) (i : grid0.Coords)
    (a2 : Memref sig .tc .vmem S1x512x1024 .f32) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1x512x1024 .bf16) (h6 : a6.IsWhole) (a7 : Memref sig .tc .vmem S1x512x1024 .bf16) (h7 : a7.IsWhole)
    (a8 : Memref sig .tc .vmem S1x512x1024 .bf16) (h8 : a8.IsWhole)
    (x0 : Vec F S1x512x1024 .f32) (x1 x2 x3 : Vec F S1024x1024 .bf16) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3
        ∗ (∃ d, owns (c : Thread nD τ) a6 fullShare d) ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3
            ∗ owns (c : Thread nD τ) a6 fullShare (out0_4 x0 x1) ∗ owns (c : Thread nD τ) a7 fullShare (out0_5 x0 x2)
            ∗ owns (c : Thread nD τ) a8 fullShare (out0_6 x0 x3)) -∗ K ⟨⟩))
      ⊢ wp frame (wpE (defs₀ (F := F)) Variants.none c none) E (cc0__proj_kernel i a2 h2 a3 h3 a4 h4 a5 h5 a6 h6 a7 h7 a8 h8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data and the body obligation -/

/-- The proof data of the projection pipeline on core `c`: the arrays as the region finds them; after the body at
    point `t` each operand's buffer at its block and each output's at its payload of the operands' blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the operands' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrame1a.lean ====
/-
  The attention region (the second kernel region), first part: the body's two branch conditions in closed form, where
  the output window is idle, and the body's run in each control case. Grid 4 x 4 x 8: point (b, q, j) holds query
  rows 1024 q .. 1024 q + 1023 of batch b and key / value rows 512 j .. 512 j + 511. Three scratch buffers are carried
  from point to point of a sweep over j: the running row maximum, the running denominator and the running numerator.
  At j = 0 the body first resets all three; at every j it updates them from the block's scores; at j = 7 it also
  stores numerator / denominator into the output block. So there are three control cases: first (reset, update),
  middle (update), last (update, store the output).
-/
import proofs.«148373_j65481071407281_2_alg».proof.Proof.Gen.Kernel.Launch
import proofs.«148373_j65481071407281_2_alg».proof.Proof.Gen.Kernel.Skeleton
import proofs.«148373_j65481071407281_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first key block of the sweep" (j = 0), as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block of the sweep" (j = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block the output window is idle (the body stores nothing into it) and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body's run, case by case -/

section Runs

variable (c : Dev nD) (i : grid1.Coords)
  (a3 : Memref sig .tc .vmem S1x1024x1024 .bf16) (h3 : a3.IsWhole)
  (a4 : Memref sig .tc .vmem S1x512x1024 .bf16) (h4 : a4.IsWhole)
  (a5 : Memref sig .tc .vmem S1x512x1024 .bf16) (h5 : a5.IsWhole)
  (a6 : Memref sig .tc .vmem S1x1024x1024 .f32) (h6 : a6.IsWhole)
  (a7 : Memref sig .tc .vmem S1024x1 .f32) (h7 : a7.IsWhole)
  (a8 : Memref sig .tc .vmem S1024x1 .f32) (h8 : a8.IsWhole)
  (a9 : Memref sig .tc .vmem S1024x1024 .f32) (h9 : a9.IsWhole)

/- Each run: on whole memrefs — the three operand blocks at their contents, the output block untouched where the
   case leaves it idle (at anything where the case stores it), the three scratch buffers at what the point before
   left (at anything in the first case, which resets them) — the body runs to its return with the operands as they
   were and each buffer it stored into with its stores written, last first; the stores are the run's witness. -/

set_option maxHeartbeats 4000000 in
noncomputable def runA (hc0 : cond1_0 i) (hc1 : ¬cond1_1 i)
    (x0 : Vec F S1x1024x1024 .bf16) (x1 x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi3
            ∗ (∃ d, owns (c : Thread nD τ) a7 fullShare d) ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare x2 ∗ owns (c : Thread nD τ) a6 fullShare xi3
                ∗ (∃ f, a7.view.loc (c : Thread nD τ) ↦[a7.view.set]{fullShare} a7.view.writes (Elt F) f LS0)
                ∗ (∃ f, a8.view.loc (c : Thread nD τ) ↦[a8.view.set]{fullShare} a8.view.writes (Elt F) f LS1)
                ∗ (∃ f, a9.view.loc (c : Thread nD τ) ↦[a9.view.set]{fullShare} a9.view.writes (Elt F) f LS2)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := h3.eq_unread hf0; obtain rfl := h4.eq_unread hf1; obtain rfl := h5.eq_unread hf2; obtain rfl := h6.eq_unread hf3
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HS0]; · iexists _; iexact HS0
    isplitl [HS1]; · iexists _; iexact HS1
    iexists _; iexact HS2

set_option maxHeartbeats 4000000 in
noncomputable def runB (hc0 : ¬cond1_0 i) (hc1 : ¬cond1_1 i)
    (x0 : Vec F S1x1024x1024 .bf16) (x1 x2 : Vec F S1x512x1024 .bf16) (xs0 xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi3
            ∗ owns (c : Thread nD τ) a7 fullShare xs0 ∗ owns (c : Thread nD τ) a8 fullShare xs1 ∗ owns (c : Thread nD τ) a9 fullShare xs2
            ∗ (iprop(owns (c : Thread nD τ) a3 fullShare x0 ∗ owns (c : Thread nD τ) a4 fullShare x1 ∗ owns (c : Thread nD τ) a5 fullShare x2 ∗ owns (c : Thread nD τ) a6 fullShare xi3
                ∗ (∃ f, a7.view.loc (c : Thread nD τ) ↦[a7.view.set]{fullShare} a7.view.writes (Elt F) f LS0)
                ∗ (∃ f, a8.view.loc (c : Thread nD τ) ↦[a8.view.set]{fullShare} a8.view.writes (Elt F) f LS1)
                ∗ (∃ f, a9.view.loc (c : Thread nD τ) ↦[a9.view.set]{fullShare} a9.view.writes (Elt F) f LS2)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := h3.eq_unread hf0; obtain rfl := h4.eq_unread hf1; obtain rfl := h5.eq_unread hf2; obtain rfl := h6.eq_unread hf3; obtain rfl := h7.eq_unread hfs0; obtain rfl := h8.eq_unread hfs1; obtain rfl := h9.eq_unread hfs2
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HS0]; · iexists _; iexact HS0
    isplitl [HS1]; · iexists _; iexact HS1
    iexists _; iexact HS2

set_option maxHeartbeats 4000000 in
noncomputable def runC (hc0 : ¬cond1_0 i) (hc1 : cond1_1 i)
    (x0 : Vec F S1x1024x1024 .bf16) (x1 x2 : Vec F S1x512x1024 .bf16) (xs0 xs1 : Vec F S1024x1 .f32) (xs2 : Vec F S1024x1024 .f32) :
    Σ' (L3 : List (View.Piece (Elt F) S1x1024x1024 .f32)), Σ' (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d)
            ∗ owns (c : Thread nD τ) a7 fullShare xs0 ∗ owns (c : Thread nD τ) a8 fullShare xs1 ∗ owns (c : Thread nD τ) a9 fullShare xs2
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS0)
                ∗ (∃ f, a8.view.loc (c : Thread nD τ) ↦[a8.view.set]{fullShare} a8.view.writes (Elt F) f LS1)
                ∗ (∃ f, a9.view.loc (c : Thread nD τ) ↦[a9.view.set]{fullShare} a9.view.writes (Elt F) f LS2)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := h3.eq_unread hf0; obtain rfl := h4.eq_unread hf1; obtain rfl := h5.eq_unread hf2; obtain rfl := h7.eq_unread hfs0; obtain rfl := h8.eq_unread hfs1; obtain rfl := h9.eq_unread hfs2
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    isplitl [HS0]; · iexists _; iexact HS0
    isplitl [HS1]; · iexists _; iexact HS1
    iexists _; iexact HS2

end Runs

end Cert.Kernel.Fr

end
-- ==== Proof.KFrame1b.lean ====
/-
  The attention region, second part: what each control case leaves in the output block and in the three carried
  scratch buffers, the accumulation point by point along the grid (a sweep over the eight key blocks restarts at
  every point whose position is a multiple of 8 and ends at position 7 mod 8), the invariant that hands the scratch
  from one point to the next, the proof data and the body obligation.
-/
import proofs.«148373_j65481071407281_2_alg».proof.Proof.KFrame1a

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Memrefs and views -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three carried scratch buffers: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- What a point leaves: the output block, then the maximum, the denominator, the numerator. -/
abbrev St : Type := Vec F S1x1024x1024 .f32 × Vec F S1024x1 .f32 × Vec F S1024x1 .f32 × Vec F S1024x1024 .f32

/-! ## The cases at a point -/

/-- Case A at point `t`: the run at the point's memrefs and operand blocks. -/
abbrev caseA (c : Dev nD) (t : Fin cfg1.N) (h0 : t.val % 8 = 0) (h1 : ¬t.val % 8 = 7) :=
  runA (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

theorem scoverA_0 (c : Dev nD) (t : Fin cfg1.N) (h0 : t.val % 8 = 0) (h1 : ¬t.val % 8 = 7) (y : S1024x1.Idx) :
    ∃ pc ∈ (caseA V c t h0 h1).1, y ∈ pc.1.set :=
  View.cover_of_tiledL (caseA V c t h0 h1).1 S1024x1.size (by sl_kernel_rfl) y

theorem scoverA_1 (c : Dev nD) (t : Fin cfg1.N) (h0 : t.val % 8 = 0) (h1 : ¬t.val % 8 = 7) (y : S1024x1.Idx) :
    ∃ pc ∈ (caseA V c t h0 h1).2.1, y ∈ pc.1.set :=
  View.cover_of_tiledL (caseA V c t h0 h1).2.1 S1024x1.size (by sl_kernel_rfl) y

theorem scoverA_2 (c : Dev nD) (t : Fin cfg1.N) (h0 : t.val % 8 = 0) (h1 : ¬t.val % 8 = 7) (y : S1024x1024.Idx) :
    ∃ pc ∈ (caseA V c t h0 h1).2.2.1, y ∈ pc.1.set :=
  View.cover_of_tiledL (caseA V c t h0 h1).2.2.1 S1024x1024.size (by sl_kernel_rfl) y

/-- What case A leaves: the output block (idle: a placeholder nothing consults) and the three scratch buffers, their stores read back. -/
def stA (c : Dev nD) (t : Fin cfg1.N) (h0 : t.val % 8 = 0) (h1 : ¬t.val % 8 = 7) : St (F := F) :=
  (VO1_3.read (Elt F) VO1_3.junk,
   VS1_0.read (Elt F) (VS1_0.writes (Elt F) VS1_0.junk (caseA V c t h0 h1).1),
   VS1_1.read (Elt F) (VS1_1.writes (Elt F) VS1_1.junk (caseA V c t h0 h1).2.1),
   VS1_2.read (Elt F) (VS1_2.writes (Elt F) VS1_2.junk (caseA V c t h0 h1).2.2.1))

/-- Case B at point `t`: the run at the point's memrefs and operand blocks. -/
abbrev caseB (c : Dev nD) (t : Fin cfg1.N) (h0 : ¬t.val % 8 = 0) (h1 : ¬t.val % 8 = 7) (xs0 xs1 : Vec F S1024x1 .f32) (xs2 : Vec F S1024x1024 .f32) :=
  runB (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs0 xs1 xs2

theorem scoverB_0 (c : Dev nD) (t : Fin cfg1.N) (h0 : ¬t.val % 8 = 0) (h1 : ¬t.val % 8 = 7) (xs0 xs1 : Vec F S1024x1 .f32) (xs2 : Vec F S1024x1024 .f32) (y : S1024x1.Idx) :
    ∃ pc ∈ (caseB V c t h0 h1 xs0 xs1 xs2).1, y ∈ pc.1.set :=
  View.cover_of_tiledL (caseB V c t h0 h1 xs0 xs1 xs2).1 S1024x1.size (by sl_kernel_rfl) y

theorem scoverB_1 (c : Dev nD) (t : Fin cfg1.N) (h0 : ¬t.val % 8 = 0) (h1 : ¬t.val % 8 = 7) (xs0 xs1 : Vec F S1024x1 .f32) (xs2 : Vec F S1024x1024 .f32) (y : S1024x1.Idx) :
    ∃ pc ∈ (caseB V c t h0 h1 xs0 xs1 xs2).2.1, y ∈ pc.1.set :=
  View.cover_of_tiledL (caseB V c t h0 h1 xs0 xs1 xs2).2.1 S1024x1.size (by sl_kernel_rfl) y

theorem scoverB_2 (c : Dev nD) (t : Fin cfg1.N) (h0 : ¬t.val % 8 = 0) (h1 : ¬t.val % 8 = 7) (xs0 xs1 : Vec F S1024x1 .f32) (xs2 : Vec F S1024x1024 .f32) (y : S1024x1024.Idx) :
    ∃ pc ∈ (caseB V c t h0 h1 xs0 xs1 xs2).2.2.1, y ∈ pc.1.set :=
  View.cover_of_tiledL (caseB V c t h0 h1 xs0 xs1 xs2).2.2.1 S1024x1024.size (by sl_kernel_rfl) y

/-- What case B leaves: the output block (idle: a placeholder nothing consults) and the three scratch buffers, their stores read back. -/
def stB (c : Dev nD) (t : Fin cfg1.N) (h0 : ¬t.val % 8 = 0) (h1 : ¬t.val % 8 = 7) (p : St (F := F)) : St (F := F) :=
  (VO1_3.read (Elt F) VO1_3.junk,
   VS1_0.read (Elt F) (VS1_0.writes (Elt F) VS1_0.junk (caseB V c t h0 h1 p.2.1 p.2.2.1 p.2.2.2).1),
   VS1_1.read (Elt F) (VS1_1.writes (Elt F) VS1_1.junk (caseB V c t h0 h1 p.2.1 p.2.2.1 p.2.2.2).2.1),
   VS1_2.read (Elt F) (VS1_2.writes (Elt F) VS1_2.junk (caseB V c t h0 h1 p.2.1 p.2.2.1 p.2.2.2).2.2.1))

/-- Case C at point `t`: the run at the point's memrefs and operand blocks. -/
abbrev caseC (c : Dev nD) (t : Fin cfg1.N) (h0 : ¬t.val % 8 = 0) (h1 : t.val % 8 = 7) (xs0 xs1 : Vec F S1024x1 .f32) (xs2 : Vec F S1024x1024 .f32) :=
  runC (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) xs0 xs1 xs2

theorem scoverC_0 (c : Dev nD) (t : Fin cfg1.N) (h0 : ¬t.val % 8 = 0) (h1 : t.val % 8 = 7) (xs0 xs1 : Vec F S1024x1 .f32) (xs2 : Vec F S1024x1024 .f32) (y : S1024x1.Idx) :
    ∃ pc ∈ (caseC V c t h0 h1 xs0 xs1 xs2).2.1, y ∈ pc.1.set :=
  View.cover_of_tiledL (caseC V c t h0 h1 xs0 xs1 xs2).2.1 S1024x1.size (by sl_kernel_rfl) y

theorem scoverC_1 (c : Dev nD) (t : Fin cfg1.N) (h0 : ¬t.val % 8 = 0) (h1 : t.val % 8 = 7) (xs0 xs1 : Vec F S1024x1 .f32) (xs2 : Vec F S1024x1024 .f32) (y : S1024x1.Idx) :
    ∃ pc ∈ (caseC V c t h0 h1 xs0 xs1 xs2).2.2.1, y ∈ pc.1.set :=
  View.cover_of_tiledL (caseC V c t h0 h1 xs0 xs1 xs2).2.2.1 S1024x1.size (by sl_kernel_rfl) y

theorem scoverC_2 (c : Dev nD) (t : Fin cfg1.N) (h0 : ¬t.val % 8 = 0) (h1 : t.val % 8 = 7) (xs0 xs1 : Vec F S1024x1 .f32) (xs2 : Vec F S1024x1024 .f32) (y : S1024x1024.Idx) :
    ∃ pc ∈ (caseC V c t h0 h1 xs0 xs1 xs2).2.2.2.1, y ∈ pc.1.set :=
  View.cover_of_tiledL (caseC V c t h0 h1 xs0 xs1 xs2).2.2.2.1 S1024x1024.size (by sl_kernel_rfl) y

theorem coverC_3 (c : Dev nD) (t : Fin cfg1.N) (h0 : ¬t.val % 8 = 0) (h1 : t.val % 8 = 7) (xs0 xs1 : Vec F S1024x1 .f32) (xs2 : Vec F S1024x1024 .f32) (y : S1x1024x1024.Idx) :
    ∃ pc ∈ (caseC V c t h0 h1 xs0 xs1 xs2).1, y ∈ pc.1.set :=
  View.cover_of_tiledL (caseC V c t h0 h1 xs0 xs1 xs2).1 S1x1024x1024.size (by sl_kernel_rfl) y

/-- What case C leaves: the output block (its store read back) and the three scratch buffers, their stores read back. -/
def stC (c : Dev nD) (t : Fin cfg1.N) (h0 : ¬t.val % 8 = 0) (h1 : t.val % 8 = 7) (p : St (F := F)) : St (F := F) :=
  (VO1_3.read (Elt F) (VO1_3.writes (Elt F) VO1_3.junk (caseC V c t h0 h1 p.2.1 p.2.2.1 p.2.2.2).1),
   VS1_0.read (Elt F) (VS1_0.writes (Elt F) VS1_0.junk (caseC V c t h0 h1 p.2.1 p.2.2.1 p.2.2.2).2.1),
   VS1_1.read (Elt F) (VS1_1.writes (Elt F) VS1_1.junk (caseC V c t h0 h1 p.2.1 p.2.2.1 p.2.2.2).2.2.1),
   VS1_2.read (Elt F) (VS1_2.writes (Elt F) VS1_2.junk (caseC V c t h0 h1 p.2.1 p.2.2.1 p.2.2.2).2.2.2.1))

/-! ## The accumulation -/

/-- What the output block and the scratch buffers hold after the body at position `n`: a sweep's first point starts
    afresh, every other point continues from what the point before left. -/
def outsAt1 (c : Dev nD) : (n : ℕ) → n < cfg1.N → St (F := F)
  | 0, hn => stA V c ⟨0, hn⟩ (Nat.zero_mod 8) (by show ¬(0 % 8 = 7); decide)
  | n + 1, hn =>
    if h0 : (n + 1) % 8 = 0 then stA V c ⟨n + 1, hn⟩ h0 (by show ¬((n + 1) % 8 = 7); omega)
    else if h1 : (n + 1) % 8 = 7 then stC V c ⟨n + 1, hn⟩ h0 h1 (outsAt1 c n (Nat.lt_of_succ_lt hn))
    else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod 8) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod 8) h0
  | succ n => exact (dif_neg h0).trans ((dif_pos h1).trans rfl)

/-! ## The invariant -/

/-- The core's scoped buffers beside this pipeline's staging buffers — the other region's eleven staging buffers at
    anything, then the three scratch buffers at `P0`, `P1`, `P2` — and the generator register at some state. -/
def chain (c : Dev nD) (P0 P1 P2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2) ∗ (∃ r, prngReg c r))

/-- The class invariant, with the scratch buffers as memrefs owned at some contents. -/
theorem PhiA1_eq (c : Dev nD) :
    (Pipeline.ΦA spec1 c : sProp 𝕄)
      = chain c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA chain; rw [scopedRest1_eq]; simp only [scM1_0, scM1_1, scM1_2, owns_whole]; try rfl

/-- The invariant before position `n`: before the first point the class's (every scratch at anything); afterwards
    each scratch buffer at what the point before left in it. -/
def PhiS (c : Dev nD) : (n : ℕ) → n ≤ cfg1.N → sProp 𝕄
  | 0, _ => Pipeline.ΦA spec1 c
  | n + 1, hn => chain c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = chain c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2) := rfl

theorem PhiS_pos (c : Dev nD) (n : ℕ) (h : n ≤ cfg1.N) (hz : n ≠ 0) :
    PhiS V c n h = chain c (owns (c : Thread nD τ) scM1_0 fullShare (outsAt1 V c (n - 1) (by omega)).2.1) (owns (c : Thread nD τ) scM1_1 fullShare (outsAt1 V c (n - 1) (by omega)).2.2.1)
      (owns (c : Thread nD τ) scM1_2 fullShare (outsAt1 V c (n - 1) (by omega)).2.2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.Kernel.Fr

end
-- ==== Proof.KFrame1c.lean ====
/-
  The attention region, third part: the body obligation at every point, case by case, and the invariant's two ends
  (what the launch hands the region is the invariant before the first point; after the last point the invariant gives
  it back with the scratch contents forgotten).
-/
import proofs.«148373_j65481071407281_2_alg».proof.Proof.KFrame1b

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. The operands' memrefs hold their blocks; the position modulo 8 says which case the point
    is in; the invariant hands the body the scratch buffers at what the point before left (at anything before the
    first point) and takes them back at this point's contents; off the last key block the output block is handed
    back untouched; the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold stA; (try dsimp only)
    by_cases hz : t.val = 0
    · rw [PhiS_castSucc V c t, PhiS_zero V c _ _ hz, PhiA1_eq]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseA V c t h0 h1).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        unfold owns; iexists _; isplitr
        swap; · iexact HS2
        ipureintro; exact View.read_writes_of_cover _ _ _ _ _ (scoverA_2 V c t h0 h1)
      isplitl [Ho]; · iexact Ho
      isplitl [H0]; · iexact H0
      isplitl [H1]; · iexact H1
      isplitl [H2]; · iexact H2
      iexists _; iexact H3
    · rw [PhiS_castSucc V c t, PhiS_pos V c _ _ hz]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseA V c t h0 h1).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        unfold owns; iexists _; isplitr
        swap; · iexact HS2
        ipureintro; exact View.read_writes_of_cover _ _ _ _ _ (scoverA_2 V c t h0 h1)
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC; (try dsimp only)
      rw [PhiS_castSucc V c t, PhiS_pos V c _ _ hz]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseC V c t h0 h1 _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverC_0 V c t h0 h1 _ _ _)
        isplitl [HS1]
        · unfold owns; iexists _; isplitr
          swap; · iexact HS1
          ipureintro; exact View.read_writes_of_cover _ _ _ _ _ (scoverC_1 V c t h0 h1 _ _ _)
        unfold owns; iexists _; isplitr
        swap; · iexact HS2
        ipureintro; exact View.read_writes_of_cover _ _ _ _ _ (scoverC_2 V c t h0 h1 _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold stB; (try dsimp only)
      rw [PhiS_castSucc V c t, PhiS_pos V c _ _ hz]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseB V c t h0 h1 _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverB_0 V c t h0 h1 _ _ _)
        isplitl [HS1]
        · unfold owns; iexists _; isplitr
          swap; · iexact HS1
          ipureintro; exact View.read_writes_of_cover _ _ _ _ _ (scoverB_1 V c t h0 h1 _ _ _)
        unfold owns; iexists _; isplitr
        swap; · iexact HS2
        ipureintro; exact View.read_writes_of_cover _ _ _ _ _ (scoverB_2 V c t h0 h1 _ _ _)
      isplitl [Ho]; · iexact Ho
      isplitl [H0]; · iexact H0
      isplitl [H1]; · iexact H1
      isplitl [H2]; · iexact H2
      iexists _; iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold chain
  iintro ⟨⟨A0, A1, A2, A3, A4, A5, A6, A7, A8, A9, A10, HS0, HS1, HS2⟩, Hg⟩
  isplitl [A0 A1 A2 A3 A4 A5 A6 A7 A8 A9 A10 HS0 HS1 HS2]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end Cert.Kernel.Fr

end
-- ==== Proof.KRun.lean ====
/-
  The whole program's run. @main is: three host conversions of the weights, the projection region, the attention
  region. Between items each core holds every unscoped buffer at a known valuation: the launch memory, then the host
  conversions applied, then the three projections at what the first pipeline's write-backs leave, then the result at
  what the second pipeline's write-backs leave. Each region is entered by splitting its windows' arrays out of the
  unscoped buffers and left by putting them back; the scratch of the attention region lives inside its invariant.
  The run ends with the result array at the last valuation and every argument as launched.
-/
import proofs.«148373_j65481071407281_2_alg».proof.Proof.KFrame0
import proofs.«148373_j65481071407281_2_alg».proof.Proof.KFrame1c
import proofs.«148373_j65481071407281_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffer contents at the segment boundaries -/

/-- At the projection region's entry, read at the TensorCore's references. -/
abbrev Va1 : (c : Dev nD) → (b : Ref sig .tc) → Buf (Elt F) ((c : Thread nD τ).loc b) := fun c b => V1 m c b

/-- At the projection region's exit: its arrays at what the pipeline leaves, every other buffer as entered. -/
def W2 (c : Dev nD) : Valuation τ sig (Elt F) :=
  Pipeline.withArrays spec0 c (V1 m c) fun w => (dat0 (Va1 m) c).arrAt w cfg0.N
theorem W2_arr (c : Dev nD) (w : Fin cfg0.W) :
    W2 m c (Proc.devRef .tc (Pipeline.arrRef spec0 w)) = (dat0 (Va1 m) c).arrAt w cfg0.N := by
  unfold W2; exact Pipeline.withArrays_arr spec0 launch0.win.arr_inj c _ _ w

/-- What the projection region leaves in the buffers it may change. -/
def o2 (r : Ref sig .tc) (c : Dev nD) : Buf (Elt F) ((c : Thread nD τ).loc r) := W2 m c r

/-- The valuation after the projection region. -/
abbrev V2' (c : Dev nD) : Valuation τ sig (Elt F) :=
  Function.update (Function.update (Function.update (V1 m c) main_v3_0 (o2 m main_v3_0 c)) main_v3_1 (o2 m main_v3_1 c)) main_v3_2 (o2 m main_v3_2 c)

/-- At the attention region's exit. -/
def W3 (c : Dev nD) : Valuation τ sig (Elt F) :=
  Pipeline.withArrays spec1 c (V2' m c) fun w => (dat1 (fun c b => V2' m c b) c).arrAt w cfg1.N
theorem W3_arr (c : Dev nD) (w : Fin cfg1.W) :
    W3 m c (Proc.devRef .tc (Pipeline.arrRef spec1 w)) = (dat1 (fun c b => V2' m c b) c).arrAt w cfg1.N := by
  unfold W3; exact Pipeline.withArrays_arr spec1 launch1.win.arr_inj c _ _ w

/-- The regions' unknowns: the three projections after the first region, the result after the second. -/
def outsK : Outs (F := F) := fun J r c => if J = 2 then o2 m r c else W3 m c r

theorem V2_eq (c : Dev nD) : V2 m (outsK m) c = V2' m c := rfl

/-- The valuation after the attention region. -/
abbrev V3' (c : Dev nD) : Valuation τ sig (Elt F) := V3 m (outsK m) c

/-! ## Every pipeline's proof data -/

def pdats : (p : Fin 2) → (c : Dev nD) → Dat τ (Elt F) Unit ℕ (UR sig nD τ) ℕ (cfgs p) c
  | ⟨0, _⟩ => fun c => dat0 (Va1 m) c
  | ⟨1, _⟩ => fun c => dat1 (fun c b => V2' m c b) c

abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)

/-! ## What each region leaves, array by array -/

theorem hF0 (c : Dev nD) (w : Fin cfg0.W) : (pdats m 0 c).arrAt w cfg0.N = (fun b => V2' m c b) (Pipeline.arrRef spec0 w) := by
  fin_cases w
  · exact ((pdats m 0 c).arrAt_in 0 rfl _).trans (V2_of m (outsK m) c main_arg0 (by decide)).symm
  · exact ((pdats m 0 c).arrAt_in 1 rfl _).trans (V2_of m (outsK m) c main_v0 (by decide)).symm
  · exact ((pdats m 0 c).arrAt_in 2 rfl _).trans (V2_of m (outsK m) c main_v1 (by decide)).symm
  · exact ((pdats m 0 c).arrAt_in 3 rfl _).trans (V2_of m (outsK m) c main_v2 (by decide)).symm
  · refine Eq.trans (W2_arr m c 4).symm ?_
    show o2 m main_v3_0 c = V2' m c (Proc.devRef .tc main_v3_0)
    unfold V2'
    rw [Function.update_of_ne (StableHlo.devRef_ne_of_ne (by decide : (main_v3_0 : Ref sig .tc) ≠ main_v3_2) : (Proc.devRef .tc main_v3_0 : DevRef τ sig) ≠ Proc.devRef .tc main_v3_2), Function.update_of_ne (StableHlo.devRef_ne_of_ne (by decide : (main_v3_0 : Ref sig .tc) ≠ main_v3_1) : (Proc.devRef .tc main_v3_0 : DevRef τ sig) ≠ Proc.devRef .tc main_v3_1), Function.update_self]
  · refine Eq.trans (W2_arr m c 5).symm ?_
    show o2 m main_v3_1 c = V2' m c (Proc.devRef .tc main_v3_1)
    unfold V2'
    rw [Function.update_of_ne (StableHlo.devRef_ne_of_ne (by decide : (main_v3_1 : Ref sig .tc) ≠ main_v3_2) : (Proc.devRef .tc main_v3_1 : DevRef τ sig) ≠ Proc.devRef .tc main_v3_2), Function.update_self]
  · refine Eq.trans (W2_arr m c 6).symm ?_
    show o2 m main_v3_2 c = V2' m c (Proc.devRef .tc main_v3_2)
    unfold V2'
    rw [Function.update_self]

theorem hrest0 (c : Dev nD) : ∀ b, b ∉ Finset.univ.image (Pipeline.arrRef spec0) → (fun b => V2' m c b) b = (fun b => V1 m c b) b :=
  fun b hb => V2_of m (outsK m) c b (fun h => hb (by
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    exact absurd h (List.not_mem_nil)))

theorem hF1 (c : Dev nD) (w : Fin cfg1.W) : (pdats m 1 c).arrAt w cfg1.N = (fun b => V3' m c b) (Pipeline.arrRef spec1 w) := by
  fin_cases w
  · exact ((pdats m 1 c).arrAt_in 0 rfl _).trans (V3_of m (outsK m) c main_v3_0 (by decide)).symm
  · exact ((pdats m 1 c).arrAt_in 1 rfl _).trans (V3_of m (outsK m) c main_v3_1 (by decide)).symm
  · exact ((pdats m 1 c).arrAt_in 2 rfl _).trans (V3_of m (outsK m) c main_v3_2 (by decide)).symm
  · refine Eq.trans (W3_arr m c 3).symm ?_
    show W3 m c (Proc.devRef .tc main_v4) = V3 m (outsK m) c (Proc.devRef .tc main_v4)
    unfold V3
    rw [Function.update_self]
    rfl

theorem hrest1 (c : Dev nD) : ∀ b, b ∉ Finset.univ.image (Pipeline.arrRef spec1) → (fun b => V3' m c b) b = (fun b => V2' m c b) b :=
  fun b hb => V3_of m (outsK m) c b (fun h => hb (by
    rcases List.mem_cons.mp h with rfl | h
    · exact Finset.mem_image.mpr ⟨3, Finset.mem_univ _, rfl⟩
    exact absurd h (List.not_mem_nil)))

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2' m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2' m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V2' m c b) c).loose
  hwaits := Pipeline.hwaits_of_owed_zero _ _ _ _ L lv 1 fun _ _ => rfl
  pre c := iprop(StableHlo.held (c : Thread nD τ) (Pipeline.ucRefs τ sig) (V2' m c) ∗ R c)
  post c := iprop(StableHlo.held (c : Thread nD τ) (Pipeline.ucRefs τ sig) (V3' m c) ∗ R c)
  X c := iprop(∃ r, prngReg c r)
  Y c := iprop(∃ r, prngReg c r)
  Z c := Pipeline.unscopedRest (Ix := Unit) (Name := ℕ) (U := UR sig nD τ) (Lvl := ℕ) spec1 c (fun b => V2' m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2' m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have h' := hin1 (fun c b => V2' m c b) c
      unfold Pipeline.ΦA at h'
      exact h'
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := by
      have h' := hout1 (fun c b => V2' m c b) c
      unfold Pipeline.ΦA at h'
      exact h'
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2' m c b) (fun b => V3' m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KMain.lean ====
/-
  The run of the whole program, from any memory with zero counters: every weakly fair execution terminates, nothing
  faults, the result array ends at the last valuation's contents and every argument array as launched. The launch
  hands each core its unscoped buffers at the launch memory, the generator register and its dues; the three
  segments (the host conversions, the two regions) chain through the valuations; at the end the last valuation is read
  against the final memory.
-/
import proofs.«148373_j65481071407281_2_alg».proof.Proof.KRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v4) = V3' m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hlast : ∀ c : Dev nD, (iprop(StableHlo.held (c : Thread nD τ) (Pipeline.ucRefs τ sig) (V3' m c) ∗ R c) : sProp 𝕄)
      ⊢ iprop((StableHlo.held (c : Thread nD τ) (Pipeline.ucRefs τ sig) (V3' m c) ∗ ∃ r, prngReg c r) ∗ ∃ W, owes (c : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m 𝒱₀ L lv (fun _ c => R c) () (pdats m) (reg0 m) (reg1 m))
    (fun c Q => by
      rewrite [main_chain c, Seg.run_eq_chain,
        show (segs m 𝒱₀ L lv (fun _ c => R c) () (pdats m) (reg0 m) (reg1 m) c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V3' m c) ∗ ∃ r, prngReg c r))
    (hch := fun c => ⟨.rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v4) = V3' m c main_v4
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (V3' m c) s') $$ [Hh HSI]
  · isplitl [Hh] <;> iassumption
  icases Hr with ⟨%h, HSI⟩
  imodintro
  isplitr
  · ipureintro
    exact ⟨h (Proc.devRef .tc main_v4) (Finset.mem_filter.mpr ⟨StableHlo.devRef_mem_tcRefs main_v4, by decide⟩),
      (h (Proc.devRef .tc main_arg0) (Finset.mem_filter.mpr ⟨StableHlo.devRef_mem_tcRefs main_arg0, by decide⟩)).trans (V3_main_arg0 m (outsK m) c),
      (h (Proc.devRef .tc main_arg1) (Finset.mem_filter.mpr ⟨StableHlo.devRef_mem_tcRefs main_arg1, by decide⟩)).trans (V3_main_arg1 m (outsK m) c),
      (h (Proc.devRef .tc main_arg2) (Finset.mem_filter.mpr ⟨StableHlo.devRef_mem_tcRefs main_arg2, by decide⟩)).trans (V3_main_arg2 m (outsK m) c),
      (h (Proc.devRef .tc main_arg3) (Finset.mem_filter.mpr ⟨StableHlo.devRef_mem_tcRefs main_arg3, by decide⟩)).trans (V3_main_arg3 m (outsK m) c)⟩
  · iexact HSI

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Fr

end
-- ==== Proof.KIFrame0.lean ====
/-
  The projection region (the first of the two kernel regions), at any float instance and at a parameter `V`, the
  contents of the core's buffers when the region is entered. Grid 4 x 8: point (b, s) reads rows 512 s .. 512 s + 511
  of batch b of the activations and the three whole weight matrices, and writes the same rows of the three
  projections. The body loads its four operands whole, forms three matrix products (the first scaled), and stores
  each whole: what each output's staging buffer holds after the body is one store's payload of the operands' blocks.
-/
import proofs.«148373_j65481071407281_2_alg».proof.Proof.Gen.KernelIdeal.Launch
import proofs.«148373_j65481071407281_2_alg».proof.Proof.Gen.KernelIdeal.Skeleton
import proofs.«148373_j65481071407281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved: the weights are fetched once, at the first point), for any proof data whose array is
    `V`'s and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The body's two access rectangles: a whole activation (or projection) block, a whole weight matrix. -/
abbrev rA : Rect S1x512x1024 := Rect.unit (s := S1x512x1024) ![0, 0, 0] S1x512x1024.size inb_S1x512x1024_S1x512x1024_0_0_0
abbrev rW : Rect S1024x1024 := Rect.unit (s := S1024x1024) ![0, 0] S1024x1024.size inb_S1024x1024_S1024x1024_0_0

/-- What the body leaves in the three outputs' staging buffers, from the operands' blocks: one whole store each. -/
def out0_4 (x0 : Vec F S1x512x1024 .f32) (x1 : Vec F S1024x1024 .bf16) : Vec F S1x512x1024 .bf16 :=
  View.canon [⟨rA, k0_pay2 (View.ld x0 rA) (View.ld x1 rW)⟩]
def out0_5 (x0 : Vec F S1x512x1024 .f32) (x2 : Vec F S1024x1024 .bf16) : Vec F S1x512x1024 .bf16 :=
  View.canon [⟨rA, k0_pay3 (View.ld x0 rA) (View.ld x2 rW)⟩]
def out0_6 (x0 : Vec F S1x512x1024 .f32) (x3 : Vec F S1024x1024 .bf16) : Vec F S1x512x1024 .bf16 :=
  View.canon [⟨rA, k0_pay4 (View.ld x0 rA) (View.ld x3 rW)⟩]

/-- One whole store covers the buffer. -/
theorem cover0 (p0 : Vec F S1x512x1024 .bf16) (y : S1x512x1024.Idx) :
    ∃ pc ∈ ([⟨rA, p0⟩] : List (View.Piece (Elt F) S1x512x1024 .bf16)), y ∈ pc.1.set :=
  View.cover_of_tiled [⟨rA, p0⟩] S1x512x1024.size (by rfl) y

set_option maxHeartbeats 2000000 in
/-- The body on whole staging memrefs, the operands' at read contents and the outputs' at anything, runs to its
    return with the operands' as they were and each output's at its payload. -/
theorem sound_kernel0 (c : Dev nD) (E : Set ℕ) (i : grid0.Coords)
    (a2 : Memref sig .tc .vmem S1x512x1024 .f32) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1x512x1024 .bf16) (h6 : a6.IsWhole) (a7 : Memref sig .tc .vmem S1x512x1024 .bf16) (h7 : a7.IsWhole)
    (a8 : Memref sig .tc .vmem S1x512x1024 .bf16) (h8 : a8.IsWhole)
    (x0 : Vec F S1x512x1024 .f32) (x1 x2 x3 : Vec F S1024x1024 .bf16) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3
        ∗ (∃ d, owns (c : Thread nD τ) a6 fullShare d) ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2
            ∗ owns (c : Thread nD τ) a5 fullShare x3
            ∗ owns (c : Thread nD τ) a6 fullShare (out0_4 x0 x1) ∗ owns (c : Thread nD τ) a7 fullShare (out0_5 x0 x2)
            ∗ owns (c : Thread nD τ) a8 fullShare (out0_6 x0 x3)) -∗ K ⟨⟩))
      ⊢ wp frame (wpE (defs₀ (F := F)) Variants.none c none) E (cc0__proj_kernel i a2 h2 a3 h3 a4 h4 a5 h5 a6 h6 a7 h7 a8 h8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data and the body obligation -/

/-- The proof data of the projection pipeline on core `c`: the arrays as the region finds them; after the body at
    point `t` each operand's buffer at its block and each output's at its payload of the operands' blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the operands' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIFrame1a.lean ====
/-
  The attention region (the second kernel region), first part: the body's two branch conditions in closed form, where
  the output window is idle, and the body's run in each control case. Grid 4 x 4 x 8: point (b, q, j) holds query
  rows 1024 q .. 1024 q + 1023 of batch b and key / value rows 512 j .. 512 j + 511. Three scratch buffers are carried
  from point to point of a sweep over j: the running row maximum, the running denominator and the running numerator.
  At j = 0 the body first resets all three; at every j it updates them from the block's scores; at j = 7 it also
  stores numerator / denominator into the output block. So there are three control cases: first (reset, update),
  middle (update), last (update, store the output).
-/
import proofs.«148373_j65481071407281_2_alg».proof.Proof.Gen.KernelIdeal.Launch
import proofs.«148373_j65481071407281_2_alg».proof.Proof.Gen.KernelIdeal.Skeleton
import proofs.«148373_j65481071407281_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- "This is the first key block of the sweep" (j = 0), as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key block of the sweep" (j = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key block the output window is idle (the body stores nothing into it) and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The body's run, case by case -/

section Runs

variable (c : Dev nD) (i : grid1.Coords)
  (a3 : Memref sig .tc .vmem S1x1024x1024 .bf16) (h3 : a3.IsWhole)
  (a4 : Memref sig .tc .vmem S1x512x1024 .bf16) (h4 : a4.IsWhole)
  (a5 : Memref sig .tc .vmem S1x512x1024 .bf16) (h5 : a5.IsWhole)
  (a6 : Memref sig .tc .vmem S1x1024x1024 .f32) (h6 : a6.IsWhole)
  (a7 : Memref sig .tc .vmem S1024x1 .f32) (h7 : a7.IsWhole)
  (a8 : Memref sig .tc .vmem S1024x1 .f32) (h8 : a8.IsWhole)
  (a9 : Memref sig .tc .vmem S1024x1024 .f32) (h9 : a9.IsWhole)

/- Each run: on whole memrefs — the three operand blocks at their contents, the output block untouched where the
   case leaves it idle (at anything where the case stores it), the three scratch buffers at what the point before
   left (at anything in the first case, which resets them) — the body runs to its return with the operands as they
   were and each buffer it stored into with its stores written, last first; the stores are the run's witness. -/

set_option maxHeartbeats 4000000 in
noncomputable def runA (hc0 : cond1_0 i) (hc1 : ¬cond1_1 i)
    (x0 : Vec F S1x1024x1024 .bf16) (x1 x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi3
            ∗ (∃ d, owns (c : Thread nD τ) a7 fullShare d) ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare x2 ∗ owns (c : Thread nD τ) a6 fullShare xi3
                ∗ (∃ f, a7.view.loc (c : Thread nD τ) ↦[a7.view.set]{fullShare} a7.view.writes (Elt F) f LS0)
                ∗ (∃ f, a8.view.loc (c : Thread nD τ) ↦[a8.view.set]{fullShare} a8.view.writes (Elt F) f LS1)
                ∗ (∃ f, a9.view.loc (c : Thread nD τ) ↦[a9.view.set]{fullShare} a9.view.writes (Elt F) f LS2)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := h3.eq_unread hf0; obtain rfl := h4.eq_unread hf1; obtain rfl := h5.eq_unread hf2; obtain rfl := h6.eq_unread hf3
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HS0]; · iexists _; iexact HS0
    isplitl [HS1]; · iexists _; iexact HS1
    iexists _; iexact HS2

set_option maxHeartbeats 4000000 in
noncomputable def runB (hc0 : ¬cond1_0 i) (hc1 : ¬cond1_1 i)
    (x0 : Vec F S1x1024x1024 .bf16) (x1 x2 : Vec F S1x512x1024 .bf16) (xs0 xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xi3
            ∗ owns (c : Thread nD τ) a7 fullShare xs0 ∗ owns (c : Thread nD τ) a8 fullShare xs1 ∗ owns (c : Thread nD τ) a9 fullShare xs2
            ∗ (iprop(owns (c : Thread nD τ) a3 fullShare x0 ∗ owns (c : Thread nD τ) a4 fullShare x1 ∗ owns (c : Thread nD τ) a5 fullShare x2 ∗ owns (c : Thread nD τ) a6 fullShare xi3
                ∗ (∃ f, a7.view.loc (c : Thread nD τ) ↦[a7.view.set]{fullShare} a7.view.writes (Elt F) f LS0)
                ∗ (∃ f, a8.view.loc (c : Thread nD τ) ↦[a8.view.set]{fullShare} a8.view.writes (Elt F) f LS1)
                ∗ (∃ f, a9.view.loc (c : Thread nD τ) ↦[a9.view.set]{fullShare} a9.view.writes (Elt F) f LS2)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := h3.eq_unread hf0; obtain rfl := h4.eq_unread hf1; obtain rfl := h5.eq_unread hf2; obtain rfl := h6.eq_unread hf3; obtain rfl := h7.eq_unread hfs0; obtain rfl := h8.eq_unread hfs1; obtain rfl := h9.eq_unread hfs2
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [HS0]; · iexists _; iexact HS0
    isplitl [HS1]; · iexists _; iexact HS1
    iexists _; iexact HS2

set_option maxHeartbeats 4000000 in
noncomputable def runC (hc0 : ¬cond1_0 i) (hc1 : cond1_1 i)
    (x0 : Vec F S1x1024x1024 .bf16) (x1 x2 : Vec F S1x512x1024 .bf16) (xs0 xs1 : Vec F S1024x1 .f32) (xs2 : Vec F S1024x1024 .f32) :
    Σ' (L3 : List (View.Piece (Elt F) S1x1024x1024 .f32)), Σ' (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d)
            ∗ owns (c : Thread nD τ) a7 fullShare xs0 ∗ owns (c : Thread nD τ) a8 fullShare xs1 ∗ owns (c : Thread nD τ) a9 fullShare xs2
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS0)
                ∗ (∃ f, a8.view.loc (c : Thread nD τ) ↦[a8.view.set]{fullShare} a8.view.writes (Elt F) f LS1)
                ∗ (∃ f, a9.view.loc (c : Thread nD τ) ↦[a9.view.set]{fullShare} a9.view.writes (Elt F) f LS2)) -∗ K ⟨⟩))
          ⊢ wp frame (wpE (defs₀ (F := F)) Variants.none c none) E (cc1__attn_kernel i a3 h3 a4 h4 a5 h5 a6 h6 a7 h7 a8 h8 a9 h9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := h3.eq_unread hf0; obtain rfl := h4.eq_unread hf1; obtain rfl := h5.eq_unread hf2; obtain rfl := h7.eq_unread hfs0; obtain rfl := h8.eq_unread hfs1; obtain rfl := h9.eq_unread hfs2
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    isplitl [HS0]; · iexists _; iexact HS0
    isplitl [HS1]; · iexists _; iexact HS1
    iexists _; iexact HS2

end Runs

end Cert.KernelIdeal.Fr

end
-- ==== Proof.KIFrame1b.lean ====
/-
  The attention region, second part: what each control case leaves in the output block and in the three carried
  scratch buffers, the accumulation point by point along the grid (a sweep over the eight key blocks restarts at
  every point whose position is a multiple of 8 and ends at position 7 mod 8), the invariant that hands the scratch
  from one point to the next, the proof data and the body obligation.
-/
import proofs.«148373_j65481071407281_2_alg».proof.Proof.KIFrame1a

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Memrefs and views -/

abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three carried scratch buffers: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- What a point leaves: the output block, then the maximum, the denominator, the numerator. -/
abbrev St : Type := Vec F S1x1024x1024 .f32 × Vec F S1024x1 .f32 × Vec F S1024x1 .f32 × Vec F S1024x1024 .f32

/-! ## The cases at a point -/

/-- Case A at point `t`: the run at the point's memrefs and operand blocks. -/
abbrev caseA (c : Dev nD) (t : Fin cfg1.N) (h0 : t.val % 8 = 0) (h1 : ¬t.val % 8 = 7) :=
  runA (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)

theorem scoverA_0 (c : Dev nD) (t : Fin cfg1.N) (h0 : t.val % 8 = 0) (h1 : ¬t.val % 8 = 7) (y : S1024x1.Idx) :
    ∃ pc ∈ (caseA V c t h0 h1).1, y ∈ pc.1.set :=
  View.cover_of_tiledL (caseA V c t h0 h1).1 S1024x1.size (by sl_kernel_rfl) y

theorem scoverA_1 (c : Dev nD) (t : Fin cfg1.N) (h0 : t.val % 8 = 0) (h1 : ¬t.val % 8 = 7) (y : S1024x1.Idx) :
    ∃ pc ∈ (caseA V c t h0 h1).2.1, y ∈ pc.1.set :=
  View.cover_of_tiledL (caseA V c t h0 h1).2.1 S1024x1.size (by sl_kernel_rfl) y

theorem scoverA_2 (c : Dev nD) (t : Fin cfg1.N) (h0 : t.val % 8 = 0) (h1 : ¬t.val % 8 = 7) (y : S1024x1024.Idx) :
    ∃ pc ∈ (caseA V c t h0 h1).2.2.1, y ∈ pc.1.set :=
  View.cover_of_tiledL (caseA V c t h0 h1).2.2.1 S1024x1024.size (by sl_kernel_rfl) y

/-- What case A leaves: the output block (idle: a placeholder nothing consults) and the three scratch buffers, their stores read back. -/
def stA (c : Dev nD) (t : Fin cfg1.N) (h0 : t.val % 8 = 0) (h1 : ¬t.val % 8 = 7) : St (F := F) :=
  (VO1_3.read (Elt F) VO1_3.junk,
   VS1_0.read (Elt F) (VS1_0.writes (Elt F) VS1_0.junk (caseA V c t h0 h1).1),
   VS1_1.read (Elt F) (VS1_1.writes (Elt F) VS1_1.junk (caseA V c t h0 h1).2.1),
   VS1_2.read (Elt F) (VS1_2.writes (Elt F) VS1_2.junk (caseA V c t h0 h1).2.2.1))

/-- Case B at point `t`: the run at the point's memrefs and operand blocks. -/
abbrev caseB (c : Dev nD) (t : Fin cfg1.N) (h0 : ¬t.val % 8 = 0) (h1 : ¬t.val % 8 = 7) (xs0 xs1 : Vec F S1024x1 .f32) (xs2 : Vec F S1024x1024 .f32) :=
  runB (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) xs0 xs1 xs2

theorem scoverB_0 (c : Dev nD) (t : Fin cfg1.N) (h0 : ¬t.val % 8 = 0) (h1 : ¬t.val % 8 = 7) (xs0 xs1 : Vec F S1024x1 .f32) (xs2 : Vec F S1024x1024 .f32) (y : S1024x1.Idx) :
    ∃ pc ∈ (caseB V c t h0 h1 xs0 xs1 xs2).1, y ∈ pc.1.set :=
  View.cover_of_tiledL (caseB V c t h0 h1 xs0 xs1 xs2).1 S1024x1.size (by sl_kernel_rfl) y

theorem scoverB_1 (c : Dev nD) (t : Fin cfg1.N) (h0 : ¬t.val % 8 = 0) (h1 : ¬t.val % 8 = 7) (xs0 xs1 : Vec F S1024x1 .f32) (xs2 : Vec F S1024x1024 .f32) (y : S1024x1.Idx) :
    ∃ pc ∈ (caseB V c t h0 h1 xs0 xs1 xs2).2.1, y ∈ pc.1.set :=
  View.cover_of_tiledL (caseB V c t h0 h1 xs0 xs1 xs2).2.1 S1024x1.size (by sl_kernel_rfl) y

theorem scoverB_2 (c : Dev nD) (t : Fin cfg1.N) (h0 : ¬t.val % 8 = 0) (h1 : ¬t.val % 8 = 7) (xs0 xs1 : Vec F S1024x1 .f32) (xs2 : Vec F S1024x1024 .f32) (y : S1024x1024.Idx) :
    ∃ pc ∈ (caseB V c t h0 h1 xs0 xs1 xs2).2.2.1, y ∈ pc.1.set :=
  View.cover_of_tiledL (caseB V c t h0 h1 xs0 xs1 xs2).2.2.1 S1024x1024.size (by sl_kernel_rfl) y

/-- What case B leaves: the output block (idle: a placeholder nothing consults) and the three scratch buffers, their stores read back. -/
def stB (c : Dev nD) (t : Fin cfg1.N) (h0 : ¬t.val % 8 = 0) (h1 : ¬t.val % 8 = 7) (p : St (F := F)) : St (F := F) :=
  (VO1_3.read (Elt F) VO1_3.junk,
   VS1_0.read (Elt F) (VS1_0.writes (Elt F) VS1_0.junk (caseB V c t h0 h1 p.2.1 p.2.2.1 p.2.2.2).1),
   VS1_1.read (Elt F) (VS1_1.writes (Elt F) VS1_1.junk (caseB V c t h0 h1 p.2.1 p.2.2.1 p.2.2.2).2.1),
   VS1_2.read (Elt F) (VS1_2.writes (Elt F) VS1_2.junk (caseB V c t h0 h1 p.2.1 p.2.2.1 p.2.2.2).2.2.1))

/-- Case C at point `t`: the run at the point's memrefs and operand blocks. -/
abbrev caseC (c : Dev nD) (t : Fin cfg1.N) (h0 : ¬t.val % 8 = 0) (h1 : t.val % 8 = 7) (xs0 xs1 : Vec F S1024x1 .f32) (xs2 : Vec F S1024x1024 .f32) :=
  runC (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) xs0 xs1 xs2

theorem scoverC_0 (c : Dev nD) (t : Fin cfg1.N) (h0 : ¬t.val % 8 = 0) (h1 : t.val % 8 = 7) (xs0 xs1 : Vec F S1024x1 .f32) (xs2 : Vec F S1024x1024 .f32) (y : S1024x1.Idx) :
    ∃ pc ∈ (caseC V c t h0 h1 xs0 xs1 xs2).2.1, y ∈ pc.1.set :=
  View.cover_of_tiledL (caseC V c t h0 h1 xs0 xs1 xs2).2.1 S1024x1.size (by sl_kernel_rfl) y

theorem scoverC_1 (c : Dev nD) (t : Fin cfg1.N) (h0 : ¬t.val % 8 = 0) (h1 : t.val % 8 = 7) (xs0 xs1 : Vec F S1024x1 .f32) (xs2 : Vec F S1024x1024 .f32) (y : S1024x1.Idx) :
    ∃ pc ∈ (caseC V c t h0 h1 xs0 xs1 xs2).2.2.1, y ∈ pc.1.set :=
  View.cover_of_tiledL (caseC V c t h0 h1 xs0 xs1 xs2).2.2.1 S1024x1.size (by sl_kernel_rfl) y

theorem scoverC_2 (c : Dev nD) (t : Fin cfg1.N) (h0 : ¬t.val % 8 = 0) (h1 : t.val % 8 = 7) (xs0 xs1 : Vec F S1024x1 .f32) (xs2 : Vec F S1024x1024 .f32) (y : S1024x1024.Idx) :
    ∃ pc ∈ (caseC V c t h0 h1 xs0 xs1 xs2).2.2.2.1, y ∈ pc.1.set :=
  View.cover_of_tiledL (caseC V c t h0 h1 xs0 xs1 xs2).2.2.2.1 S1024x1024.size (by sl_kernel_rfl) y

theorem coverC_3 (c : Dev nD) (t : Fin cfg1.N) (h0 : ¬t.val % 8 = 0) (h1 : t.val % 8 = 7) (xs0 xs1 : Vec F S1024x1 .f32) (xs2 : Vec F S1024x1024 .f32) (y : S1x1024x1024.Idx) :
    ∃ pc ∈ (caseC V c t h0 h1 xs0 xs1 xs2).1, y ∈ pc.1.set :=
  View.cover_of_tiledL (caseC V c t h0 h1 xs0 xs1 xs2).1 S1x1024x1024.size (by sl_kernel_rfl) y

/-- What case C leaves: the output block (its store read back) and the three scratch buffers, their stores read back. -/
def stC (c : Dev nD) (t : Fin cfg1.N) (h0 : ¬t.val % 8 = 0) (h1 : t.val % 8 = 7) (p : St (F := F)) : St (F := F) :=
  (VO1_3.read (Elt F) (VO1_3.writes (Elt F) VO1_3.junk (caseC V c t h0 h1 p.2.1 p.2.2.1 p.2.2.2).1),
   VS1_0.read (Elt F) (VS1_0.writes (Elt F) VS1_0.junk (caseC V c t h0 h1 p.2.1 p.2.2.1 p.2.2.2).2.1),
   VS1_1.read (Elt F) (VS1_1.writes (Elt F) VS1_1.junk (caseC V c t h0 h1 p.2.1 p.2.2.1 p.2.2.2).2.2.1),
   VS1_2.read (Elt F) (VS1_2.writes (Elt F) VS1_2.junk (caseC V c t h0 h1 p.2.1 p.2.2.1 p.2.2.2).2.2.2.1))

/-! ## The accumulation -/

/-- What the output block and the scratch buffers hold after the body at position `n`: a sweep's first point starts
    afresh, every other point continues from what the point before left. -/
def outsAt1 (c : Dev nD) : (n : ℕ) → n < cfg1.N → St (F := F)
  | 0, hn => stA V c ⟨0, hn⟩ (Nat.zero_mod 8) (by show ¬(0 % 8 = 7); decide)
  | n + 1, hn =>
    if h0 : (n + 1) % 8 = 0 then stA V c ⟨n + 1, hn⟩ h0 (by show ¬((n + 1) % 8 = 7); omega)
    else if h1 : (n + 1) % 8 = 7 then stC V c ⟨n + 1, hn⟩ h0 h1 (outsAt1 c n (Nat.lt_of_succ_lt hn))
    else stB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stA V c t h0 h1 := by
  obtain ⟨n, hn⟩ := t
  cases n with
  | zero => rfl
  | succ n => exact (dif_pos h0).trans rfl

theorem outsAt1_B (c : Dev nD) (t : Fin cfg1.N) (h0 : ¬t.val % 8 = 0) (h1 : ¬t.val % 8 = 7) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod 8) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stC V c t h0 h1 (outsAt1 V c (t.val - 1) (Nat.lt_of_le_of_lt (Nat.sub_le _ _) t.isLt)) := by
  obtain ⟨n, hn⟩ := t
  cases n with
  | zero => exact absurd (Nat.zero_mod 8) h0
  | succ n => exact (dif_neg h0).trans ((dif_pos h1).trans rfl)

/-! ## The invariant -/

/-- The core's scoped buffers beside this pipeline's staging buffers — the other region's eleven staging buffers at
    anything, then the three scratch buffers at `P0`, `P1`, `P2` — and the generator register at some state. -/
def chain (c : Dev nD) (P0 P1 P2 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P0 ∗ P1 ∗ P2) ∗ (∃ r, prngReg c r))

/-- The class invariant, with the scratch buffers as memrefs owned at some contents. -/
theorem PhiA1_eq (c : Dev nD) :
    (Pipeline.ΦA spec1 c : sProp 𝕄)
      = chain c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA chain; rw [scopedRest1_eq]; simp only [scM1_0, scM1_1, scM1_2, owns_whole]; try rfl

/-- The invariant before position `n`: before the first point the class's (every scratch at anything); afterwards
    each scratch buffer at what the point before left in it. -/
def PhiS (c : Dev nD) : (n : ℕ) → n ≤ cfg1.N → sProp 𝕄
  | 0, _ => Pipeline.ΦA spec1 c
  | n + 1, hn => chain c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = chain c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2) := rfl

theorem PhiS_pos (c : Dev nD) (n : ℕ) (h : n ≤ cfg1.N) (hz : n ≠ 0) :
    PhiS V c n h = chain c (owns (c : Thread nD τ) scM1_0 fullShare (outsAt1 V c (n - 1) (by omega)).2.1) (owns (c : Thread nD τ) scM1_1 fullShare (outsAt1 V c (n - 1) (by omega)).2.2.1)
      (owns (c : Thread nD τ) scM1_2 fullShare (outsAt1 V c (n - 1) (by omega)).2.2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.KernelIdeal.Fr

end
-- ==== Proof.KIFrame1c.lean ====
/-
  The attention region, third part: the body obligation at every point, case by case, and the invariant's two ends
  (what the launch hands the region is the invariant before the first point; after the last point the invariant gives
  it back with the scratch contents forgotten).
-/
import proofs.«148373_j65481071407281_2_alg».proof.Proof.KIFrame1b

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
/-- The body at any point. The operands' memrefs hold their blocks; the position modulo 8 says which case the point
    is in; the invariant hands the body the scratch buffers at what the point before left (at anything before the
    first point) and takes them back at this point's contents; off the last key block the output block is handed
    back untouched; the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold stA; (try dsimp only)
    by_cases hz : t.val = 0
    · rw [PhiS_castSucc V c t, PhiS_zero V c _ _ hz, PhiA1_eq]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseA V c t h0 h1).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        unfold owns; iexists _; isplitr
        swap; · iexact HS2
        ipureintro; exact View.read_writes_of_cover _ _ _ _ _ (scoverA_2 V c t h0 h1)
      isplitl [Ho]; · iexact Ho
      isplitl [H0]; · iexact H0
      isplitl [H1]; · iexact H1
      isplitl [H2]; · iexact H2
      iexists _; iexact H3
    · rw [PhiS_castSucc V c t, PhiS_pos V c _ _ hz]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseA V c t h0 h1).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        unfold owns; iexists _; isplitr
        swap; · iexact HS2
        ipureintro; exact View.read_writes_of_cover _ _ _ _ _ (scoverA_2 V c t h0 h1)
      isplitl [Ho]; · iexact Ho
      isplitl [H0]; · iexact H0
      isplitl [H1]; · iexact H1
      isplitl [H2]; · iexact H2
      iexists _; iexact H3
  · have hz : t.val ≠ 0 := by omega
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold stC; (try dsimp only)
      rw [PhiS_castSucc V c t, PhiS_pos V c _ _ hz]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseC V c t h0 h1 _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverC_0 V c t h0 h1 _ _ _)
        isplitl [HS1]
        · unfold owns; iexists _; isplitr
          swap; · iexact HS1
          ipureintro; exact View.read_writes_of_cover _ _ _ _ _ (scoverC_1 V c t h0 h1 _ _ _)
        unfold owns; iexists _; isplitr
        swap; · iexact HS2
        ipureintro; exact View.read_writes_of_cover _ _ _ _ _ (scoverC_2 V c t h0 h1 _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold stB; (try dsimp only)
      rw [PhiS_castSucc V c t, PhiS_pos V c _ _ hz]; unfold chain
      iintro ⟨⟨⟨A0, A1, A2, A3, A4, A5, A6, A7, A8, A9, A10, HS0, HS1, HS2⟩, Hg⟩, Ho, ⟨%d0, H0⟩, ⟨%d1, H1⟩, ⟨%d2, H2⟩, ⟨%d3, H3⟩⟩
      iapply ((caseB V c t h0 h1 _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [A0 A1 A2 A3 A4 A5 A6 A7 A8 A9 A10 HS0 HS1 HS2 Hg]
      · isplitl [A0 A1 A2 A3 A4 A5 A6 A7 A8 A9 A10 HS0 HS1 HS2]
        swap; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [HS0]
        · unfold owns; iexists _; isplitr
          swap; · iexact HS0
          ipureintro; exact View.read_writes_of_cover _ _ _ _ _ (scoverB_0 V c t h0 h1 _ _ _)
        isplitl [HS1]
        · unfold owns; iexists _; isplitr
          swap; · iexact HS1
          ipureintro; exact View.read_writes_of_cover _ _ _ _ _ (scoverB_1 V c t h0 h1 _ _ _)
        unfold owns; iexists _; isplitr
        swap; · iexact HS2
        ipureintro; exact View.read_writes_of_cover _ _ _ _ _ (scoverB_2 V c t h0 h1 _ _ _)
      isplitl [Ho]; · iexact Ho
      isplitl [H0]; · iexact H0
      isplitl [H1]; · iexact H1
      isplitl [H2]; · iexact H2
      iexists _; iexact H3

/-- The body obligation of the attention pipeline, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold chain
  iintro ⟨⟨A0, A1, A2, A3, A4, A5, A6, A7, A8, A9, A10, HS0, HS1, HS2⟩, Hg⟩
  isplitl [A0 A1 A2 A3 A4 A5 A6 A7 A8 A9 A10 HS0 HS1 HS2]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [HS0]; · iexists _; iexact HS0
  isplitl [HS1]; · iexists _; iexact HS1
  iexists _; iexact HS2

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KIRun.lean ====
/-
  The whole program's run. @main is: three host conversions of the weights, the projection region, the attention
  region. Between items each core holds every unscoped buffer at a known valuation: the launch memory, then the host
  conversions applied, then the three projections at what the first pipeline's write-backs leave, then the result at
  what the second pipeline's write-backs leave. Each region is entered by splitting its windows' arrays out of the
  unscoped buffers and left by putting them back; the scratch of the attention region lives inside its invariant.
  The run ends with the result array at the last valuation and every argument as launched.
-/
import proofs.«148373_j65481071407281_2_alg».proof.Proof.KIFrame0
import proofs.«148373_j65481071407281_2_alg».proof.Proof.KIFrame1c
import proofs.«148373_j65481071407281_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffer contents at the segment boundaries -/

/-- At the projection region's entry, read at the TensorCore's references. -/
abbrev Va1 : (c : Dev nD) → (b : Ref sig .tc) → Buf (Elt F) ((c : Thread nD τ).loc b) := fun c b => V1 m c b

/-- At the projection region's exit: its arrays at what the pipeline leaves, every other buffer as entered. -/
def W2 (c : Dev nD) : Valuation τ sig (Elt F) :=
  Pipeline.withArrays spec0 c (V1 m c) fun w => (dat0 (Va1 m) c).arrAt w cfg0.N
theorem W2_arr (c : Dev nD) (w : Fin cfg0.W) :
    W2 m c (Proc.devRef .tc (Pipeline.arrRef spec0 w)) = (dat0 (Va1 m) c).arrAt w cfg0.N := by
  unfold W2; exact Pipeline.withArrays_arr spec0 launch0.win.arr_inj c _ _ w

/-- What the projection region leaves in the buffers it may change. -/
def o2 (r : Ref sig .tc) (c : Dev nD) : Buf (Elt F) ((c : Thread nD τ).loc r) := W2 m c r

/-- The valuation after the projection region. -/
abbrev V2' (c : Dev nD) : Valuation τ sig (Elt F) :=
  Function.update (Function.update (Function.update (V1 m c) main_v3_0 (o2 m main_v3_0 c)) main_v3_1 (o2 m main_v3_1 c)) main_v3_2 (o2 m main_v3_2 c)

/-- At the attention region's exit. -/
def W3 (c : Dev nD) : Valuation τ sig (Elt F) :=
  Pipeline.withArrays spec1 c (V2' m c) fun w => (dat1 (fun c b => V2' m c b) c).arrAt w cfg1.N
theorem W3_arr (c : Dev nD) (w : Fin cfg1.W) :
    W3 m c (Proc.devRef .tc (Pipeline.arrRef spec1 w)) = (dat1 (fun c b => V2' m c b) c).arrAt w cfg1.N := by
  unfold W3; exact Pipeline.withArrays_arr spec1 launch1.win.arr_inj c _ _ w

/-- The regions' unknowns: the three projections after the first region, the result after the second. -/
def outsK : Outs (F := F) := fun J r c => if J = 2 then o2 m r c else W3 m c r

theorem V2_eq (c : Dev nD) : V2 m (outsK m) c = V2' m c := rfl

/-- The valuation after the attention region. -/
abbrev V3' (c : Dev nD) : Valuation τ sig (Elt F) := V3 m (outsK m) c

/-! ## Every pipeline's proof data -/

def pdats : (p : Fin 2) → (c : Dev nD) → Dat τ (Elt F) Unit ℕ (UR sig nD τ) ℕ (cfgs p) c
  | ⟨0, _⟩ => fun c => dat0 (Va1 m) c
  | ⟨1, _⟩ => fun c => dat1 (fun c b => V2' m c b) c

abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)

/-! ## What each region leaves, array by array -/

theorem hF0 (c : Dev nD) (w : Fin cfg0.W) : (pdats m 0 c).arrAt w cfg0.N = (fun b => V2' m c b) (Pipeline.arrRef spec0 w) := by
  fin_cases w
  · exact ((pdats m 0 c).arrAt_in 0 rfl _).trans (V2_of m (outsK m) c main_arg0 (by decide)).symm
  · exact ((pdats m 0 c).arrAt_in 1 rfl _).trans (V2_of m (outsK m) c main_v0 (by decide)).symm
  · exact ((pdats m 0 c).arrAt_in 2 rfl _).trans (V2_of m (outsK m) c main_v1 (by decide)).symm
  · exact ((pdats m 0 c).arrAt_in 3 rfl _).trans (V2_of m (outsK m) c main_v2 (by decide)).symm
  · refine Eq.trans (W2_arr m c 4).symm ?_
    show o2 m main_v3_0 c = V2' m c (Proc.devRef .tc main_v3_0)
    unfold V2'
    rw [Function.update_of_ne (StableHlo.devRef_ne_of_ne (by decide : (main_v3_0 : Ref sig .tc) ≠ main_v3_2) : (Proc.devRef .tc main_v3_0 : DevRef τ sig) ≠ Proc.devRef .tc main_v3_2), Function.update_of_ne (StableHlo.devRef_ne_of_ne (by decide : (main_v3_0 : Ref sig .tc) ≠ main_v3_1) : (Proc.devRef .tc main_v3_0 : DevRef τ sig) ≠ Proc.devRef .tc main_v3_1), Function.update_self]
  · refine Eq.trans (W2_arr m c 5).symm ?_
    show o2 m main_v3_1 c = V2' m c (Proc.devRef .tc main_v3_1)
    unfold V2'
    rw [Function.update_of_ne (StableHlo.devRef_ne_of_ne (by decide : (main_v3_1 : Ref sig .tc) ≠ main_v3_2) : (Proc.devRef .tc main_v3_1 : DevRef τ sig) ≠ Proc.devRef .tc main_v3_2), Function.update_self]
  · refine Eq.trans (W2_arr m c 6).symm ?_
    show o2 m main_v3_2 c = V2' m c (Proc.devRef .tc main_v3_2)
    unfold V2'
    rw [Function.update_self]

theorem hrest0 (c : Dev nD) : ∀ b, b ∉ Finset.univ.image (Pipeline.arrRef spec0) → (fun b => V2' m c b) b = (fun b => V1 m c b) b :=
  fun b hb => V2_of m (outsK m) c b (fun h => hb (by
    rcases List.mem_cons.mp h with rfl | h
    · exact Finset.mem_image.mpr ⟨4, Finset.mem_univ _, rfl⟩
    rcases List.mem_cons.mp h with rfl | h
    · exact Finset.mem_image.mpr ⟨5, Finset.mem_univ _, rfl⟩
    rcases List.mem_cons.mp h with rfl | h
    · exact Finset.mem_image.mpr ⟨6, Finset.mem_univ _, rfl⟩
    exact absurd h (List.not_mem_nil)))

theorem hF1 (c : Dev nD) (w : Fin cfg1.W) : (pdats m 1 c).arrAt w cfg1.N = (fun b => V3' m c b) (Pipeline.arrRef spec1 w) := by
  fin_cases w
  · exact ((pdats m 1 c).arrAt_in 0 rfl _).trans (V3_of m (outsK m) c main_v3_0 (by decide)).symm
  · exact ((pdats m 1 c).arrAt_in 1 rfl _).trans (V3_of m (outsK m) c main_v3_1 (by decide)).symm
  · exact ((pdats m 1 c).arrAt_in 2 rfl _).trans (V3_of m (outsK m) c main_v3_2 (by decide)).symm
  · refine Eq.trans (W3_arr m c 3).symm ?_
    show W3 m c (Proc.devRef .tc main_v4) = V3 m (outsK m) c (Proc.devRef .tc main_v4)
    unfold V3
    rw [Function.update_self]
    rfl

theorem hrest1 (c : Dev nD) : ∀ b, b ∉ Finset.univ.image (Pipeline.arrRef spec1) → (fun b => V3' m c b) b = (fun b => V2' m c b) b :=
  fun b hb => V3_of m (outsK m) c b (fun h => hb (by
    rcases List.mem_cons.mp h with rfl | h
    · exact Finset.mem_image.mpr ⟨3, Finset.mem_univ _, rfl⟩
    exact absurd h (List.not_mem_nil)))

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2' m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2' m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V2' m c b) c).loose
  hwaits := Pipeline.hwaits_of_owed_zero _ _ _ _ L lv 1 fun _ _ => rfl
  pre c := iprop(StableHlo.held (c : Thread nD τ) (Pipeline.ucRefs τ sig) (V2' m c) ∗ R c)
  post c := iprop(StableHlo.held (c : Thread nD τ) (Pipeline.ucRefs τ sig) (V3' m c) ∗ R c)
  X c := iprop(∃ r, prngReg c r)
  Y c := iprop(∃ r, prngReg c r)
  Z c := Pipeline.unscopedRest (Ix := Unit) (Name := ℕ) (U := UR sig nD τ) (Lvl := ℕ) spec1 c (fun b => V2' m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V2' m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := by
      have h' := hin1 (fun c b => V2' m c b) c
      unfold Pipeline.ΦA at h'
      exact h'
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest spec1 c ∗ ∃ r, prngReg c r) : sProp 𝕄) := by
      have h' := hout1 (fun c b => V2' m c b) c
      unfold Pipeline.ΦA at h'
      exact h'
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V2' m c b) (fun b => V3' m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KIMain.lean ====
/-
  The run of the whole program, from any memory with zero counters: every weakly fair execution terminates, nothing
  faults, the result array ends at the last valuation's contents and every argument array as launched. The launch
  hands each core its unscoped buffers at the launch memory, the generator register and its dues; the three
  segments (the host conversions, the two regions) chain through the valuations; at the end the last valuation is read
  against the final memory.
-/
import proofs.«148373_j65481071407281_2_alg».proof.Proof.KIRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v4) = V3' m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hlast : ∀ c : Dev nD, (iprop(StableHlo.held (c : Thread nD τ) (Pipeline.ucRefs τ sig) (V3' m c) ∗ R c) : sProp 𝕄)
      ⊢ iprop((StableHlo.held (c : Thread nD τ) (Pipeline.ucRefs τ sig) (V3' m c) ∗ ∃ r, prngReg c r) ∗ ∃ W, owes (c : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m 𝒱₀ L lv (fun _ c => R c) () (pdats m) (reg0 m) (reg1 m))
    (fun c Q => by
      rewrite [main_chain c, Seg.run_eq_chain,
        show (segs m 𝒱₀ L lv (fun _ c => R c) () (pdats m) (reg0 m) (reg1 m) c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V3' m c) ∗ ∃ r, prngReg c r))
    (hch := fun c => ⟨.rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v4) = V3' m c main_v4
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  unfold StableHlo.held
  iintro ⟨⟨Hh, -⟩, HSI⟩
  ihave Hr := (pointsTo_read_all (Pipeline.ucRefs τ sig) (fun b => ((c : Thread nD τ).1, b)) (V3' m c) s') $$ [Hh HSI]
  · isplitl [Hh] <;> iassumption
  icases Hr with ⟨%h, HSI⟩
  imodintro
  isplitr
  · ipureintro
    exact ⟨h (Proc.devRef .tc main_v4) (Finset.mem_filter.mpr ⟨StableHlo.devRef_mem_tcRefs main_v4, by decide⟩),
      (h (Proc.devRef .tc main_arg0) (Finset.mem_filter.mpr ⟨StableHlo.devRef_mem_tcRefs main_arg0, by decide⟩)).trans (V3_main_arg0 m (outsK m) c),
      (h (Proc.devRef .tc main_arg1) (Finset.mem_filter.mpr ⟨StableHlo.devRef_mem_tcRefs main_arg1, by decide⟩)).trans (V3_main_arg1 m (outsK m) c),
      (h (Proc.devRef .tc main_arg2) (Finset.mem_filter.mpr ⟨StableHlo.devRef_mem_tcRefs main_arg2, by decide⟩)).trans (V3_main_arg2 m (outsK m) c),
      (h (Proc.devRef .tc main_arg3) (Finset.mem_filter.mpr ⟨StableHlo.devRef_mem_tcRefs main_arg3, by decide⟩)).trans (V3_main_arg3 m (outsK m) c)⟩
  · iexact HSI

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Fr

end
-- ==== Proof.RefFrame.lean ====
/-
  The reference's frame. The reference is a straight line of host operations (three projections, the scaled
  scores, a row maximum, the exponentials, a row sum, the quotient, the weighted sum of the values): its run
  ends with every result at the operations' composed term and the arguments as launched; the frame keeps the
  second half of that post.
-/
import proofs.«148373_j65481071407281_2_alg».proof.Defs
import proofs.«148373_j65481071407281_2_alg».proof.Proof.Gen.ReferenceIdeal.Run
import proofs.«148373_j65481071407281_2_alg».proof.Proof.Gen.ReferenceIdeal.Read

noncomputable section

namespace Cert.Proof.RefFrame

open Idealize.ShloMosaic Idealize.SL.Sem

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.LibMatmulNT.lean ====
/-
  A matrix product against a transposed right operand, read at an entry.

  For a product of an [M, K] matrix with an [N, K] matrix in which BOTH operands contract their second axis (A · Bᵀ:
  the scores of M query rows against N key rows), taken into the zero accumulator and read at the exact extended
  reals, entry (p, q) is the sum over k of A (p, k) * B (q, k). Generic in the three extents and in the
  dimension-number record: any record with these six lists has these operand indices.
-/
import Idealize.ShloMosaic.PureOps.Ideal.Laws
import Idealize.ShloMosaic.Lib.ValueIdx

noncomputable section

namespace Cert.Lib.MatmulNT

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_nt (d : DotDims ⟨2, ![M, K]⟩ ⟨2, ![N, K]⟩ ⟨2, ![M, N]⟩) (hlc : d.lhsContracting = [1]) :
    d.contr.rank = 1 := by rw [d.rank_contr, hlc]; rfl

/-- of extent K. -/
theorem contr_size_nt (d : DotDims ⟨2, ![M, K]⟩ ⟨2, ![N, K]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_nt (d : DotDims ⟨2, ![M, K]⟩ ⟨2, ![N, K]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (q, k). -/
theorem rhsIdx_nt (d : DotDims ⟨2, ![M, K]⟩ ⟨2, ![N, K]⟩ ⟨2, ![M, N]⟩)
    (hlb : d.lhsBatch = []) (hln : d.lhsNonContracting = [0])
    (hrb : d.rhsBatch = []) (hrn : d.rhsNonContracting = [0]) (hrc : d.rhsContracting = [1])
    (hr : d.contr.rank = 1) (hs : d.contr.size ⟨0, by omega⟩ = K) (p : Fin M) (q : Fin N) (k : Fin K) :
    d.rhsIdx (ix2 p q) ((contrEquiv1 d K hr hs).symm k) = ix2 q k := by
  funext a
  apply Fin.ext
  match a with
  | ⟨0, h0⟩ =>
    have hb : (⟨0, h0⟩ : Fin 2) ∉ d.rhsBatch := by rw [hrb]; exact List.not_mem_nil
    have hn : (⟨0, h0⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])
  | ⟨1, h1⟩ =>
    exact (d.rhsIdx_val_of_single hrc (ix2 p q) _).trans (contrEquiv1_symm_val d K hr hs k)

/-- Entry (p, q) of the product into the zero accumulator is the sum over k of A (p, k) * B (q, k). -/
theorem matmul_nt_apply {φ₁ φ₂ : FTy} (d : DotDims ⟨2, ![M, K]⟩ ⟨2, ![N, K]⟩ ⟨2, ![M, N]⟩)
    (hlb : d.lhsBatch = []) (hln : d.lhsNonContracting = [0]) (hlc : d.lhsContracting = [1])
    (hrb : d.rhsBatch = []) (hrn : d.rhsNonContracting = [0]) (hrc : d.rhsContracting = [1])
    (prec : Option ContractPrecision) (A : FVec Ideal ⟨2, ![M, K]⟩ φ₁) (B : FVec Ideal ⟨2, ![N, K]⟩ φ₂)
    (p : Fin M) (q : Fin N) :
    matmul d prec A B (constant (F := Ideal) ⟨2, ![M, N]⟩ .f32 0x00000000#32) (ix2 p q)
      = ∑ k : Fin K, A (ix2 p k) * B (ix2 q k) := by
  have hr : d.contr.rank = 1 := contr_rank_nt d hlc
  have hs : d.contr.size ⟨0, by omega⟩ = K := contr_size_nt d hlc _
  refine (Ideal.matmul_constant_zero_apply d prec A B (ix2 p q)).trans ?_
  rw [← Equiv.sum_comp (contrEquiv1 d K hr hs).symm]
  refine Finset.sum_congr rfl fun k _ => ?_
  rw [lhsIdx_nt d hlb hln hlc hr hs p q k, rhsIdx_nt d hlb hln hrb hrn hrc hr hs p q k]

end Cert.Lib.MatmulNT

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«148373_j65481071407281_2_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.KernelPay.lean ====
/-
  The two kernels' payloads read at an index, at the exact extended reals.

  The projection kernel multiplies a block of 512 rows by a transposed 1024 x 1024 weight matrix: entry (s, e) of
  each of its three results is the sum over d of x (s, d) * w (e, d), the first also scaled by a constant. The
  attention kernel's step takes the scores of 1024 query rows against 512 keys (entry (r, k) is the sum over e of
  q (r, e) * key (k, e)), the running row maximum, the two exponentials of the online softmax, the running
  denominator and the rescaled accumulator, and finally the accumulator plus the product of the weights with the
  values, and the quotient of the accumulator by the denominator. Each is stated at an index given by coordinates.
-/
import proofs.«148373_j65481071407281_2_alg».proof.Proof.Gen.KernelIdeal.Skeleton
import proofs.«148373_j65481071407281_2_alg».proof.Proof.LibMatmulNT
import proofs.«148373_j65481071407281_2_alg».proof.Proof.LibPlainMatmul
import proofs.«148373_j65481071407281_2_alg».proof.Proof.LibKeepdims
import proofs.«148373_j65481071407281_2_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-! ## The projection kernel -/

/-- The input block with its leading unit axis dropped (its narrowing to the 16-bit format is the identity here). -/
theorem pay1_0_apply (v0 : Vec Ideal S1x512x1024 .f32) (s : Fin 512) (d : Fin 1024) :
    k0_pay1 v0 (ix2 s d) = v0 (ix3 (0 : Fin 1) s d) := by
  unfold k0_pay1
  exact shapeCast_1ab_ab_apply v0 _ s d

/-- Entry (s, e) of the block times the transposed weights: the sum over d of x (s, d) * w (e, d). -/
theorem proj_apply (v0 : Vec Ideal S1x512x1024 .f32) (w : Vec Ideal S1024x1024 .bf16) (s : Fin 512) (e : Fin 1024) :
    matmul dot_S512x1024_S1024x1024_S512x1024_1_1_0_0_n_n none (k0_pay1 v0)
        (shapeCast S1024x1024 w Facts₀.shapeCasts_S1024x1024_S1024x1024 : FVec Ideal S1024x1024 .bf16)
        (constant (F := Ideal) S512x1024 .f32 0x00000000#32) (ix2 s e)
      = ∑ d : Fin 1024, v0 (ix3 (0 : Fin 1) s d) * w (ix2 e d) := by
  refine (Cert.Lib.MatmulNT.matmul_nt_apply dot_S512x1024_S1024x1024_S512x1024_1_1_0_0_n_n rfl rfl rfl rfl rfl rfl
    none (k0_pay1 v0) _ s e).trans ?_
  refine Finset.sum_congr rfl fun d _ => ?_
  rw [pay1_0_apply, shapeCast_self]

/-- The first result is that product scaled by a constant. -/
theorem pay2_apply (v0 : Vec Ideal S1x512x1024 .f32) (w : Vec Ideal S1024x1024 .bf16) (s : Fin 512) (e : Fin 1024) :
    k0_pay2 v0 w (ix3 (0 : Fin 1) s e)
      = (∑ d : Fin 1024, v0 (ix3 (0 : Fin 1) s d) * w (ix2 e d)) * Ideal.ofBits .f32 0x3D000000#32 := by
  unfold k0_pay2
  refine (shapeCast_ab_1ab_apply _ _ (0 : Fin 1) s e).trans ?_
  exact congrArg (fun x => x * Ideal.ofBits .f32 0x3D000000#32) (proj_apply v0 w s e)

/-- The second result is the product itself, -/
theorem pay3_apply (v0 : Vec Ideal S1x512x1024 .f32) (w : Vec Ideal S1024x1024 .bf16) (s : Fin 512) (e : Fin 1024) :
    k0_pay3 v0 w (ix3 (0 : Fin 1) s e) = ∑ d : Fin 1024, v0 (ix3 (0 : Fin 1) s d) * w (ix2 e d) := by
  unfold k0_pay3
  refine (shapeCast_ab_1ab_apply _ _ (0 : Fin 1) s e).trans ?_
  exact proj_apply v0 w s e

/-- and so is the third. -/
theorem pay4_apply (v0 : Vec Ideal S1x512x1024 .f32) (w : Vec Ideal S1024x1024 .bf16) (s : Fin 512) (e : Fin 1024) :
    k0_pay4 v0 w (ix3 (0 : Fin 1) s e) = ∑ d : Fin 1024, v0 (ix3 (0 : Fin 1) s d) * w (ix2 e d) := by
  unfold k0_pay4
  refine (shapeCast_ab_1ab_apply _ _ (0 : Fin 1) s e).trans ?_
  exact proj_apply v0 w s e

/-! ## The attention kernel: layout and pointwise payloads -/

/-- The value block with its leading unit axis dropped. -/
theorem pay7_apply (v7 : Vec Ideal S1x512x1024 .bf16) (k : Fin 512) (e : Fin 1024) :
    k1_pay7 v7 (ix2 k e) = v7 (ix3 (0 : Fin 1) k e) := by
  unfold k1_pay7
  exact shapeCast_1ab_ab_apply v7 _ k e

/-- A cast of a column to its own shape changes nothing. -/
theorem pay2'_apply (v13 : FVec Ideal S1024x1 .f32) (j : S1024x1.Idx) : k1_pay2 v13 j = v13 j := by
  unfold k1_pay2
  exact congrFun (shapeCast_self v13 _) j

/-- The running maximum starts at the pattern of minus infinity, -/
theorem pay4_init (r : Fin 1024) :
    k1_pay4 (F := Ideal) (ix2 r (0 : Fin 1)) = Ideal.ofBits .f32 0xFF800000#32 := by
  unfold k1_pay4
  exact congrFun (shapeCast_self _ _) _

/-- the running denominator at zero, -/
theorem pay5_init (r : Fin 1024) : k1_pay5 (F := Ideal) (ix2 r (0 : Fin 1)) = 0 := by
  unfold k1_pay5
  exact (congrFun (shapeCast_self _ _) _).trans Ideal.ofBits_zero_f32

/-- and the accumulator at zero. -/
theorem pay6_init (r e : Fin 1024) : k1_pay6 (F := Ideal) (ix2 r e) = 0 := by
  unfold k1_pay6
  exact (congrFun (shapeCast_self _ _) _).trans Ideal.ofBits_zero_f32

/-- The correction factor of a row: the exponential of the old maximum minus the new one. -/
theorem pay10_apply (v3 : Vec Ideal S1x1024x1024 .bf16) (v5 : Vec Ideal S1x512x1024 .bf16)
    (v10 v14 : Vec Ideal S1024x1 .f32) (r : Fin 1024) :
    k1_pay10 v3 v5 v10 v14 (ix2 r (0 : Fin 1))
      = Ideal.exp (v14 (ix2 r 0) - k1_pay9 v3 v5 v10 (ix2 r 0)) := by
  unfold k1_pay10
  rfl

/-- The weight of key k in row r: the exponential of the score minus the row's new maximum. -/
theorem pay11_apply (v3 : Vec Ideal S1x1024x1024 .bf16) (v5 : Vec Ideal S1x512x1024 .bf16)
    (v10 : Vec Ideal S1024x1 .f32) (r : Fin 1024) (k : Fin 512) :
    k1_pay11 v3 v5 v10 (ix2 r k)
      = Ideal.exp (k1_pay8 v3 v5 (ix2 r k) - k1_pay9 v3 v5 v10 (ix2 r (0 : Fin 1))) := by
  unfold k1_pay11
  exact congrArg (fun x => Ideal.exp (k1_pay8 v3 v5 (ix2 r k) - x))
    (Cert.Lib.broadcastTo_a1_ab_apply (k1_pay9 v3 v5 v10) _ r k)

/-- The accumulator rescaled by the row's correction factor. -/
theorem pay13_apply (v3 : Vec Ideal S1x1024x1024 .bf16) (v5 : Vec Ideal S1x512x1024 .bf16)
    (v10 v14 : Vec Ideal S1024x1 .f32) (v28 : Vec Ideal S1024x1024 .f32) (r e : Fin 1024) :
    k1_pay13 v3 v5 v10 v14 v28 (ix2 r e)
      = k1_pay10 v3 v5 v10 v14 (ix2 r (0 : Fin 1)) * v28 (ix2 r e) := by
  unfold k1_pay13
  exact congrArg (fun x => x * v28 (ix2 r e))
    (Cert.Lib.broadcastTo_a1_ab_apply (k1_pay10 v3 v5 v10 v14) _ r e)

/-- The result: the accumulator divided, row by row, by the denominator. -/
theorem pay3'_apply (v43 : Vec Ideal S1024x1024 .f32) (v44 : Vec Ideal S1024x1 .f32) (r e : Fin 1024) :
    k1_pay3 v43 v44 (ix3 (0 : Fin 1) r e) = Ideal.div (v43 (ix2 r e)) (v44 (ix2 r (0 : Fin 1))) := by
  unfold k1_pay3
  refine (shapeCast_ab_1ab_apply _ _ (0 : Fin 1) r e).trans ?_
  exact congrArg (fun x => Ideal.div (v43 (ix2 r e)) x) (Cert.Lib.broadcastTo_a1_ab_apply v44 _ r e)

/-! ## The attention kernel: products and row reductions -/

/-- The score of query row r against key k: the sum over e of q (r, e) * key (k, e). -/
theorem pay8_apply (v3 : Vec Ideal S1x1024x1024 .bf16) (v5 : Vec Ideal S1x512x1024 .bf16) (r : Fin 1024) (k : Fin 512) :
    k1_pay8 v3 v5 (ix2 r k) = ∑ e : Fin 1024, v3 (ix3 (0 : Fin 1) r e) * v5 (ix3 (0 : Fin 1) k e) := by
  unfold k1_pay8
  refine (Cert.Lib.MatmulNT.matmul_nt_apply dot_S1024x1024_S512x1024_S1024x512_1_1_0_0_n_n rfl rfl rfl rfl rfl rfl
    none _ _ r k).trans ?_
  refine Finset.sum_congr rfl fun e _ => ?_
  rw [shapeCast_1ab_ab_apply, shapeCast_1ab_ab_apply]

/-- The accumulator plus the weights times the values: at (r, e), the sum over k of weight (r, k) * value (k, e). -/
theorem pay1_apply (v8 : FVec Ideal S512x1024 .bf16) (v19 : FVec Ideal S1024x512 .f32) (v30 : FVec Ideal S1024x1024 .f32)
    (r e : Fin 1024) :
    k1_pay1 v8 v19 v30 (ix2 r e) = v30 (ix2 r e) + ∑ k : Fin 512, v19 (ix2 r k) * v8 (ix2 k e) := by
  unfold k1_pay1
  refine (congrFun (shapeCast_self _ _) _).trans ?_
  exact congrArg (fun x => v30 (ix2 r e) + x)
    (Cert.SE.Lib.matmul_plain_apply dot_S1024x512_S512x1024_S1024x1024_1_0_0_1_n_n rfl rfl rfl rfl rfl rfl
      none (truncf .bf16 v19 Facts₀.bitsLt_bf16_f32) v8 r e)

/-- The new maximum of a row: the larger of the old one and the largest score of the row. -/
theorem pay9_apply (v3 : Vec Ideal S1x1024x1024 .bf16) (v5 : Vec Ideal S1x512x1024 .bf16)
    (v10 : Vec Ideal S1024x1 .f32) (r : Fin 1024) :
    k1_pay9 v3 v5 v10 (ix2 r (0 : Fin 1))
      = max (v10 (ix2 r 0)) ((Finset.univ : Finset (Fin 512)).fold max (Ideal.ofBits .f32 0xFF800000#32)
          (fun k => k1_pay8 v3 v5 (ix2 r k))) := by
  unfold k1_pay9
  exact congrArg (fun x => max (v10 (ix2 r 0)) x)
    (Cert.Lib.rowMax_col (k1_pay8 v3 v5) 0xFF800000#32 Facts₀.reduces_S1024x512_S1024 (.inl rfl) rfl
      Facts₀.shapeCasts_S1024_S1024x1 r (0 : Fin 1))

/-- The same with minus infinity named, given that the pattern denotes it. -/
theorem pay9_apply_bot (hb : Ideal.ofBits .f32 0xFF800000#32 = ⊥) (v3 : Vec Ideal S1x1024x1024 .bf16)
    (v5 : Vec Ideal S1x512x1024 .bf16) (v10 : Vec Ideal S1024x1 .f32) (r : Fin 1024) :
    k1_pay9 v3 v5 v10 (ix2 r (0 : Fin 1))
      = max (v10 (ix2 r 0)) ((Finset.univ : Finset (Fin 512)).fold max ⊥ (fun k => k1_pay8 v3 v5 (ix2 r k))) := by
  rw [pay9_apply, hb]

/-- The new denominator of a row: the old one times the correction factor, plus the sum of the row's weights. -/
theorem pay12_apply (v3 : Vec Ideal S1x1024x1024 .bf16) (v5 : Vec Ideal S1x512x1024 .bf16)
    (v10 v14 v20 : Vec Ideal S1024x1 .f32) (r : Fin 1024) :
    k1_pay12 v3 v5 v10 v14 v20 (ix2 r (0 : Fin 1))
      = k1_pay10 v3 v5 v10 v14 (ix2 r 0) * v20 (ix2 r 0) + ∑ k : Fin 512, k1_pay11 v3 v5 v10 (ix2 r k) := by
  unfold k1_pay12
  refine (congrFun (shapeCast_self _ _) _).trans ?_
  exact congrArg (fun x => k1_pay10 v3 v5 v10 v14 (ix2 r 0) * v20 (ix2 r 0) + x)
    (Cert.Lib.rowSum_col (k1_pay11 v3 v5 v10) 0x00000000#32 Facts₀.reduces_S1024x512_S1024 (.inl rfl) rfl
      Facts₀.shapeCasts_S1024_S1024x1 r (0 : Fin 1))

end Cert.KernelIdeal.Pay

end
-- ==== Proof.LibOnlineSoftmax.lean ====
import Idealize.ShloMosaic.PureOps.Ideal
import Mathlib

/-!
# The online (blockwise) softmax recurrence against the two-pass softmax

Pure mathematics over the extended reals.  A row of blockwise attention keeps a running
maximum, a running denominator and a running numerator; each new block of keys rescales the
two accumulators by the exponential of the change of the maximum.  For real scores and values
the quotient numerator/denominator is the softmax-weighted average of the values over all
keys seen so far, which is also what the two-pass softmax computes.
-/

noncomputable section

namespace OnlineSoftmax

open Idealize.ShloMosaic

/-! ### Coercions of finite sums and of finite maxima -/

/-- The coercion of a finite real sum is the extended-real sum of the coercions. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The coercion of a maximum of two reals is the maximum of the coercions. -/
theorem coe_max (x y : ℝ) : ((max x y : ℝ) : EReal) = max (x : EReal) (y : EReal) :=
  EReal.coe_strictMono.monotone.map_max

/-- The maximum, started from ⊥, of finitely many reals over a nonempty set is a real that
    bounds every one of them. -/
theorem fold_max_coe_finset {ι : Type*} [DecidableEq ι] (f : ι → ℝ) (t : Finset ι) :
    t.Nonempty → ∃ M : ℝ, t.fold max ⊥ (fun k => (f k : EReal)) = ↑M ∧ ∀ k ∈ t, f k ≤ M := by
  induction t using Finset.induction_on with
  | empty => intro h; exact absurd h Finset.not_nonempty_empty
  | insert a t ha ih =>
    intro _
    rw [Finset.fold_insert ha]
    rcases t.eq_empty_or_nonempty with rfl | hne
    · exact ⟨f a, by simp, by simp⟩
    · obtain ⟨M, hM, hle⟩ := ih hne
      refine ⟨max (f a) M, ?_, ?_⟩
      · rw [hM, coe_max]
      · intro k hk
        rcases Finset.mem_insert.mp hk with rfl | hk
        · exact le_max_left _ _
        · exact (hle k hk).trans (le_max_right _ _)

theorem fold_max_coe {N : ℕ} (hN : 0 < N) (sr : Fin N → ℝ) :
    ∃ M : ℝ, (Finset.univ : Finset (Fin N)).fold max ⊥ (fun k => (sr k : EReal)) = ↑M
      ∧ ∀ k, sr k ≤ M := by
  haveI : Nonempty (Fin N) := ⟨⟨0, hN⟩⟩
  obtain ⟨M, hM, hle⟩ := fold_max_coe_finset sr Finset.univ Finset.univ_nonempty
  exact ⟨M, hM, fun k => hle k (Finset.mem_univ k)⟩

/-! ### Real algebra: taking the factor exp (-M) out of the sums -/

theorem sum_exp_sub_mul {ι : Type*} (t : Finset ι) (s w : ι → ℝ) (M : ℝ) :
    ∑ k ∈ t, Real.exp (s k - M) * w k = Real.exp (-M) * ∑ k ∈ t, Real.exp (s k) * w k := by
  rw [Finset.mul_sum]
  refine Finset.sum_congr rfl fun k _ => ?_
  rw [sub_eq_add_neg, Real.exp_add]; ring

theorem sum_exp_sub {ι : Type*} (t : Finset ι) (s : ι → ℝ) (M : ℝ) :
    ∑ k ∈ t, Real.exp (s k - M) = Real.exp (-M) * ∑ k ∈ t, Real.exp (s k) := by
  simpa using sum_exp_sub_mul t s (fun _ => 1) M

/-- Moving the reference point of the exponents from M to M'. -/
theorem rescale_mul {ι : Type*} (t : Finset ι) (s w : ι → ℝ) (M M' : ℝ) :
    Real.exp (M - M') * ∑ k ∈ t, Real.exp (s k - M) * w k = ∑ k ∈ t, Real.exp (s k - M') * w k := by
  rw [sum_exp_sub_mul t s w M, sum_exp_sub_mul t s w M', ← mul_assoc, ← Real.exp_add]
  congr 2; ring

theorem rescale {ι : Type*} (t : Finset ι) (s : ι → ℝ) (M M' : ℝ) :
    Real.exp (M - M') * ∑ k ∈ t, Real.exp (s k - M) = ∑ k ∈ t, Real.exp (s k - M') := by
  simpa using rescale_mul t s (fun _ => 1) M M'

/-! ### The recurrence -/

variable {C : ℕ}

/-- softmax-weighted average over a finite index type, on the reals -/
def avg {ι : Type*} [Fintype ι] (s v : ι → ℝ) : ℝ :=
  (∑ k, Real.exp (s k) * v k) / ∑ k, Real.exp (s k)

/-- the running triple (maximum, denominator, numerator) after n blocks -/
def run (s v : ℕ → Fin C → EReal) : ℕ → EReal × EReal × EReal
  | 0 => (⊥, 0, 0)
  | n + 1 =>
    let st := run s v n
    let mNew := max st.1 ((Finset.univ : Finset (Fin C)).fold max ⊥ (s n))
    let a := Ideal.exp (st.1 - mNew)
    (mNew, a * st.2.1 + ∑ k, Ideal.exp (s n k - mNew),
      a * st.2.2 + ∑ k, Ideal.exp (s n k - mNew) * v n k)

/-- One block of the recurrence, as a function of the previous triple. -/
def step (st : EReal × EReal × EReal) (s v : Fin C → EReal) : EReal × EReal × EReal :=
  let mNew := max st.1 ((Finset.univ : Finset (Fin C)).fold max ⊥ s)
  let a := Ideal.exp (st.1 - mNew)
  (mNew, a * st.2.1 + ∑ k, Ideal.exp (s k - mNew), a * st.2.2 + ∑ k, Ideal.exp (s k - mNew) * v k)

theorem run_succ (s v : ℕ → Fin C → EReal) (n : ℕ) :
    run s v (n + 1) = step (run s v n) (s n) (v n) := rfl

/-- The exponential of a difference of two reals. -/
theorem exp_coe_sub (x y : ℝ) : Ideal.exp ((x : EReal) - (y : EReal)) = ((Real.exp (x - y) : ℝ) : EReal) := by
  rw [← EReal.coe_sub]; rfl

/-- The block sums of a block of real scores and values, against a real maximum. -/
theorem block_den (s : Fin C → ℝ) (M : ℝ) :
    ∑ k, Ideal.exp ((s k : EReal) - (M : EReal)) = ((∑ k, Real.exp (s k - M) : ℝ) : EReal) := by
  rw [coe_sum]; exact Finset.sum_congr rfl fun k _ => exp_coe_sub _ _

theorem block_num (s v : Fin C → ℝ) (M : ℝ) :
    ∑ k, Ideal.exp ((s k : EReal) - (M : EReal)) * (v k : EReal)
      = ((∑ k, Real.exp (s k - M) * v k : ℝ) : EReal) := by
  rw [coe_sum]
  exact Finset.sum_congr rfl fun k _ => by rw [exp_coe_sub, EReal.coe_mul]

/-- The first block: from (⊥, 0, 0) the rescaling factor is exp ⊥ = 0. -/
theorem step_init (s v : Fin C → ℝ) (B : ℝ)
    (hB : (Finset.univ : Finset (Fin C)).fold max ⊥ (fun k => (s k : EReal)) = ↑B) :
    step (⊥, 0, 0) (fun k => (s k : EReal)) (fun k => (v k : EReal))
      = (↑B, ((∑ k, Real.exp (s k - B) : ℝ) : EReal), ((∑ k, Real.exp (s k - B) * v k : ℝ) : EReal)) := by
  simp only [step, hB, bot_le, max_eq_right, EReal.bot_sub, Ideal.exp_bot, mul_zero, zero_add,
    block_den, block_num]

/-- A later block: from a real triple the rescaling factor is exp (M - M'). -/
theorem step_coe (s v : Fin C → ℝ) (M D Nm B : ℝ)
    (hB : (Finset.univ : Finset (Fin C)).fold max ⊥ (fun k => (s k : EReal)) = ↑B) :
    step ((M : EReal), (D : EReal), (Nm : EReal)) (fun k => (s k : EReal)) (fun k => (v k : EReal))
      = (((max M B : ℝ) : EReal),
         ((Real.exp (M - max M B) * D + ∑ k, Real.exp (s k - max M B) : ℝ) : EReal),
         ((Real.exp (M - max M B) * Nm + ∑ k, Real.exp (s k - max M B) * v k : ℝ) : EReal)) := by
  simp only [step, hB, ← coe_max, exp_coe_sub, ← EReal.coe_mul, ← coe_sum, ← EReal.coe_add]

/-! ### The invariant: after at least one block the triple is real -/

/-- After n+1 blocks of real scores and values the maximum is a real M, and the denominator and
    the numerator are the sums over all keys seen of exp (s - M) and of exp (s - M) * v. -/
theorem run_real (hC : 0 < C) (sr vr : ℕ → Fin C → ℝ) (n : ℕ) :
    ∃ M : ℝ, run (fun j k => (sr j k : EReal)) (fun j k => (vr j k : EReal)) (n + 1)
      = ((M : EReal),
         ((∑ j ∈ Finset.range (n + 1), ∑ k, Real.exp (sr j k - M) : ℝ) : EReal),
         ((∑ j ∈ Finset.range (n + 1), ∑ k, Real.exp (sr j k - M) * vr j k : ℝ) : EReal)) := by
  induction n with
  | zero =>
    obtain ⟨B, hB, -⟩ := fold_max_coe hC (sr 0)
    exact ⟨B, by rw [run_succ]; simpa [run] using step_init (sr 0) (vr 0) B hB⟩
  | succ n ih =>
    obtain ⟨M, hM⟩ := ih
    obtain ⟨B, hB, -⟩ := fold_max_coe hC (sr (n + 1))
    refine ⟨max M B, ?_⟩
    rw [run_succ, hM, step_coe (sr (n + 1)) (vr (n + 1)) M _ _ B hB,
      Finset.sum_range_succ _ (n + 1), Finset.sum_range_succ _ (n + 1),
      Finset.mul_sum, Finset.mul_sum]
    simp only [rescale, rescale_mul]

/-! ### The two main theorems -/

/-- MAIN THEOREM 1 (kernel side). For real scores and values and at least one key per block,
    after n+1 blocks the quotient numerator/denominator is the softmax-weighted average of the
    values over all keys of the first n+1 blocks. -/
theorem run_div (hC : 0 < C) (sr vr : ℕ → Fin C → ℝ) (n : ℕ) :
    Ideal.div (run (fun j k => (sr j k : EReal)) (fun j k => (vr j k : EReal)) (n + 1)).2.2
              (run (fun j k => (sr j k : EReal)) (fun j k => (vr j k : EReal)) (n + 1)).2.1
      = (((∑ j ∈ Finset.range (n + 1), ∑ k, Real.exp (sr j k) * vr j k)
          / (∑ j ∈ Finset.range (n + 1), ∑ k, Real.exp (sr j k)) : ℝ) : EReal) := by
  haveI : Nonempty (Fin C) := ⟨⟨0, hC⟩⟩
  obtain ⟨M, hM⟩ := run_real hC sr vr n
  have hS : 0 < ∑ j ∈ Finset.range (n + 1), ∑ k, Real.exp (sr j k) :=
    Finset.sum_pos (fun j _ => Finset.sum_pos (fun k _ => Real.exp_pos _) Finset.univ_nonempty)
      Finset.nonempty_range_add_one
  have hD : (∑ j ∈ Finset.range (n + 1), ∑ k, Real.exp (sr j k - M))
      = Real.exp (-M) * ∑ j ∈ Finset.range (n + 1), ∑ k, Real.exp (sr j k) := by
    rw [Finset.mul_sum]; exact Finset.sum_congr rfl fun j _ => sum_exp_sub _ _ _
  have hN : (∑ j ∈ Finset.range (n + 1), ∑ k, Real.exp (sr j k - M) * vr j k)
      = Real.exp (-M) * ∑ j ∈ Finset.range (n + 1), ∑ k, Real.exp (sr j k) * vr j k := by
    rw [Finset.mul_sum]; exact Finset.sum_congr rfl fun j _ => sum_exp_sub_mul _ _ _ _
  have hD0 : (∑ j ∈ Finset.range (n + 1), ∑ k, Real.exp (sr j k - M)) ≠ 0 := by
    rw [hD]; exact mul_ne_zero (Real.exp_pos _).ne' hS.ne'
  rw [hM]
  dsimp only
  rw [Ideal.div_coe hD0, ← EReal.coe_mul, hD, hN, mul_one_div,
    mul_div_mul_left _ _ (Real.exp_pos _).ne']

/-- MAIN THEOREM 2 (reference side). The two-pass softmax over a nonempty finite index type,
    spelt with the maximum taken against ⊥ twice and the sum started from 0, is the same
    average. -/
theorem twoPass {N : ℕ} (hN : 0 < N) (sr vr : Fin N → ℝ) :
    (∑ k : Fin N,
        Ideal.div (Ideal.exp ((sr k : EReal) - max ⊥ ((Finset.univ : Finset (Fin N)).fold max ⊥ (fun k => (sr k : EReal)))))
                  (0 + ∑ k' : Fin N, Ideal.exp ((sr k' : EReal) - max ⊥ ((Finset.univ : Finset (Fin N)).fold max ⊥ (fun k => (sr k : EReal)))))
          * (vr k : EReal))
      = ((avg sr vr : ℝ) : EReal) := by
  haveI : Nonempty (Fin N) := ⟨⟨0, hN⟩⟩
  obtain ⟨M, hM, -⟩ := fold_max_coe hN sr
  have hS : 0 < ∑ k, Real.exp (sr k) :=
    Finset.sum_pos (fun k _ => Real.exp_pos _) Finset.univ_nonempty
  have hD : ∑ k, Real.exp (sr k - M) = Real.exp (-M) * ∑ k, Real.exp (sr k) := sum_exp_sub _ _ _
  have hD0 : (∑ k, Real.exp (sr k - M)) ≠ 0 := by
    rw [hD]; exact mul_ne_zero (Real.exp_pos _).ne' hS.ne'
  have hterm : ∀ k, Real.exp (sr k - M) * (1 / ∑ k', Real.exp (sr k' - M)) * vr k
      = Real.exp (sr k - M) * vr k / ∑ k', Real.exp (sr k' - M) := fun k => by ring
  rw [hM, max_eq_right bot_le, zero_add, block_den]
  simp only [Ideal.div_coe hD0, exp_coe_sub, ← EReal.coe_mul, ← coe_sum, hterm]
  rw [← Finset.sum_div, sum_exp_sub_mul, hD, mul_div_mul_left _ _ (Real.exp_pos _).ne', avg]

end OnlineSoftmax
-- ==== Proof.AttnKSpec.lean ====
/-
  The kernel-side value, as the kernel arranges it. `Q0 x w` is a projection x times w transposed, scaled by the
  word `sc` (the query projection carries the softmax scale; the key and value projections have `sc` = 1 left out:
  `P0`). `Gk Q K Vv` is blockwise attention over the projections: for query row (b, q) and column e the keys are
  swept in 8 blocks of 512; the running maximum, denominator and numerator follow the online-softmax recurrence and
  the result is numerator / denominator after the eighth block.
-/
import Idealize.ShloMosaic.PureOps.Ideal
import Idealize.ShloMosaic.Lib.ValueIdx
import proofs.«148373_j65481071407281_2_alg».proof.Proof.LibOnlineSoftmax

noncomputable section

namespace Cert.AttnK

open Idealize.ShloMosaic Idealize.ShloMosaic.ValueIdx

abbrev SX : Shape := ⟨3, ![4, 4096, 1024]⟩
abbrev SW : Shape := ⟨2, ![1024, 1024]⟩

/-- A projection: entry (b, s, e) is the sum over d of x (b, s, d) * w (e, d). -/
def P0 (x : SX.Idx → EReal) (w : SW.Idx → EReal) : SX.Idx → EReal :=
  fun i => ∑ d : Fin 1024, x (ix3 (i 0) (i 1) d) * w (ix2 (i 2) d)

/-- The scaled projection: the same times the scalar `sc`. -/
def Q0 (sc : EReal) (x : SX.Idx → EReal) (w : SW.Idx → EReal) : SX.Idx → EReal :=
  fun i => P0 x w i * sc

/-- Key row number k of block j (blocks of 512 rows; taken modulo 4096 so that it is total). -/
def kidx (j : ℕ) (k : Fin 512) : Fin 4096 := ⟨(512 * j + k.val) % 4096, Nat.mod_lt _ (by decide)⟩

/-- The scores of query row (b, q) against key block j. -/
def sK (Q K : SX.Idx → EReal) (b : Fin 4) (q : Fin 4096) : ℕ → Fin 512 → EReal :=
  fun j k => ∑ e : Fin 1024, Q (ix3 b q e) * K (ix3 b (kidx j k) e)

/-- Column e of the value rows of block j. -/
def vK (Vv : SX.Idx → EReal) (b : Fin 4) (e : Fin 1024) : ℕ → Fin 512 → EReal :=
  fun j k => Vv (ix3 b (kidx j k) e)

/-- Blockwise attention over eight key blocks. -/
def Gk (Q K Vv : SX.Idx → EReal) : SX.Idx → EReal :=
  fun i => Ideal.div (OnlineSoftmax.run (sK Q K (i 0) (i 1)) (vK Vv (i 0) (i 2)) 8).2.2
                     (OnlineSoftmax.run (sK Q K (i 0) (i 1)) (vK Vv (i 0) (i 2)) 8).2.1

end Cert.AttnK

end
-- ==== Proof.KIValue0.lean ====
/-
  The value of the projection region: after its pipeline the three projection arrays hold, as whole arrays, the
  activations times each transposed weight matrix (the first scaled), at the exact extended reals.

  Grid point t = 8 b + j handles rows 512 j .. 512 j + 511 of batch b: the activation block and each output block
  sit at block index (b, j, 0), each weight matrix is its own one block. So what point t writes back is block t of
  the whole-array product, and the 32 blocks tile the array: row r of batch b lies in the block of point 8 b + r / 512.
-/
import proofs.«148373_j65481071407281_2_alg».proof.Proof.KIFrame0
import proofs.«148373_j65481071407281_2_alg».proof.Proof.KernelPay
import proofs.«148373_j65481071407281_2_alg».proof.Proof.AttnKSpec
import Idealize.ShloMosaic.Lib.Pipeline.Value
import Idealize.ShloMosaic.Lib.ValueIdx

set_option maxRecDepth 16384

noncomputable section

namespace Cert.KernelIdeal.Val0

open Cert.KernelIdeal Cert.KernelIdeal.Gen Cert.KernelIdeal.Fr Idealize.ShloMosaic.ValueIdx
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## Zero offsets, and indices by coordinates -/

theorem hz3 : (![0, 0, 0] : Fin 3 → Nat) = fun _ => 0 := funext fun a => by fin_cases a <;> rfl
theorem hz2 : (![0, 0] : Fin 2 → Nat) = fun _ => 0 := funext fun a => by fin_cases a <;> rfl

/-- An index of a block [1, 512, 1024] is (0, s, e). -/
theorem eq_unit3 (y : S1x512x1024.Idx) : y = ix3 (0 : Fin 1) (y 1 : Fin 512) (y 2 : Fin 1024) := by
  funext a
  match a with
  | ⟨0, _⟩ => exact Fin.ext (by show (y 0).val = 0; have h : (y 0).val < 1 := (y 0).isLt; omega)
  | ⟨1, _⟩ => rfl
  | ⟨2, _⟩ => rfl

/-! ## The index maps over the grid -/

/-- The printed index maps, decided over the 32 points: the activations' block and the three outputs' blocks sit at
    (t / 8, t % 8, 0), each weight matrix's block at (0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0
    ∧ win0_6.index t (0 : Fin 3) = t.val / 8 ∧ win0_6.index t (1 : Fin 3) = t.val % 8 ∧ win0_6.index t (2 : Fin 3) = 0 :=
  (by decide +kernel : ∀ t : Fin grid0.N, _)

/-! ## Each operand's block, read off its array -/

/-- The activations' block at point t is rows 512 (t % 8) .. of batch t / 8. -/
theorem iblk0_0_apply (c : Dev nD) (t : Fin cfg0.N) (s : Fin 512) (d : Fin 1024) (b : Fin 4) (r : Fin 4096)
    (hb : b.val = t.val / 8) (hr : r.val = 512 * (t.val % 8) + s.val) :
    (iblk0 V c 0 t : Vec Ideal S1x512x1024 .f32) (ix3 (0 : Fin 1) s d)
      = (V c main_arg0 : S4x4096x1024.Idx → EReal) (ix3 b r d) := by
  obtain ⟨e0, e1, e2, -⟩ := idx_facts t
  unfold iblk0
  rw [View.read_apply]
  show (V c main_arg0 : S4x4096x1024.Idx → EReal) _ = _
  refine congrArg _ ?_
  funext a
  apply Fin.ext
  match a with
  | ⟨0, _⟩ => show win0_0.index t (0 : Fin 3) * 1 + 1 * 0 = b.val; omega
  | ⟨1, _⟩ => show win0_0.index t (1 : Fin 3) * 512 + 1 * s.val = r.val; omega
  | ⟨2, _⟩ => show win0_0.index t (2 : Fin 3) * 1024 + 1 * d.val = d.val; omega

/-- The first weight matrix's block is the whole matrix. -/
theorem iblk0_1_apply (c : Dev nD) (t : Fin cfg0.N) (e d : Fin 1024) :
    (iblk0 V c 1 t : Vec Ideal S1024x1024 .bf16) (ix2 e d) = (V c main_v0 : S1024x1024.Idx → EReal) (ix2 e d) := by
  obtain ⟨-, -, -, e0, e1, -⟩ := idx_facts t
  unfold iblk0
  rw [View.read_apply]
  show (V c main_v0 : S1024x1024.Idx → EReal) _ = _
  refine congrArg _ ?_
  funext a
  apply Fin.ext
  match a with
  | ⟨0, _⟩ => show win0_1.index t (0 : Fin 2) * 1024 + 1 * e.val = e.val; omega
  | ⟨1, _⟩ => show win0_1.index t (1 : Fin 2) * 1024 + 1 * d.val = d.val; omega

/-! ## The payloads at an index, over the whole arrays -/

/-- The scaled product at (0, s, e) of a block, when the block's rows are rows r of batch b of X and the weights
    are W: entry (b, r, e) of the scaled whole-array product. -/
theorem pay2_point (x0 : Vec Ideal S1x512x1024 .f32) (w : Vec Ideal S1024x1024 .bf16)
    (X : S4x4096x1024.Idx → EReal) (W : S1024x1024.Idx → EReal) (s : Fin 512) (e : Fin 1024) (b : Fin 4) (r : Fin 4096)
    (hx : ∀ d : Fin 1024, x0 (ix3 (0 : Fin 1) s d) = X (ix3 b r d)) (hw : ∀ d : Fin 1024, w (ix2 e d) = W (ix2 e d)) :
    k0_pay2 x0 w (ix3 (0 : Fin 1) s e) = Cert.AttnK.Q0 (Ideal.ofBits .f32 0x3D000000#32) X W (ix3 b r e) := by
  rw [Cert.KernelIdeal.Pay.pay2_apply]
  show _ = (∑ d : Fin 1024, X (ix3 b r d) * W (ix2 e d)) * Ideal.ofBits .f32 0x3D000000#32
  refine congrArg (fun x => x * Ideal.ofBits .f32 0x3D000000#32) ?_
  refine Finset.sum_congr rfl fun d _ => ?_
  rw [hx d, hw d]

/-! ## Output window 4: the scaled projection -/

/-- Where an element of point t's block sits in the array. -/
theorem emb0_4 (t : Fin cfg0.N) (s : Fin 512) (e : Fin 1024) (b : Fin 4) (r : Fin 4096)
    (hb : b.val = t.val / 8) (hr : r.val = 512 * (t.val % 8) + s.val) :
    ((cfg0.win 4).blk t).view.emb (ix3 (0 : Fin 1) s e) = (ix3 b r e : S4x4096x1024.Idx) := by
  obtain ⟨-, -, -, -, -, -, -, -, -, e0, e1, e2, -⟩ := idx_facts t
  funext a
  apply Fin.ext
  match a with
  | ⟨0, _⟩ => show win0_4.index t (0 : Fin 3) * 1 + 1 * 0 = b.val; omega
  | ⟨1, _⟩ => show win0_4.index t (1 : Fin 3) * 512 + 1 * s.val = r.val; omega
  | ⟨2, _⟩ => show win0_4.index t (2 : Fin 3) * 1024 + 1 * e.val = e.val; omega

/-- What point t writes back is block t of the scaled whole-array product. -/
theorem flushed0_4_eq (c : Dev nD) (t : Fin cfg0.N) :
    (dat0 (F := Ideal) V c).flushed 4 t = ((cfg0.win 4).blk t).view.read (Elt Ideal)
      (Cert.AttnK.Q0 (Ideal.ofBits .f32 0x3D000000#32) (V c main_arg0) (V c main_v0)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x1024) hz2]
  funext y
  obtain ⟨s, e, rfl⟩ : ∃ (s : Fin 512) (e : Fin 1024), y = ix3 (0 : Fin 1) s e := ⟨_, _, eq_unit3 y⟩
  have hN : cfg0.N = 32 := N_0
  have ht : t.val < 32 := hN ▸ t.isLt
  rw [View.read_apply, emb0_4 t s e ⟨t.val / 8, by omega⟩ ⟨512 * (t.val % 8) + s.val, by omega⟩ rfl rfl]
  show k0_pay2 (iblk0 V c 0 t) (iblk0 V c 1 t) (ix3 (0 : Fin 1) s e) = _
  exact pay2_point _ _ _ _ s e _ _ (fun d => iblk0_0_apply V c t s d _ _ rfl rfl) (fun d => iblk0_1_apply V c t e d)

/-- An index of the array is in point t's block iff each coordinate is in the block's range on its axis. -/
theorem mem_blk0_4 (t : Fin cfg0.N) (i : S4x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v3_0).slice (win0_4.rect t)).set ↔ _
  rw [View.set_slice_whole, Rect.mem_set_unit]
  exact Iff.rfl

/-- Every index is in some point's block: row r of batch b in the block of point 8 b + r / 512. -/
theorem cover0_4 (i : S4x4096x1024.Idx) :
    ∃ t : Fin cfg0.N, (cfg0.win 4).flush t = true ∧ i ∈ ((cfg0.win 4).blk t).view.set := by
  have hN : cfg0.N = 32 := N_0
  have hi0 : (i 0).val < 4 := (i 0).isLt
  have hi1 : (i 1).val < 4096 := (i 1).isLt
  have hi2 : (i 2).val < 1024 := (i 2).isLt
  refine ⟨⟨8 * (i 0).val + (i 1).val / 512, by rw [hN]; omega⟩, flush0_4 _, ?_⟩
  rw [mem_blk0_4]
  obtain ⟨-, -, -, -, -, -, -, -, -, e0, e1, e2, -⟩ := idx_facts ⟨8 * (i 0).val + (i 1).val / 512, by rw [hN]; omega⟩
  intro a
  match a with
  | ⟨0, _⟩ => show win0_4.index _ (0 : Fin 3) * 1 ≤ (i 0).val ∧ (i 0).val < win0_4.index _ (0 : Fin 3) * 1 + 1; rw [e0]; show (8 * (i 0).val + (i 1).val / 512) / 8 * 1 ≤ (i 0).val ∧ (i 0).val < (8 * (i 0).val + (i 1).val / 512) / 8 * 1 + 1; omega
  | ⟨1, _⟩ => show win0_4.index _ (1 : Fin 3) * 512 ≤ (i 1).val ∧ (i 1).val < win0_4.index _ (1 : Fin 3) * 512 + 512; rw [e1]; show (8 * (i 0).val + (i 1).val / 512) % 8 * 512 ≤ (i 1).val ∧ (i 1).val < (8 * (i 0).val + (i 1).val / 512) % 8 * 512 + 512; omega
  | ⟨2, _⟩ => show win0_4.index _ (2 : Fin 3) * 1024 ≤ (i 2).val ∧ (i 2).val < win0_4.index _ (2 : Fin 3) * 1024 + 1024; rw [e2]; omega

/-- The first projection array after the region: the scaled product, as one array. -/
theorem final0_4 (c : Dev nD) :
    (dat0 (F := Ideal) V c).arrAt 4 cfg0.N
      = Cert.AttnK.Q0 (Ideal.ofBits .f32 0x3D000000#32) (V c main_arg0) (V c main_v0) :=
  (dat0 (F := Ideal) V c).arrAt_eq_of_cover 4 _ (fun t _ => flushed0_4_eq V c t) cover0_4

/-! ## Output window 5: the key projection -/

/-- The second weight matrix's block is the whole matrix. -/
theorem iblk0_2_apply (c : Dev nD) (t : Fin cfg0.N) (e d : Fin 1024) :
    (iblk0 V c 2 t : Vec Ideal S1024x1024 .bf16) (ix2 e d) = (V c main_v1 : S1024x1024.Idx → EReal) (ix2 e d) := by
  obtain ⟨-, -, -, -, -, e0, e1, -⟩ := idx_facts t
  unfold iblk0
  rw [View.read_apply]
  show (V c main_v1 : S1024x1024.Idx → EReal) _ = _
  refine congrArg _ ?_
  funext a
  apply Fin.ext
  match a with
  | ⟨0, _⟩ => show win0_2.index t (0 : Fin 2) * 1024 + 1 * e.val = e.val; omega
  | ⟨1, _⟩ => show win0_2.index t (1 : Fin 2) * 1024 + 1 * d.val = d.val; omega

/-- The product at (0, s, e) of a block, when the block's rows are rows r of batch b of X and the weights are W:
    entry (b, r, e) of the whole-array product. -/
theorem pay3_point (x0 : Vec Ideal S1x512x1024 .f32) (w : Vec Ideal S1024x1024 .bf16)
    (X : S4x4096x1024.Idx → EReal) (W : S1024x1024.Idx → EReal) (s : Fin 512) (e : Fin 1024) (b : Fin 4) (r : Fin 4096)
    (hx : ∀ d : Fin 1024, x0 (ix3 (0 : Fin 1) s d) = X (ix3 b r d)) (hw : ∀ d : Fin 1024, w (ix2 e d) = W (ix2 e d)) :
    k0_pay3 x0 w (ix3 (0 : Fin 1) s e) = Cert.AttnK.P0 X W (ix3 b r e) := by
  rw [Cert.KernelIdeal.Pay.pay3_apply]
  show _ = ∑ d : Fin 1024, X (ix3 b r d) * W (ix2 e d)
  refine Finset.sum_congr rfl fun d _ => ?_
  rw [hx d, hw d]

/-- Where an element of point t's block sits in the array. -/
theorem emb0_5 (t : Fin cfg0.N) (s : Fin 512) (e : Fin 1024) (b : Fin 4) (r : Fin 4096)
    (hb : b.val = t.val / 8) (hr : r.val = 512 * (t.val % 8) + s.val) :
    ((cfg0.win 5).blk t).view.emb (ix3 (0 : Fin 1) s e) = (ix3 b r e : S4x4096x1024.Idx) := by
  obtain ⟨-, -, -, -, -, -, -, -, -, -, -, -, e0, e1, e2, -⟩ := idx_facts t
  funext a
  apply Fin.ext
  match a with
  | ⟨0, _⟩ => show win0_5.index t (0 : Fin 3) * 1 + 1 * 0 = b.val; omega
  | ⟨1, _⟩ => show win0_5.index t (1 : Fin 3) * 512 + 1 * s.val = r.val; omega
  | ⟨2, _⟩ => show win0_5.index t (2 : Fin 3) * 1024 + 1 * e.val = e.val; omega

/-- What point t writes back is block t of the whole-array product. -/
theorem flushed0_5_eq (c : Dev nD) (t : Fin cfg0.N) :
    (dat0 (F := Ideal) V c).flushed 5 t = ((cfg0.win 5).blk t).view.read (Elt Ideal)
      (Cert.AttnK.P0 (V c main_arg0) (V c main_v1)) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024x1024) hz2]
  funext y
  obtain ⟨s, e, rfl⟩ : ∃ (s : Fin 512) (e : Fin 1024), y = ix3 (0 : Fin 1) s e := ⟨_, _, eq_unit3 y⟩
  have hN : cfg0.N = 32 := N_0
  have ht : t.val < 32 := hN ▸ t.isLt
  rw [View.read_apply, emb0_5 t s e ⟨t.val / 8, by omega⟩ ⟨512 * (t.val % 8) + s.val, by omega⟩ rfl rfl]
  show k0_pay3 (iblk0 V c 0 t) (iblk0 V c 2 t) (ix3 (0 : Fin 1) s e) = _
  exact pay3_point _ _ _ _ s e _ _ (fun d => iblk0_0_apply V c t s d _ _ rfl rfl) (fun d => iblk0_2_apply V c t e d)

/-- An index of the array is in point t's block iff each coordinate is in the block's range on its axis. -/
theorem mem_blk0_5 (t : Fin cfg0.N) (i : S4x4096x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v3_1).slice (win0_5.rect t)).set ↔ _
  rw [View.set_slice_whole, Rect.mem_set_unit]
  exact Iff.rfl

/-- Every index is in some point's block: row r of batch b in the block of point 8 b + r / 512. -/
theorem cover0_5 (i : S4x4096x1024.Idx) :
    ∃ t : Fin cfg0.N, (cfg0.win 5).flush t = true ∧ i ∈ ((cfg0.win 5).blk t).view.set := by
  have hN : cfg0.N = 32 := N_0
  have hi0 : (i 0).val < 4 := (i 0).isLt
  have hi1 : (i 1).val < 4096 := (i 1).isLt
  have hi2 : (i 2).val < 1024 := (i 2).isLt
  refine ⟨⟨8 * (i 0).val + (i 1).val / 512, by rw [hN]; omega⟩, flush0_5 _, ?_⟩
  rw [mem_blk0_5]
  obtain ⟨-, -, -, -, -, -, -, -, -, -, -, -, e0, e1, e2, -⟩ := idx_facts ⟨8 * (i 0).val + (i 1).val / 512, by rw [hN]; omega⟩
  intro a
  match a with
  | ⟨0, _⟩ => show win0_5.index _ (0 : Fin 3) * 1 ≤ (i 0).val ∧ (i 0).val < win0_5.index _ (0 : Fin 3) * 1 + 1; rw [e0]; show (8 * (i 0).val + (i 1).val / 512) / 8 * 1 ≤ (i 0).val ∧ (i 0).val < (8 * (i 0).val + (i 1).val / 512) / 8 * 1 + 1; omega
  | ⟨1, _⟩ => show win0_5.index _ (1 : Fin 3) * 512 ≤ (i 1).val ∧ (i 1).val < win0_5.index _ (1 : Fin 3) * 512 + 512; rw [e1]; show (8 * (i 0).val + (i 1).val / 512) % 8 * 512 ≤ (i 1).val ∧ (i 1).val < (8 * (i 0).val + (i 1).val / 512) % 8 * 512 + 512; omega
  | ⟨2, _⟩ => show win0_5.index _ (2 : Fin 3) * 1024 ≤ (i 2).val ∧ (i 2).val < win0_5.index _ (2 : Fin 3) * 1024 + 1024; rw [e2]; omega

/-- The second projection array after the region: the product, as one array. -/
theorem final0_5 (c : Dev nD) :
    (dat0 (F := Ideal) V c).arrAt 5 cfg0.N = Cert.AttnK.P0 (V c main_arg0) (V c main_v1) :=
  (dat0 (F := Ideal) V c).arrAt_eq_of_cover 5 _ (fun t _ => flushed0_5_eq V c t) cover0_5

/-! ## Output window 6: the value projection -/

/-- The third weight matrix's block is the whole matrix. -/
theorem iblk0_3_apply (c : Dev nD) (t : Fin cfg0.N) (e d : Fin 1024) :
    (iblk0 V c 3 t : Vec Ideal S1024x1024 .bf16) (ix2 e d) = (V c main_v2 : S1024x1024.Idx → EReal) (ix2 e d) := by
  obtain ⟨-, -, -, -, -, -, -, e0, e1, -⟩ := idx_facts t
  unfold iblk0
  rw [View.read_apply]
  show (V c main_v2 : S1024x1024.Idx → EReal) _ = _
  refine congrArg _ ?_
  funext a
  apply Fin.ext
  match a with
  | ⟨0, _⟩ => show win0_3.index t (0 : Fin 2) * 1024 + 1 * e.val = e.val; omega
  | ⟨1, _⟩ => show win0_3.index t (1 : Fin 2) * 1024 + 1 * d.val = d.val; omega

/-- The product at (0, s, e) of a block, when the block's rows are rows r of batch b of X and the weights are W:
    entry (b, r, e) of the whole-array product. -/
theorem pay4_point (x0 : Vec Ideal S1x512x1024 .f32) (w : Vec Ideal S1024x1024 .bf16)
    (X : S4x4096x1024.Idx → EReal) (W : S1024x1024.Idx → EReal) (s : Fin 512) (e : Fin 1024) (b : Fin 4) (r : Fin 4096)
    (hx : ∀ d : Fin 1024, x0 (ix3 (0 : Fin 1) s d) = X (ix3 b r d)) (hw : ∀ d : Fin 1024, w (ix2 e d) = W (ix2 e d)) :
    k0_pay4 x0 w (ix3 (0 : Fin 1) s e) = Cert.AttnK.P0 X W (ix3 b r e) := by
  rw [Cert.KernelIdeal.Pay.pay4_apply]
  show _ = ∑ d : Fin 1024, X (ix3 b r d) * W (ix2 e d)
  refine Finset.sum_congr rfl fun d _ => ?_
  rw [hx d, hw d]

/-- Where an element of point t's block sits in the array. -/
theorem emb0_6 (t : Fin cfg0.N) (s : Fin 512) (e : Fin 1024) (b : Fin 4) (r : Fin 4096)
    (hb : b.val = t.val / 8) (hr : r.val = 512 * (t.val % 8) + s.val) :
    ((cfg0.win 6).blk t).view.emb (ix3 (0 : Fin 1) s e) = (ix3 b r e : S4x4096x1024.Idx) := by
  obtain ⟨-, -, -, -, -, -, -, -, -, -, -, -, -, -, -, e0, e1, e2⟩ := idx_facts t
  funext a
  apply Fin.ext
  match a with
  | ⟨0, _⟩ => show win0_6.index t (0 : Fin 3) * 1 + 1 * 0 = b.val; omega
  | ⟨1, _⟩ => show win0_6.index t (1 : Fin 3) * 512 + 1 * s.val = r.val; omega
  | ⟨2, _⟩ => show win0_6.index t (2 : Fin 3) * 1024 + 1 * e.val = e.val; omega

/-- What point t writes back is block t of the whole-array product. -/
theorem flushed0_6_eq (c : Dev nD) (t : Fin cfg0.N) :
    (dat0 (F := Ideal) V c).flushed 6 t = ((cfg0.win 6).blk t).view.read (Elt Ideal)
      (Cert.AttnK.P0 (V c main_arg0) (V c main_v2)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x1024) hz2]
  funext y
  obtain ⟨s, e, rfl⟩ : ∃ (s : Fin 512) (e : Fin 1024), y = ix3 (0 : Fin 1) s e := ⟨_, _, eq_unit3 y⟩
  have hN : cfg0.N = 32 := N_0
  have ht : t.val < 32 := hN ▸ t.isLt
  rw [View.read_apply, emb0_6 t s e ⟨t.val / 8, by omega⟩ ⟨512 * (t.val % 8) + s.val, by omega⟩ rfl rfl]
  show k0_pay4 (iblk0 V c 0 t) (iblk0 V c 3 t) (ix3 (0 : Fin 1) s e) = _
  exact pay4_point _ _ _ _ s e _ _ (fun d => iblk0_0_apply V c t s d _ _ rfl rfl) (fun d => iblk0_3_apply V c t e d)

/-- An index of the array is in point t's block iff each coordinate is in the block's range on its axis. -/
theorem mem_blk0_6 (t : Fin cfg0.N) (i : S4x4096x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v3_2).slice (win0_6.rect t)).set ↔ _
  rw [View.set_slice_whole, Rect.mem_set_unit]
  exact Iff.rfl

/-- Every index is in some point's block: row r of batch b in the block of point 8 b + r / 512. -/
theorem cover0_6 (i : S4x4096x1024.Idx) :
    ∃ t : Fin cfg0.N, (cfg0.win 6).flush t = true ∧ i ∈ ((cfg0.win 6).blk t).view.set := by
  have hN : cfg0.N = 32 := N_0
  have hi0 : (i 0).val < 4 := (i 0).isLt
  have hi1 : (i 1).val < 4096 := (i 1).isLt
  have hi2 : (i 2).val < 1024 := (i 2).isLt
  refine ⟨⟨8 * (i 0).val + (i 1).val / 512, by rw [hN]; omega⟩, flush0_6 _, ?_⟩
  rw [mem_blk0_6]
  obtain ⟨-, -, -, -, -, -, -, -, -, -, -, -, -, -, -, e0, e1, e2⟩ := idx_facts ⟨8 * (i 0).val + (i 1).val / 512, by rw [hN]; omega⟩
  intro a
  match a with
  | ⟨0, _⟩ => show win0_6.index _ (0 : Fin 3) * 1 ≤ (i 0).val ∧ (i 0).val < win0_6.index _ (0 : Fin 3) * 1 + 1; rw [e0]; show (8 * (i 0).val + (i 1).val / 512) / 8 * 1 ≤ (i 0).val ∧ (i 0).val < (8 * (i 0).val + (i 1).val / 512) / 8 * 1 + 1; omega
  | ⟨1, _⟩ => show win0_6.index _ (1 : Fin 3) * 512 ≤ (i 1).val ∧ (i 1).val < win0_6.index _ (1 : Fin 3) * 512 + 512; rw [e1]; show (8 * (i 0).val + (i 1).val / 512) % 8 * 512 ≤ (i 1).val ∧ (i 1).val < (8 * (i 0).val + (i 1).val / 512) % 8 * 512 + 512; omega
  | ⟨2, _⟩ => show win0_6.index _ (2 : Fin 3) * 1024 ≤ (i 2).val ∧ (i 2).val < win0_6.index _ (2 : Fin 3) * 1024 + 1024; rw [e2]; omega

/-- The third projection array after the region: the product, as one array. -/
theorem final0_6 (c : Dev nD) :
    (dat0 (F := Ideal) V c).arrAt 6 cfg0.N = Cert.AttnK.P0 (V c main_arg0) (V c main_v2) :=
  (dat0 (F := Ideal) V c).arrAt_eq_of_cover 6 _ (fun t _ => flushed0_6_eq V c t) cover0_6

end Cert.KernelIdeal.Val0

end
-- ==== Proof.KIValue1i.lean ====
/-
  The attention region's value at a sweep's last point, as a statement: point t of the 4 x 4 x 8 grid is
  (batch t / 32, query block t / 8 % 4, key block t % 8); at a point with t % 8 = 7 the output block holds, at
  (0, r, e), the blockwise-attention value of query row 1024 (t / 8 % 4) + r of that batch at column e.
-/
import proofs.«148373_j65481071407281_2_alg».proof.Proof.KIFrame1b
import proofs.«148373_j65481071407281_2_alg».proof.Proof.AttnKSpec
import Idealize.ShloMosaic.Lib.ValueIdx

noncomputable section

namespace Cert.KernelIdeal.Val1

open Cert.KernelIdeal Cert.KernelIdeal.Gen Cert.KernelIdeal.Fr
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- What the output block of every last point holds, entry by entry. -/
def OutAtLast : Prop :=
  ∀ (c : Dev nD) (t : Fin cfg1.N) (h7 : t.val % 8 = 7) (hN : t.val < 128) (r : Fin 1024) (e : Fin 1024),
    (Cert.KernelIdeal.Fr.outsAt1 (F := Ideal) V c t.val t.isLt).1 (ix3 (0 : Fin 1) r e)
      = Cert.AttnK.Gk (V c main_v3_0) (V c main_v3_1) (V c main_v3_2)
          (ix3 (⟨t.val / 32, by omega⟩ : Fin 4) (⟨1024 * (t.val / 8 % 4) + r.val, by omega⟩ : Fin 4096) e)

end Cert.KernelIdeal.Val1

end
-- ==== Proof.KIValue1c.lean ====
/-
  The value of the attention region, last step: from the output block of every sweep's last point to the whole
  result array.

  Point t of the 4 x 4 x 8 grid is (batch t / 32, query block t / 8 % 4, key block t % 8). The output window's
  block [1, 1024, 1024] sits at block index (t / 32, t / 8 % 4, 0) and is written back at the points with
  t % 8 = 7, so what such a point writes back is block t of the whole-array blockwise-attention value, and these
  sixteen blocks tile the array: query row s of batch b lies in the block of point 32 b + 8 (s / 1024) + 7.
-/
import proofs.«148373_j65481071407281_2_alg».proof.Proof.KIValue1i
import proofs.«148373_j65481071407281_2_alg».proof.Proof.KIFrame1b
import proofs.«148373_j65481071407281_2_alg».proof.Proof.Gen.KernelIdeal.Points
import proofs.«148373_j65481071407281_2_alg».proof.Proof.Gen.KernelIdeal.Launch
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr Idealize.ShloMosaic.ValueIdx
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- An index of a block [1, 1024, 1024] is (0, r, e). -/
theorem eq_unit3 (y : S1x1024x1024.Idx) : y = ix3 (0 : Fin 1) (y 1 : Fin 1024) (y 2 : Fin 1024) := by
  funext a
  match a with
  | ⟨0, _⟩ => exact Fin.ext (by show (y 0).val = 0; have h : (y 0).val < 1 := (y 0).isLt; omega)
  | ⟨1, _⟩ => rfl
  | ⟨2, _⟩ => rfl

/-- The output window's printed index map, decided over the 128 points: its block sits at (t / 32, t / 8 % 4, 0). -/
theorem idx_facts3 : ∀ t : Fin cfg1.N,
    win1_3.index t (0 : Fin 3) = t.val / 32 ∧ win1_3.index t (1 : Fin 3) = t.val / 8 % 4 ∧ win1_3.index t (2 : Fin 3) = 0 :=
  (by decide +kernel : ∀ t : Fin grid1.N, _)

/-- Where an element of point t's output block sits in the array. -/
theorem emb1_3 (t : Fin cfg1.N) (r e : Fin 1024) (b : Fin 4) (s : Fin 4096)
    (hb : b.val = t.val / 32) (hs : s.val = 1024 * (t.val / 8 % 4) + r.val) :
    ((cfg1.win 3).blk t).view.emb (ix3 (0 : Fin 1) r e) = (ix3 b s e : S4x4096x1024.Idx) := by
  obtain ⟨e0, e1, e2⟩ := idx_facts3 t
  funext a
  apply Fin.ext
  match a with
  | ⟨0, _⟩ => show win1_3.index t (0 : Fin 3) * 1 + 1 * 0 = b.val; omega
  | ⟨1, _⟩ => show win1_3.index t (1 : Fin 3) * 1024 + 1 * r.val = s.val; omega
  | ⟨2, _⟩ => show win1_3.index t (2 : Fin 3) * 1024 + 1 * e.val = e.val; omega

/-- What a sweep's last point writes back is block t of the whole-array blockwise-attention value. -/
theorem flushed1_3_eq (hout : OutAtLast V) (c : Dev nD) (t : Fin cfg1.N) (hf : (cfg1.win 3).flush t = true) :
    (dat1 (F := Ideal) V c).flushed 3 t = ((cfg1.win 3).blk t).view.read (Elt Ideal)
      (Cert.AttnK.Gk (V c main_v3_0) (V c main_v3_1) (V c main_v3_2)) := by
  show (cfg1.win 3).cut (grid1.coords t) ((dat1 V c).after 3 t) = _
  rw [after1_3]
  have h7 : t.val % 8 = 7 := (flush1_3 t).mp hf
  have hN : cfg1.N = 128 := N_1
  have ht : t.val < 128 := hN ▸ t.isLt
  funext y
  obtain ⟨r, e, rfl⟩ : ∃ (r : Fin 1024) (e : Fin 1024), y = ix3 (0 : Fin 1) r e := ⟨_, _, eq_unit3 y⟩
  rw [View.read_apply, emb1_3 t r e ⟨t.val / 32, by omega⟩ ⟨1024 * (t.val / 8 % 4) + r.val, by omega⟩ rfl rfl]
  exact hout c t h7 ht r e

/-- An index of the array is in point t's block iff each coordinate is in the block's range on its axis. -/
theorem mem_blk1_3 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v4).slice (win1_3.rect t)).set ↔ _
  rw [View.set_slice_whole, Rect.mem_set_unit]
  exact Iff.rfl

/-- Every index is in some last point's block: query row s of batch b in the block of point 32 b + 8 (s / 1024) + 7. -/
theorem cover1_3 (i : S4x4096x1024.Idx) :
    ∃ t : Fin cfg1.N, (cfg1.win 3).flush t = true ∧ i ∈ ((cfg1.win 3).blk t).view.set := by
  have hN : cfg1.N = 128 := N_1
  have hi0 : (i 0).val < 4 := (i 0).isLt
  have hi1 : (i 1).val < 4096 := (i 1).isLt
  have hi2 : (i 2).val < 1024 := (i 2).isLt
  refine ⟨⟨32 * (i 0).val + 8 * ((i 1).val / 1024) + 7, by rw [hN]; omega⟩, (flush1_3 _).mpr (by show (32 * (i 0).val + 8 * ((i 1).val / 1024) + 7) % 8 = 7; omega), ?_⟩
  rw [mem_blk1_3]
  obtain ⟨e0, e1, e2⟩ := idx_facts3 ⟨32 * (i 0).val + 8 * ((i 1).val / 1024) + 7, by rw [hN]; omega⟩
  intro a
  match a with
  | ⟨0, _⟩ => show win1_3.index _ (0 : Fin 3) * 1 ≤ (i 0).val ∧ (i 0).val < win1_3.index _ (0 : Fin 3) * 1 + 1; rw [e0]; show (32 * (i 0).val + 8 * ((i 1).val / 1024) + 7) / 32 * 1 ≤ (i 0).val ∧ (i 0).val < (32 * (i 0).val + 8 * ((i 1).val / 1024) + 7) / 32 * 1 + 1; omega
  | ⟨1, _⟩ => show win1_3.index _ (1 : Fin 3) * 1024 ≤ (i 1).val ∧ (i 1).val < win1_3.index _ (1 : Fin 3) * 1024 + 1024; rw [e1]; show (32 * (i 0).val + 8 * ((i 1).val / 1024) + 7) / 8 % 4 * 1024 ≤ (i 1).val ∧ (i 1).val < (32 * (i 0).val + 8 * ((i 1).val / 1024) + 7) / 8 % 4 * 1024 + 1024; omega
  | ⟨2, _⟩ => show win1_3.index _ (2 : Fin 3) * 1024 ≤ (i 2).val ∧ (i 2).val < win1_3.index _ (2 : Fin 3) * 1024 + 1024; rw [e2]; omega

/-- The result array after the attention region: the blockwise-attention value, as one array. -/
theorem final1_of (hout : OutAtLast V) (c : Dev nD) :
    (Cert.KernelIdeal.Fr.dat1 (F := Ideal) V c).arrAt 3 cfg1.N
      = Cert.AttnK.Gk (V c main_v3_0) (V c main_v3_1) (V c main_v3_2) :=
  (dat1 (F := Ideal) V c).arrAt_eq_of_cover 3 _ (fun t hf => flushed1_3_eq V hout c t hf) cover1_3

end Cert.KernelIdeal.Val1

end
-- ==== Proof.KIValue1p.lean ====
/-
  The attention region: what each control case of the body leaves in the three carried buffers (the running row
  maximum, the running denominator, the running numerator) and, at a sweep's last point, in the output block, as
  the body's arithmetic applied to the point's three operand blocks and to what the point before left. The body
  loads and stores whole buffers, so each buffer ends at its last store's value and each load reads what was there:
  the previous contents, or at a sweep's first point the reset values just stored.
-/
import proofs.«148373_j65481071407281_2_alg».proof.Proof.KIFrame1b
import Idealize.ShloMosaic.Lib.Pipeline.Value
import Idealize.ShloMosaic.Lib.Tactic
import Idealize.ShloMosaic.Lib.ValueIdx

set_option maxRecDepth 16384

noncomputable section

namespace Cert.KernelIdeal.Val1.Sweep

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- Zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Reading a whole scratch buffer back at the contents that read as X gives X. -/
theorem rd0 (X : Vec F S1024x1 .f32) :
    View.read (Elt F) (View.whole cc1_scratch0) ((Memref.isWhole_whole cc1_scratch0).unread X) = X :=
  (Memref.isWhole_whole cc1_scratch0).read_unread X
theorem rd1 (X : Vec F S1024x1 .f32) :
    View.read (Elt F) (View.whole cc1_scratch1) ((Memref.isWhole_whole cc1_scratch1).unread X) = X :=
  (Memref.isWhole_whole cc1_scratch1).read_unread X
theorem rd2 (X : Vec F S1024x1024 .f32) :
    View.read (Elt F) (View.whole cc1_scratch2) ((Memref.isWhole_whole cc1_scratch2).unread X) = X :=
  (Memref.isWhole_whole cc1_scratch2).read_unread X

/-! ## A middle block of a sweep -/

/-- The new running maximum. -/
theorem stB_max (c : Dev nD) (t : Fin cfg1.N) (h0 : ¬t.val % 8 = 0) (h1 : ¬t.val % 8 = 7) (p : St (F := F)) :
    (stB V c t h0 h1 p).2.1 = k1_pay2 (k1_pay9 (iblk1 V c 0 t) (iblk1 V c 1 t) p.2.1) := by
  unfold stB
  dsimp only
  rw [View.read_writes_eq_canon _ _ _ (scoverB_0 V c t h0 h1 p.2.1 p.2.2.1 p.2.2.2)]
  unfold caseB runB
  dsimp only
  rw [View.canon_unit_zero hz2]
  simp only [View.readAt_eq_ld, Memref.IsWhole.read_unread, rd0, rd1, rd2, View.ld_unit_zero (S := S1x1024x1024) hz3,
    View.ld_unit_zero (S := S1x512x1024) hz3, View.ld_unit_zero (S := S1024x1) hz2]

/-- The new running denominator. -/
theorem stB_den (c : Dev nD) (t : Fin cfg1.N) (h0 : ¬t.val % 8 = 0) (h1 : ¬t.val % 8 = 7) (p : St (F := F)) :
    (stB V c t h0 h1 p).2.2.1 = k1_pay12 (iblk1 V c 0 t) (iblk1 V c 1 t) p.2.1 p.2.1 p.2.2.1 := by
  unfold stB
  dsimp only
  rw [View.read_writes_eq_canon _ _ _ (scoverB_1 V c t h0 h1 p.2.1 p.2.2.1 p.2.2.2)]
  unfold caseB runB
  dsimp only
  rw [View.canon_unit_zero hz2]
  simp only [View.readAt_eq_ld, Memref.IsWhole.read_unread, rd0, rd1, rd2, View.ld_unit_zero (S := S1x1024x1024) hz3,
    View.ld_unit_zero (S := S1x512x1024) hz3, View.ld_unit_zero (S := S1024x1) hz2]

/-- The new running numerator. -/
theorem stB_num (c : Dev nD) (t : Fin cfg1.N) (h0 : ¬t.val % 8 = 0) (h1 : ¬t.val % 8 = 7) (p : St (F := F)) :
    (stB V c t h0 h1 p).2.2.2 = k1_pay1 (k1_pay7 (iblk1 V c 2 t)) (k1_pay11 (iblk1 V c 0 t) (iblk1 V c 1 t) p.2.1)
      (k1_pay13 (iblk1 V c 0 t) (iblk1 V c 1 t) p.2.1 p.2.1 p.2.2.2) := by
  unfold stB
  dsimp only
  rw [View.read_writes_eq_canon _ _ _ (scoverB_2 V c t h0 h1 p.2.1 p.2.2.1 p.2.2.2)]
  unfold caseB runB
  dsimp only
  rw [View.canon_unit_zero hz2]
  simp only [View.readAt_eq_ld, Memref.IsWhole.read_unread, rd0, rd1, rd2, View.ld_unit_zero (S := S1x1024x1024) hz3,
    View.ld_unit_zero (S := S1x512x1024) hz3, View.ld_unit_zero (S := S1024x1) hz2, View.ld_unit_zero (S := S1024x1024) hz2]

/-! ## The first block of a sweep: the three buffers are reset, then updated -/

/-- The new running maximum, from the reset maximum. -/
theorem stA_max (c : Dev nD) (t : Fin cfg1.N) (h0 : t.val % 8 = 0) (h1 : ¬t.val % 8 = 7) :
    (stA V c t h0 h1).2.1 = k1_pay2 (k1_pay9 (iblk1 V c 0 t) (iblk1 V c 1 t) (k1_pay4 (F := F))) := by
  unfold stA
  dsimp only
  rw [View.read_writes_eq_canon _ _ _ (scoverA_0 V c t h0 h1)]
  unfold caseA runA
  dsimp only
  sl_unfold_words
  rw [View.canon_cons_unit_zero (S := S1024x1) hz2]
  simp only [View.readAt_eq_ld, Memref.IsWhole.read_unread, rd0, rd1, rd2,
    View.readCov_unit_zero (S := S1024x1) _ hz2, View.readCov_unit_zero (S := S1024x1024) _ hz2,
    View.ld_unit_zero (S := S1x1024x1024) hz3, View.ld_unit_zero (S := S1x512x1024) hz3,
    View.ld_unit_zero (S := S1024x1) hz2, View.ld_unit_zero (S := S1024x1024) hz2]

/-- The new running denominator, from the reset maximum and denominator. -/
theorem stA_den (c : Dev nD) (t : Fin cfg1.N) (h0 : t.val % 8 = 0) (h1 : ¬t.val % 8 = 7) :
    (stA V c t h0 h1).2.2.1
      = k1_pay12 (iblk1 V c 0 t) (iblk1 V c 1 t) (k1_pay4 (F := F)) (k1_pay4 (F := F)) (k1_pay5 (F := F)) := by
  unfold stA
  dsimp only
  rw [View.read_writes_eq_canon _ _ _ (scoverA_1 V c t h0 h1)]
  unfold caseA runA
  dsimp only
  sl_unfold_words
  rw [View.canon_cons_unit_zero (S := S1024x1) hz2]
  simp only [View.readAt_eq_ld, Memref.IsWhole.read_unread, rd0, rd1, rd2,
    View.readCov_unit_zero (S := S1024x1) _ hz2, View.readCov_unit_zero (S := S1024x1024) _ hz2,
    View.ld_unit_zero (S := S1x1024x1024) hz3, View.ld_unit_zero (S := S1x512x1024) hz3,
    View.ld_unit_zero (S := S1024x1) hz2, View.ld_unit_zero (S := S1024x1024) hz2]

/-- The new running numerator, from the reset maximum and numerator. -/
theorem stA_num (c : Dev nD) (t : Fin cfg1.N) (h0 : t.val % 8 = 0) (h1 : ¬t.val % 8 = 7) :
    (stA V c t h0 h1).2.2.2
      = k1_pay1 (k1_pay7 (iblk1 V c 2 t)) (k1_pay11 (iblk1 V c 0 t) (iblk1 V c 1 t) (k1_pay4 (F := F)))
          (k1_pay13 (iblk1 V c 0 t) (iblk1 V c 1 t) (k1_pay4 (F := F)) (k1_pay4 (F := F)) (k1_pay6 (F := F))) := by
  unfold stA
  dsimp only
  rw [View.read_writes_eq_canon _ _ _ (scoverA_2 V c t h0 h1)]
  unfold caseA runA
  dsimp only
  sl_unfold_words
  rw [View.canon_cons_unit_zero (S := S1024x1024) hz2]
  simp only [View.readAt_eq_ld, Memref.IsWhole.read_unread, rd0, rd1, rd2,
    View.readCov_unit_zero (S := S1024x1) _ hz2, View.readCov_unit_zero (S := S1024x1024) _ hz2,
    View.ld_unit_zero (S := S1x1024x1024) hz3, View.ld_unit_zero (S := S1x512x1024) hz3,
    View.ld_unit_zero (S := S1024x1) hz2, View.ld_unit_zero (S := S1024x1024) hz2]

/-! ## The last block of a sweep: the update, then the quotient into the output block -/

theorem stC_max (c : Dev nD) (t : Fin cfg1.N) (h0 : ¬t.val % 8 = 0) (h1 : t.val % 8 = 7) (p : St (F := F)) :
    (stC V c t h0 h1 p).2.1 = k1_pay2 (k1_pay9 (iblk1 V c 0 t) (iblk1 V c 1 t) p.2.1) := by
  unfold stC
  dsimp only
  rw [View.read_writes_eq_canon _ _ _ (scoverC_0 V c t h0 h1 p.2.1 p.2.2.1 p.2.2.2)]
  unfold caseC runC
  dsimp only
  sl_unfold_words
  try dsimp only
  rw [View.canon_unit_zero hz2]
  simp only [View.readAt_eq_ld, Memref.IsWhole.read_unread, rd0, rd1, rd2,
    View.readCov_unit_zero (S := S1024x1) _ hz2, View.readCov_unit_zero (S := S1024x1024) _ hz2,
    View.ld_unit_zero (S := S1x1024x1024) hz3, View.ld_unit_zero (S := S1x512x1024) hz3,
    View.ld_unit_zero (S := S1024x1) hz2, View.ld_unit_zero (S := S1024x1024) hz2]

theorem stC_den (c : Dev nD) (t : Fin cfg1.N) (h0 : ¬t.val % 8 = 0) (h1 : t.val % 8 = 7) (p : St (F := F)) :
    (stC V c t h0 h1 p).2.2.1 = k1_pay12 (iblk1 V c 0 t) (iblk1 V c 1 t) p.2.1 p.2.1 p.2.2.1 := by
  unfold stC
  dsimp only
  rw [View.read_writes_eq_canon _ _ _ (scoverC_1 V c t h0 h1 p.2.1 p.2.2.1 p.2.2.2)]
  unfold caseC runC
  dsimp only
  sl_unfold_words
  try dsimp only
  rw [View.canon_unit_zero hz2]
  simp only [View.readAt_eq_ld, Memref.IsWhole.read_unread, rd0, rd1, rd2,
    View.readCov_unit_zero (S := S1024x1) _ hz2, View.readCov_unit_zero (S := S1024x1024) _ hz2,
    View.ld_unit_zero (S := S1x1024x1024) hz3, View.ld_unit_zero (S := S1x512x1024) hz3,
    View.ld_unit_zero (S := S1024x1) hz2, View.ld_unit_zero (S := S1024x1024) hz2]

theorem stC_num (c : Dev nD) (t : Fin cfg1.N) (h0 : ¬t.val % 8 = 0) (h1 : t.val % 8 = 7) (p : St (F := F)) :
    (stC V c t h0 h1 p).2.2.2 = k1_pay1 (k1_pay7 (iblk1 V c 2 t)) (k1_pay11 (iblk1 V c 0 t) (iblk1 V c 1 t) p.2.1)
      (k1_pay13 (iblk1 V c 0 t) (iblk1 V c 1 t) p.2.1 p.2.1 p.2.2.2) := by
  unfold stC
  dsimp only
  rw [View.read_writes_eq_canon _ _ _ (scoverC_2 V c t h0 h1 p.2.1 p.2.2.1 p.2.2.2)]
  unfold caseC runC
  dsimp only
  sl_unfold_words
  try dsimp only
  rw [View.canon_unit_zero hz2]
  simp only [View.readAt_eq_ld, Memref.IsWhole.read_unread, rd0, rd1, rd2,
    View.readCov_unit_zero (S := S1024x1) _ hz2, View.readCov_unit_zero (S := S1024x1024) _ hz2,
    View.ld_unit_zero (S := S1x1024x1024) hz3, View.ld_unit_zero (S := S1x512x1024) hz3,
    View.ld_unit_zero (S := S1024x1) hz2, View.ld_unit_zero (S := S1024x1024) hz2]

/-- The output block: the new numerator divided by the new denominator. -/
theorem stC_out (c : Dev nD) (t : Fin cfg1.N) (h0 : ¬t.val % 8 = 0) (h1 : t.val % 8 = 7) (p : St (F := F)) :
    (stC V c t h0 h1 p).1
      = k1_pay3 (k1_pay1 (k1_pay7 (iblk1 V c 2 t)) (k1_pay11 (iblk1 V c 0 t) (iblk1 V c 1 t) p.2.1)
            (k1_pay13 (iblk1 V c 0 t) (iblk1 V c 1 t) p.2.1 p.2.1 p.2.2.2))
          (k1_pay12 (iblk1 V c 0 t) (iblk1 V c 1 t) p.2.1 p.2.1 p.2.2.1) := by
  unfold stC
  dsimp only
  rw [View.read_writes_eq_canon _ _ _ (coverC_3 V c t h0 h1 p.2.1 p.2.2.1 p.2.2.2)]
  unfold caseC runC
  dsimp only
  sl_unfold_words
  try dsimp only
  rw [View.canon_unit_zero hz3]
  simp only [View.readAt_eq_ld, Memref.IsWhole.read_unread, rd0, rd1, rd2,
    View.readCov_unit_zero (S := S1024x1) _ hz2, View.readCov_unit_zero (S := S1024x1024) _ hz2,
    View.ld_unit_zero (S := S1x1024x1024) hz3, View.ld_unit_zero (S := S1x512x1024) hz3,
    View.ld_unit_zero (S := S1024x1) hz2, View.ld_unit_zero (S := S1024x1024) hz2]

end Cert.KernelIdeal.Val1.Sweep

end
-- ==== Proof.KIValue1s.lean ====
/-
  The attention region's operand blocks read at an index. Point n of the 4 x 4 x 8 grid is (b, qi, j) with
  n = 32 b + 8 qi + j: its query block is rows 1024 qi .. 1024 qi + 1023 of batch b of the query array, its key and
  value blocks are rows 512 j .. 512 j + 511 of batch b of the key and value arrays.
-/
import proofs.«148373_j65481071407281_2_alg».proof.Proof.KIFrame1b
import proofs.«148373_j65481071407281_2_alg».proof.Proof.AttnKSpec
import Idealize.ShloMosaic.Lib.Pipeline.Value
import Idealize.ShloMosaic.Lib.ValueIdx

set_option maxRecDepth 16384

noncomputable section

namespace Cert.KernelIdeal.Val1.Sweep

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The block index of each window at each point, decided over the grid. -/
theorem idx_facts : ∀ t : Fin cfg1.N,
    win1_0.index t (0 : Fin 3) = t.val / 32 % 4 ∧ win1_0.index t (1 : Fin 3) = t.val / 8 % 4 ∧ win1_0.index t (2 : Fin 3) = 0
    ∧ win1_1.index t (0 : Fin 3) = t.val / 32 % 4 ∧ win1_1.index t (1 : Fin 3) = t.val % 8 ∧ win1_1.index t (2 : Fin 3) = 0
    ∧ win1_2.index t (0 : Fin 3) = t.val / 32 % 4 ∧ win1_2.index t (1 : Fin 3) = t.val % 8 ∧ win1_2.index t (2 : Fin 3) = 0
    ∧ win1_3.index t (0 : Fin 3) = t.val / 32 % 4 ∧ win1_3.index t (1 : Fin 3) = t.val / 8 % 4 ∧ win1_3.index t (2 : Fin 3) = 0 :=
  (by decide +kernel : ∀ t : Fin grid1.N, _)

/-- The batch of point n, -/
def pb (n : ℕ) : Fin 4 := ⟨n / 32 % 4, Nat.mod_lt _ (by decide)⟩

/-- the array row of row r of its query block, -/
def pq (n : ℕ) (r : Fin 1024) : Fin 4096 := ⟨1024 * (n / 8 % 4) + r.val, by have := r.isLt; omega⟩

/-- and the array row of row k of its key block. -/
def pk (n : ℕ) (k : Fin 512) : Fin 4096 := ⟨512 * (n % 8) + k.val, by have := k.isLt; omega⟩

theorem pk_eq_kidx (n : ℕ) (k : Fin 512) : pk n k = Cert.AttnK.kidx (n % 8) k := by
  apply Fin.ext
  show 512 * (n % 8) + k.val = (512 * (n % 8) + k.val) % 4096
  have := k.isLt
  omega

/-- The query block at (0, r, e) is the query array at (b, 1024 qi + r, e). -/
theorem iblk0_apply (c : Dev nD) (t : Fin cfg1.N) (r e : Fin 1024) :
    iblk1 V c 0 t (ix3 (0 : Fin 1) r e) = V c main_v3_0 (ix3 (pb t.val) (pq t.val r) e) := by
  obtain ⟨e0, e1, e2, -⟩ := idx_facts t
  unfold iblk1
  rw [View.read_apply]
  show V c main_v3_0 _ = V c main_v3_0 _
  refine congrArg (V c main_v3_0) ?_
  funext a
  apply Fin.ext
  match a with
  | ⟨0, _⟩ => show win1_0.index t (0 : Fin 3) * 1 + 1 * 0 = t.val / 32 % 4; omega
  | ⟨1, _⟩ => show win1_0.index t (1 : Fin 3) * 1024 + 1 * r.val = 1024 * (t.val / 8 % 4) + r.val; omega
  | ⟨2, _⟩ => show win1_0.index t (2 : Fin 3) * 1024 + 1 * e.val = e.val; omega

/-- The key block at (0, k, e) is the key array at (b, 512 j + k, e). -/
theorem iblk1_apply (c : Dev nD) (t : Fin cfg1.N) (k : Fin 512) (e : Fin 1024) :
    iblk1 V c 1 t (ix3 (0 : Fin 1) k e) = V c main_v3_1 (ix3 (pb t.val) (pk t.val k) e) := by
  obtain ⟨-, -, -, e0, e1, e2, -⟩ := idx_facts t
  unfold iblk1
  rw [View.read_apply]
  show V c main_v3_1 _ = V c main_v3_1 _
  refine congrArg (V c main_v3_1) ?_
  funext a
  apply Fin.ext
  match a with
  | ⟨0, _⟩ => show win1_1.index t (0 : Fin 3) * 1 + 1 * 0 = t.val / 32 % 4; omega
  | ⟨1, _⟩ => show win1_1.index t (1 : Fin 3) * 512 + 1 * k.val = 512 * (t.val % 8) + k.val; omega
  | ⟨2, _⟩ => show win1_1.index t (2 : Fin 3) * 1024 + 1 * e.val = e.val; omega

/-- The value block at (0, k, e) is the value array at (b, 512 j + k, e). -/
theorem iblk2_apply (c : Dev nD) (t : Fin cfg1.N) (k : Fin 512) (e : Fin 1024) :
    iblk1 V c 2 t (ix3 (0 : Fin 1) k e) = V c main_v3_2 (ix3 (pb t.val) (pk t.val k) e) := by
  obtain ⟨-, -, -, -, -, -, e0, e1, e2, -⟩ := idx_facts t
  unfold iblk1
  rw [View.read_apply]
  show V c main_v3_2 _ = V c main_v3_2 _
  refine congrArg (V c main_v3_2) ?_
  funext a
  apply Fin.ext
  match a with
  | ⟨0, _⟩ => show win1_2.index t (0 : Fin 3) * 1 + 1 * 0 = t.val / 32 % 4; omega
  | ⟨1, _⟩ => show win1_2.index t (1 : Fin 3) * 512 + 1 * k.val = 512 * (t.val % 8) + k.val; omega
  | ⟨2, _⟩ => show win1_2.index t (2 : Fin 3) * 1024 + 1 * e.val = e.val; omega

end Cert.KernelIdeal.Val1.Sweep

end
-- ==== Proof.AttnConsts.lean ====
import Idealize.ShloMosaic.PureOps.Ideal

/-!
# Three single-precision literals as extended reals

The score scale 1/32 and the two infinities, each as the extended real its bit pattern
denotes: sign bit, eight exponent bits (bias 127), twenty-three significand bits.
-/

noncomputable section

namespace Cert.AttnConsts

open Idealize.ShloMosaic

/-- 0x3D000000: sign +, exponent field 122, significand field 0, so 2^23 * 2^(122-127-23) = 2^(-5). -/
theorem ofBits_scale : Ideal.ofBits .f32 0x3D000000#32 = ((1 / 32 : ℝ) : EReal) := by
  simp [Ideal.ofBits, Ideal.ieee, -EReal.coe_mul]; norm_num

/-- 0xFF800000: sign -, all-ones exponent, zero significand: minus infinity. -/
theorem ofBits_neg_inf : Ideal.ofBits .f32 0xFF800000#32 = (⊥ : EReal) := by
  simp [Ideal.ofBits, Ideal.ieee]

/-- 0x7F800000: sign +, all-ones exponent, zero significand: plus infinity. -/
theorem ofBits_pos_inf : Ideal.ofBits .f32 0x7F800000#32 = (⊤ : EReal) := by
  simp [Ideal.ofBits, Ideal.ieee]

end Cert.AttnConsts

end
-- ==== Proof.KIValue1b.lean ====
/-
  The attention region along a sweep. At every point the three carried buffers hold, for each query row of the
  point's query block and each column, the online-softmax triple (running maximum, denominator, numerator) of that
  row's scores against the key blocks swept so far: the first point of a sweep starts from (minus infinity, 0, 0),
  every point applies one step of the recurrence with its key block's scores and its value block's column. At a
  sweep's last point the output block holds numerator / denominator after the eighth block.
-/
import proofs.«148373_j65481071407281_2_alg».proof.Proof.KIValue1p
import proofs.«148373_j65481071407281_2_alg».proof.Proof.KIValue1s
import proofs.«148373_j65481071407281_2_alg».proof.Proof.KIValue1i
import proofs.«148373_j65481071407281_2_alg».proof.Proof.KernelPay
import proofs.«148373_j65481071407281_2_alg».proof.Proof.AttnConsts

set_option maxRecDepth 16384

noncomputable section

namespace Cert.KernelIdeal.Val1.Sweep

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

open Cert.KernelIdeal.Pay

/-! ## One step, on blocks -/

section Step

variable (q : Vec Ideal S1x1024x1024 .bf16) (k v : Vec Ideal S1x512x1024 .bf16)
  (m l : Vec Ideal S1024x1 .f32) (a : Vec Ideal S1024x1024 .f32)

/-- The scores of row r of a query block against the rows of a key block. -/
def sc (r : Fin 1024) : Fin 512 → EReal :=
  fun k' => ∑ e : Fin 1024, q (ix3 (0 : Fin 1) r e) * k (ix3 (0 : Fin 1) k' e)

theorem pay8_sc (r : Fin 1024) (k' : Fin 512) : k1_pay8 q k (ix2 r k') = sc q k r k' := pay8_apply q k r k'

/-- The new maximum of row r. -/
theorem pay9_sc (r : Fin 1024) :
    k1_pay9 q k m (ix2 r (0 : Fin 1))
      = max (m (ix2 r 0)) ((Finset.univ : Finset (Fin 512)).fold max ⊥ (sc q k r)) := by
  rw [pay9_apply_bot Cert.AttnConsts.ofBits_neg_inf]
  exact congrArg (fun s => max (m (ix2 r 0)) ((Finset.univ : Finset (Fin 512)).fold max ⊥ s))
    (funext fun k' => pay8_sc q k r k')

/-- The body's update of row r and column e is one step of the recurrence. -/
theorem upd (r e : Fin 1024) :
    (k1_pay2 (k1_pay9 q k m) (ix2 r (0 : Fin 1)), k1_pay12 q k m m l (ix2 r (0 : Fin 1)),
        k1_pay1 (k1_pay7 v) (k1_pay11 q k m) (k1_pay13 q k m m a) (ix2 r e))
      = OnlineSoftmax.step (m (ix2 r (0 : Fin 1)), l (ix2 r (0 : Fin 1)), a (ix2 r e)) (sc q k r)
          (fun k' => v (ix3 (0 : Fin 1) k' e)) := by
  simp only [OnlineSoftmax.step, pay2'_apply, pay12_apply, pay1_apply, pay13_apply, pay10_apply, pay11_apply,
    pay7_apply, pay8_sc, pay9_sc]

end Step

/-! ## Along the grid -/

variable (V : (c : Dev nD) → (b : Ref sig .tc) → Buf (Elt Ideal) ((c : Thread nD τ).loc b))

/-- The entries of the three carried buffers that belong to row r and column e. -/
def tri (p : St (F := Ideal)) (r e : Fin 1024) : EReal × EReal × EReal :=
  (p.2.1 (ix2 r (0 : Fin 1)), p.2.2.1 (ix2 r (0 : Fin 1)), p.2.2.2 (ix2 r e))

/-- The scores of row r of point n's query block against each key block of its batch, -/
abbrev sKn (c : Dev nD) (n : ℕ) (r : Fin 1024) : ℕ → Fin 512 → EReal :=
  Cert.AttnK.sK (V c main_v3_0) (V c main_v3_1) (pb n) (pq n r)

/-- and column e of each value block of its batch. -/
abbrev vKn (c : Dev nD) (n : ℕ) (e : Fin 1024) : ℕ → Fin 512 → EReal :=
  Cert.AttnK.vK (V c main_v3_2) (pb n) e

/-- Scores over blocks that are rows of two arrays are the arrays' scores. -/
theorem sc_congr (q : Vec Ideal S1x1024x1024 .bf16) (k : Vec Ideal S1x512x1024 .bf16)
    (Q K : Cert.AttnK.SX.Idx → EReal) (b : Fin 4) (qq : Fin 4096) (j : ℕ) (r : Fin 1024)
    (hq : ∀ e : Fin 1024, q (ix3 (0 : Fin 1) r e) = Q (ix3 b qq e))
    (hk : ∀ (k' : Fin 512) (e : Fin 1024), k (ix3 (0 : Fin 1) k' e) = K (ix3 b (Cert.AttnK.kidx j k') e)) :
    sc q k r = Cert.AttnK.sK Q K b qq j := by
  funext k'
  unfold sc Cert.AttnK.sK
  exact Finset.sum_congr rfl fun e _ => by rw [hq e, hk k' e]

theorem val_congr (v : Vec Ideal S1x512x1024 .bf16) (Vv : Cert.AttnK.SX.Idx → EReal) (b : Fin 4) (j : ℕ) (e : Fin 1024)
    (hv : ∀ k' : Fin 512, v (ix3 (0 : Fin 1) k' e) = Vv (ix3 b (Cert.AttnK.kidx j k') e)) :
    (fun k' : Fin 512 => v (ix3 (0 : Fin 1) k' e)) = Cert.AttnK.vK Vv b e j := by
  funext k'
  unfold Cert.AttnK.vK
  exact hv k'

/-- Row r of point t's query block against its key block: the scores against key block t % 8. -/
theorem sc_blk (c : Dev nD) (t : Fin cfg1.N) (r : Fin 1024) :
    sc (iblk1 V c 0 t) (iblk1 V c 1 t) r = sKn V c t.val r (t.val % 8) :=
  sc_congr (iblk1 V c 0 t) (iblk1 V c 1 t) (V c main_v3_0) (V c main_v3_1) (pb t.val) (pq t.val r) (t.val % 8) r
    (fun e => iblk0_apply V c t r e)
    (fun k' e => (iblk1_apply V c t k' e).trans (by rw [pk_eq_kidx]))

/-- Column e of point t's value block: column e of value block t % 8. -/
theorem val_blk (c : Dev nD) (t : Fin cfg1.N) (e : Fin 1024) :
    (fun k' : Fin 512 => iblk1 V c 2 t (ix3 (0 : Fin 1) k' e)) = vKn V c t.val e (t.val % 8) :=
  val_congr (iblk1 V c 2 t) (V c main_v3_2) (pb t.val) (t.val % 8) e
    (fun k' => (iblk2_apply V c t k' e).trans (by rw [pk_eq_kidx]))

/-- A sweep's first point: one step from (minus infinity, 0, 0). -/
theorem triA (c : Dev nD) (t : Fin cfg1.N) (h0 : t.val % 8 = 0) (h1 : ¬t.val % 8 = 7) (r e : Fin 1024) :
    tri (stA V c t h0 h1) r e
      = OnlineSoftmax.step (⊥, 0, 0) (sKn V c t.val r (t.val % 8)) (vKn V c t.val e (t.val % 8)) := by
  unfold tri
  rw [stA_max V c t h0 h1, stA_den V c t h0 h1, stA_num V c t h0 h1]
  refine (upd (iblk1 V c 0 t) (iblk1 V c 1 t) (iblk1 V c 2 t) (k1_pay4 (F := Ideal)) (k1_pay5 (F := Ideal))
    (k1_pay6 (F := Ideal)) r e).trans ?_
  rw [pay4_init, pay5_init, pay6_init, Cert.AttnConsts.ofBits_neg_inf, sc_blk V c t r, val_blk V c t e]

/-- A later point: one step from what the point before left. -/
theorem triB (c : Dev nD) (t : Fin cfg1.N) (h0 : ¬t.val % 8 = 0) (h1 : ¬t.val % 8 = 7) (p : St (F := Ideal))
    (r e : Fin 1024) :
    tri (stB V c t h0 h1 p) r e
      = OnlineSoftmax.step (tri p r e) (sKn V c t.val r (t.val % 8)) (vKn V c t.val e (t.val % 8)) := by
  unfold tri
  rw [stB_max V c t h0 h1 p, stB_den V c t h0 h1 p, stB_num V c t h0 h1 p]
  refine (upd (iblk1 V c 0 t) (iblk1 V c 1 t) (iblk1 V c 2 t) p.2.1 p.2.2.1 p.2.2.2 r e).trans ?_
  rw [sc_blk V c t r, val_blk V c t e]

/-- The last point of a sweep: the same step. -/
theorem triC (c : Dev nD) (t : Fin cfg1.N) (h0 : ¬t.val % 8 = 0) (h1 : t.val % 8 = 7) (p : St (F := Ideal))
    (r e : Fin 1024) :
    tri (stC V c t h0 h1 p) r e
      = OnlineSoftmax.step (tri p r e) (sKn V c t.val r (t.val % 8)) (vKn V c t.val e (t.val % 8)) := by
  unfold tri
  rw [stC_max V c t h0 h1 p, stC_den V c t h0 h1 p, stC_num V c t h0 h1 p]
  refine (upd (iblk1 V c 0 t) (iblk1 V c 1 t) (iblk1 V c 2 t) p.2.1 p.2.2.1 p.2.2.2 r e).trans ?_
  rw [sc_blk V c t r, val_blk V c t e]

/-- Within a sweep the batch and the query rows do not move. -/
theorem pb_succ (n : ℕ) (h : ¬(n + 1) % 8 = 0) : pb (n + 1) = pb n := by
  apply Fin.ext; show (n + 1) / 32 % 4 = n / 32 % 4; omega

theorem pq_succ (n : ℕ) (h : ¬(n + 1) % 8 = 0) (r : Fin 1024) : pq (n + 1) r = pq n r := by
  apply Fin.ext; show 1024 * ((n + 1) / 8 % 4) + r.val = 1024 * (n / 8 % 4) + r.val; omega

/-- After point n the three buffers hold the online-softmax triples after n % 8 + 1 key blocks. -/
theorem inv (c : Dev nD) : ∀ (n : ℕ) (hn : n < cfg1.N) (r e : Fin 1024),
    tri (outsAt1 V c n hn) r e = OnlineSoftmax.run (sKn V c n r) (vKn V c n e) (n % 8 + 1)
  | 0, hn, r, e => by
    refine (congrArg (fun p => tri p r e) (outsAt1_A V c ⟨0, hn⟩ (Nat.zero_mod 8) (by show ¬(0 % 8 = 7); decide))).trans ?_
    exact triA V c ⟨0, hn⟩ (Nat.zero_mod 8) (by show ¬(0 % 8 = 7); decide) r e
  | n + 1, hn, r, e => by
    by_cases h0 : (n + 1) % 8 = 0
    · have h1 : ¬(n + 1) % 8 = 7 := by omega
      refine (congrArg (fun p => tri p r e) (outsAt1_A V c ⟨n + 1, hn⟩ h0 h1)).trans ?_
      refine (triA V c ⟨n + 1, hn⟩ h0 h1 r e).trans ?_
      show OnlineSoftmax.step (⊥, 0, 0) (sKn V c (n + 1) r ((n + 1) % 8)) (vKn V c (n + 1) e ((n + 1) % 8))
        = OnlineSoftmax.run (sKn V c (n + 1) r) (vKn V c (n + 1) e) ((n + 1) % 8 + 1)
      rw [h0]
      rfl
    · have ih := inv c n (Nat.lt_of_succ_lt hn) r e
      have hs : sKn V c (n + 1) r = sKn V c n r := by
        show Cert.AttnK.sK _ _ (pb (n + 1)) (pq (n + 1) r) = Cert.AttnK.sK _ _ (pb n) (pq n r)
        rw [pb_succ n h0, pq_succ n h0 r]
      have hv : vKn V c (n + 1) e = vKn V c n e := by
        show Cert.AttnK.vK _ (pb (n + 1)) e = Cert.AttnK.vK _ (pb n) e
        rw [pb_succ n h0]
      have hj : n % 8 + 1 = (n + 1) % 8 := by omega
      have step_eq : ∀ p : St (F := Ideal), tri p r e = OnlineSoftmax.run (sKn V c n r) (vKn V c n e) (n % 8 + 1) →
          OnlineSoftmax.step (tri p r e) (sKn V c (n + 1) r ((n + 1) % 8)) (vKn V c (n + 1) e ((n + 1) % 8))
            = OnlineSoftmax.run (sKn V c (n + 1) r) (vKn V c (n + 1) e) ((n + 1) % 8 + 1) := by
        intro p hp
        rw [hp, hs, hv, hj]
        exact (OnlineSoftmax.run_succ _ _ _).symm
      by_cases h1 : (n + 1) % 8 = 7
      · refine (congrArg (fun p => tri p r e) (outsAt1_C V c ⟨n + 1, hn⟩ h0 h1)).trans ?_
        refine (triC V c ⟨n + 1, hn⟩ h0 h1 _ r e).trans ?_
        exact step_eq _ ih
      · refine (congrArg (fun p => tri p r e) (outsAt1_B V c ⟨n + 1, hn⟩ h0 h1)).trans ?_
        refine (triB V c ⟨n + 1, hn⟩ h0 h1 _ r e).trans ?_
        exact step_eq _ ih

/-- At a sweep's last point the output block is the new numerator divided by the new denominator. -/
theorem out_last (c : Dev nD) (t : Fin cfg1.N) (h7 : t.val % 8 = 7) (r e : Fin 1024) :
    (outsAt1 V c t.val t.isLt).1 (ix3 (0 : Fin 1) r e)
      = Ideal.div (tri (outsAt1 V c t.val t.isLt) r e).2.2 (tri (outsAt1 V c t.val t.isLt) r e).2.1 := by
  have h0 : ¬t.val % 8 = 0 := by omega
  rw [outsAt1_C V c t h0 h7]
  unfold tri
  dsimp only
  rw [stC_out V c t h0 h7, ← stC_num V c t h0 h7, ← stC_den V c t h0 h7]
  exact pay3'_apply _ _ r e

end Cert.KernelIdeal.Val1.Sweep

namespace Cert.KernelIdeal.Val1

open Cert.KernelIdeal Cert.KernelIdeal.Gen Cert.KernelIdeal.Fr
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The output block of every last point holds blockwise attention of its query rows. -/
theorem out_at_last : OutAtLast V := by
  intro c t h7 hN r e
  rw [Sweep.out_last V c t h7 r e, Sweep.inv V c t.val t.isLt r e, h7]
  have hb : Sweep.pb t.val = (⟨t.val / 32, by omega⟩ : Fin 4) := Fin.ext (by show t.val / 32 % 4 = t.val / 32; omega)
  show Ideal.div (OnlineSoftmax.run (Cert.AttnK.sK _ _ (Sweep.pb t.val) (Sweep.pq t.val r)) (Cert.AttnK.vK _ (Sweep.pb t.val) e) 8).2.2
      (OnlineSoftmax.run (Cert.AttnK.sK _ _ (Sweep.pb t.val) (Sweep.pq t.val r)) (Cert.AttnK.vK _ (Sweep.pb t.val) e) 8).2.1 = _
  rw [hb]
  rfl

end Cert.KernelIdeal.Val1

end
-- ==== Proof.KIHost.lean ====
/-
  What the three host conversions before the projection region leave, at the exact extended reals: a change of
  float format is the identity there, so each converted weight matrix is the argument it was converted from, and
  the activations, which no conversion writes, are as launched.
-/
import proofs.«148373_j65481071407281_2_alg».proof.Proof.Gen.KernelIdeal.Regions
import Idealize.ShloMosaic.Lib.StableHlo.Run
import Idealize.ShloMosaic.Lib.ValueIdx

noncomputable section

namespace Cert.KernelIdeal.Host0

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ)

/-- The first converted weight matrix is the second argument, entry by entry. -/
theorem V1_v0 (c : Dev nD) :
    (fun i => V1 m c main_v0 i : S1024x1024.Idx → EReal) = (fun i => m ((c : Thread nD τ).loc main_arg1) i) := by
  have e : StableHlo.after hostOps0 (fun b => m (c, b)) (Proc.devRef .tc main_v0)
      = (truncf .bf16 (m (c, Proc.devRef .tc main_arg1) : FVec Ideal S1024x1024 .f32) bitsLt_bf16_f32 : FVec Ideal S1024x1024 .bf16) := by
    after_results
  funext i
  exact congrFun e i

/-- The second converted weight matrix is the third argument. -/
theorem V1_v1 (c : Dev nD) :
    (fun i => V1 m c main_v1 i : S1024x1024.Idx → EReal) = (fun i => m ((c : Thread nD τ).loc main_arg2) i) := by
  have e : StableHlo.after hostOps0 (fun b => m (c, b)) (Proc.devRef .tc main_v1)
      = (truncf .bf16 (m (c, Proc.devRef .tc main_arg2) : FVec Ideal S1024x1024 .f32) bitsLt_bf16_f32 : FVec Ideal S1024x1024 .bf16) := by
    after_results
  funext i
  exact congrFun e i

/-- The third converted weight matrix is the fourth argument. -/
theorem V1_v2 (c : Dev nD) :
    (fun i => V1 m c main_v2 i : S1024x1024.Idx → EReal) = (fun i => m ((c : Thread nD τ).loc main_arg3) i) := by
  have e : StableHlo.after hostOps0 (fun b => m (c, b)) (Proc.devRef .tc main_v2)
      = (truncf .bf16 (m (c, Proc.devRef .tc main_arg3) : FVec Ideal S1024x1024 .f32) bitsLt_bf16_f32 : FVec Ideal S1024x1024 .bf16) := by
    after_results
  funext i
  exact congrFun e i

/-- No conversion writes the activations: they are as launched. -/
theorem V1_arg0 (c : Dev nD) : V1 m c main_arg0 = m ((c : Thread nD τ).loc main_arg0) :=
  (V1_of m c main_arg0 (by decide)).trans rfl

end Cert.KernelIdeal.Host0

end
-- ==== Proof.AttnSpec.lean ====
/-
  The specification both programs meet: single-head self-attention over the reals.
  For activations x [nb, ns, ne] and weights wq, wk, wv [ne, ne] (stored [out, in]):
    proj x w b s e   = sum over d of x b s d * w e d                      (a projection, x times w transposed)
    score b q k      = (sum over e of q-projection b q e * k-projection b k e) * sc
    attn b q e       = (sum over k of exp (score b q k) * v-projection b k e) / (sum over k of exp (score b q k))
  the softmax-weighted average of the value rows. `G` is that array over the extended reals, reading each argument
  entry through its real part; on finite arguments both programs compute it.
-/
import Idealize.ShloMosaic.PureOps.Ideal
import Idealize.ShloMosaic.Lib.ValueIdx

noncomputable section

namespace Cert.Attn

open Idealize.ShloMosaic Idealize.ShloMosaic.ValueIdx

variable {nb ns ne : ℕ}

/-- One projection: the activations times a weight matrix transposed. -/
def proj (x : Fin nb → Fin ns → Fin ne → ℝ) (w : Fin ne → Fin ne → ℝ) (b : Fin nb) (s : Fin ns) (e : Fin ne) : ℝ :=
  ∑ d, x b s d * w e d

/-- The scaled score of query row `q` against key row `k`. -/
def score (sc : ℝ) (x : Fin nb → Fin ns → Fin ne → ℝ) (wq wk : Fin ne → Fin ne → ℝ) (b : Fin nb) (q k : Fin ns) : ℝ :=
  (∑ e, proj x wq b q e * proj x wk b k e) * sc

/-- The attention output: the softmax-weighted average of the value rows. -/
def attn (sc : ℝ) (x : Fin nb → Fin ns → Fin ne → ℝ) (wq wk wv : Fin ne → Fin ne → ℝ) (b : Fin nb) (q : Fin ns) (e : Fin ne) : ℝ :=
  (∑ k, Real.exp (score sc x wq wk b q k) * proj x wv b k e) / ∑ k, Real.exp (score sc x wq wk b q k)

/-- The real part of a rank-3 and of a rank-2 array of extended reals, by coordinates. -/
def re3 (x : (⟨3, ![nb, ns, ne]⟩ : Shape).Idx → EReal) (b : Fin nb) (s : Fin ns) (d : Fin ne) : ℝ := (x (ix3 b s d)).toReal
def re2 (w : (⟨2, ![ne, ne]⟩ : Shape).Idx → EReal) (e d : Fin ne) : ℝ := (w (ix2 e d)).toReal

/-- The result array, as extended reals. -/
def G (sc : ℝ) (x : (⟨3, ![nb, ns, ne]⟩ : Shape).Idx → EReal) (wq wk wv : (⟨2, ![ne, ne]⟩ : Shape).Idx → EReal) :
    (⟨3, ![nb, ns, ne]⟩ : Shape).Idx → EReal :=
  fun i => ((attn sc (re3 x) (re2 wq) (re2 wk) (re2 wv) (i 0) (i 1) (i 2) : ℝ) : EReal)

end Cert.Attn

end
-- ==== Proof.AttnAlgebra.lean ====
/-
  Blockwise attention is softmax attention, on real inputs.

  When every entry of x, wq, wk, wv is a real number, each projection is the coercion of the real projection, the
  scaled query projection is the real one times 1/32, and a score (a sum over e of scaled-query times key entries) is
  the real score of the specification: the scale moves out of the sum. The online-softmax recurrence over eight blocks
  of 512 real scores and values returns (sum over blocks and positions of exp score * value) / (sum of exp score);
  position k of block j is key row 512 j + k, and these run through each of the 4096 key rows exactly once, so the two
  double sums are the sums over all key rows: the quotient is the attention output of the specification.
-/
import Mathlib
import proofs.«148373_j65481071407281_2_alg».proof.Proof.AttnSpec
import proofs.«148373_j65481071407281_2_alg».proof.Proof.AttnKSpec
import proofs.«148373_j65481071407281_2_alg».proof.Proof.AttnConsts
import proofs.«148373_j65481071407281_2_alg».proof.Proof.LibOnlineSoftmax

noncomputable section

namespace Cert.AttnK

open Idealize.ShloMosaic Idealize.ShloMosaic.ValueIdx Cert.Attn

/-- An entry that is a real number is the coercion of its real part. -/
theorem eq_coe_toReal {ι : Type*} (x : ι → EReal) (hx : ∀ i, ∃ r : ℝ, x i = (r : EReal)) (i : ι) :
    x i = (((x i).toReal : ℝ) : EReal) := by
  obtain ⟨r, hr⟩ := hx i
  rw [hr, EReal.toReal_coe]

/-- A projection of real arrays is the coercion of the real projection. -/
theorem P0_real (x : SX.Idx → EReal) (w : SW.Idx → EReal)
    (hx : ∀ i, ∃ r : ℝ, x i = (r : EReal)) (hw : ∀ i, ∃ r : ℝ, w i = (r : EReal))
    (b : Fin 4) (s : Fin 4096) (e : Fin 1024) :
    P0 x w (ix3 b s e) = ((proj (re3 x) (re2 w) b s e : ℝ) : EReal) := by
  unfold proj
  rw [OnlineSoftmax.coe_sum]
  show ∑ d : Fin 1024, x (ix3 b s d) * w (ix2 e d) = _
  refine Finset.sum_congr rfl fun d _ => ?_
  rw [EReal.coe_mul]
  show _ = (((x (ix3 b s d)).toReal : ℝ) : EReal) * (((w (ix2 e d)).toReal : ℝ) : EReal)
  rw [← eq_coe_toReal x hx, ← eq_coe_toReal w hw]

/-- The scaled projection of real arrays, with the scale word of 1/32, is the real projection times 1/32. -/
theorem Q0_real (x : SX.Idx → EReal) (w : SW.Idx → EReal)
    (hx : ∀ i, ∃ r : ℝ, x i = (r : EReal)) (hw : ∀ i, ∃ r : ℝ, w i = (r : EReal))
    (b : Fin 4) (s : Fin 4096) (e : Fin 1024) :
    Q0 (Ideal.ofBits .f32 0x3D000000#32) x w (ix3 b s e)
      = ((proj (re3 x) (re2 w) b s e * (1 / 32) : ℝ) : EReal) := by
  show P0 x w (ix3 b s e) * Ideal.ofBits .f32 0x3D000000#32 = _
  rw [P0_real x w hx hw, Cert.AttnConsts.ofBits_scale, ← EReal.coe_mul]

/-- A block score is the real score of the specification against that block's key row. -/
theorem sK_real (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal)) (b : Fin 4) (q : Fin 4096) (j : ℕ) (k : Fin 512) :
    sK (Q0 (Ideal.ofBits .f32 0x3D000000#32) x wq) (P0 x wk) b q j k
      = ((score (1 / 32) (re3 x) (re2 wq) (re2 wk) b q (kidx j k) : ℝ) : EReal) := by
  unfold sK score
  rw [Finset.sum_mul, OnlineSoftmax.coe_sum]
  refine Finset.sum_congr rfl fun e _ => ?_
  rw [Q0_real x wq hx hq, P0_real x wk hx hk, ← EReal.coe_mul]
  congr 1
  ring

/-- A block value entry is the real value projection at that block's key row. -/
theorem vK_real (x : SX.Idx → EReal) (wv : SW.Idx → EReal)
    (hx : ∀ i, ∃ r : ℝ, x i = (r : EReal)) (hv : ∀ i, ∃ r : ℝ, wv i = (r : EReal))
    (b : Fin 4) (e : Fin 1024) (j : ℕ) (k : Fin 512) :
    vK (P0 x wv) b e j k = ((proj (re3 x) (re2 wv) b (kidx j k) e : ℝ) : EReal) :=
  P0_real x wv hx hv b (kidx j k) e

/-- Position k of block j, for j < 8, is key row 512 j + k: eight blocks of 512 run through the 4096 key rows once
    each, so a sum over blocks and positions is the sum over all key rows. -/
theorem sum_kidx {M : Type*} [AddCommMonoid M] (f : Fin 4096 → M) :
    ∑ j ∈ Finset.range 8, ∑ k : Fin 512, f (kidx j k) = ∑ k' : Fin 4096, f k' := by
  rw [Finset.sum_range (fun j => ∑ k : Fin 512, f (kidx j k)),
    ← Fintype.sum_prod_type (f := fun p : Fin 8 × Fin 512 => f (kidx p.1.val p.2))]
  refine Fintype.sum_equiv (finProdFinEquiv (m := 8) (n := 512)) _ _ fun p => ?_
  congr 1
  apply Fin.ext
  show (512 * p.1.val + p.2.val) % 4096 = p.2.val + 512 * p.1.val
  have h1 := p.1.isLt
  have h2 := p.2.isLt
  rw [Nat.mod_eq_of_lt (by omega)]
  omega

/-- Blockwise attention over the scaled query projection and the key and value projections of real inputs is the
    attention output of the specification with scale 1/32. -/
theorem Gk_eq_G (x : SX.Idx → EReal) (wq wk wv : SW.Idx → EReal)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal)) :
    Gk (Q0 (Ideal.ofBits .f32 0x3D000000#32) x wq) (P0 x wk) (P0 x wv) = Cert.Attn.G (1 / 32 : ℝ) x wq wk wv := by
  funext i
  obtain ⟨b, q, e, rfl⟩ : ∃ b q e, i = ix3 b q e := ⟨i 0, i 1, i 2, eq_ix3 i⟩
  have hs : sK (Q0 (Ideal.ofBits .f32 0x3D000000#32) x wq) (P0 x wk) b q
      = fun j k => ((score (1 / 32) (re3 x) (re2 wq) (re2 wk) b q (kidx j k) : ℝ) : EReal) := by
    funext j k; exact sK_real x wq wk hx hq hk b q j k
  have hvv : vK (P0 x wv) b e
      = fun j k => ((proj (re3 x) (re2 wv) b (kidx j k) e : ℝ) : EReal) := by
    funext j k; exact vK_real x wv hx hv b e j k
  show Ideal.div
      (OnlineSoftmax.run (sK (Q0 (Ideal.ofBits .f32 0x3D000000#32) x wq) (P0 x wk) b q) (vK (P0 x wv) b e) (7 + 1)).2.2
      (OnlineSoftmax.run (sK (Q0 (Ideal.ofBits .f32 0x3D000000#32) x wq) (P0 x wk) b q) (vK (P0 x wv) b e) (7 + 1)).2.1
    = ((attn (1 / 32) (re3 x) (re2 wq) (re2 wk) (re2 wv) b q e : ℝ) : EReal)
  rw [hs, hvv, OnlineSoftmax.run_div (by norm_num) _ _ 7,
    sum_kidx (fun k' => Real.exp (score (1 / 32) (re3 x) (re2 wq) (re2 wk) b q k') * proj (re3 x) (re2 wv) b k' e),
    sum_kidx (fun k' => Real.exp (score (1 / 32) (re3 x) (re2 wq) (re2 wk) b q k'))]
  rfl

end Cert.AttnK

end
-- ==== Proof.KIValue.lean ====
/-
  The kernel's result as one function of the arguments. After the run the result array holds what the attention
  pipeline's write-backs leave: blockwise attention over the three projection arrays as the projection pipeline left
  them, which are the matrix products of the activations with the (converted, at this instance unchanged) weights.
  On finite arguments that is the specification.
-/
import proofs.«148373_j65481071407281_2_alg».proof.Proof.KIMain
import proofs.«148373_j65481071407281_2_alg».proof.Proof.KIValue0
import proofs.«148373_j65481071407281_2_alg».proof.Proof.KIValue1c
import proofs.«148373_j65481071407281_2_alg».proof.Proof.KIValue1b
import proofs.«148373_j65481071407281_2_alg».proof.Proof.KIHost
import proofs.«148373_j65481071407281_2_alg».proof.Proof.AttnAlgebra

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (c : Dev nD)

/-- The attention region's result over the contents it is entered with. -/
theorem final1 : (dat1 (F := Ideal) (fun c b => V2' m c b) c).arrAt 3 cfg1.N
    = Cert.AttnK.Gk (V2' m c main_v3_0) (V2' m c main_v3_1) (V2' m c main_v3_2) :=
  Cert.KernelIdeal.Val1.final1_of (fun c b => V2' m c b) (Cert.KernelIdeal.Val1.out_at_last (fun c b => V2' m c b)) c

/-- The three projections as the first region leaves them. -/
theorem q_eq : (fun i => V2' (F := Ideal) m c main_v3_0 i) = Cert.AttnK.Q0 (Ideal.ofBits .f32 0x3D000000#32) (m ((c : Thread nD τ).loc main_arg0)) (m ((c : Thread nD τ).loc main_arg1)) := by
  have h := (hF0 m c 4).symm.trans (Cert.KernelIdeal.Val0.final0_4 (Va1 m) c)
  have h0 : Va1 m c main_arg0 = m ((c : Thread nD τ).loc main_arg0) := Cert.KernelIdeal.Host0.V1_arg0 m c
  have h1 := Cert.KernelIdeal.Host0.V1_v0 m c
  rw [h0] at h
  exact h.trans (congrArg (Cert.AttnK.Q0 _ _) h1)

theorem k_eq : (fun i => V2' (F := Ideal) m c main_v3_1 i) = Cert.AttnK.P0 (m ((c : Thread nD τ).loc main_arg0)) (m ((c : Thread nD τ).loc main_arg2)) := by
  have h := (hF0 m c 5).symm.trans (Cert.KernelIdeal.Val0.final0_5 (Va1 m) c)
  have h0 : Va1 m c main_arg0 = m ((c : Thread nD τ).loc main_arg0) := Cert.KernelIdeal.Host0.V1_arg0 m c
  have h1 := Cert.KernelIdeal.Host0.V1_v1 m c
  rw [h0] at h
  exact h.trans (congrArg (Cert.AttnK.P0 _) h1)

theorem v_eq : (fun i => V2' (F := Ideal) m c main_v3_2 i) = Cert.AttnK.P0 (m ((c : Thread nD τ).loc main_arg0)) (m ((c : Thread nD τ).loc main_arg3)) := by
  have h := (hF0 m c 6).symm.trans (Cert.KernelIdeal.Val0.final0_6 (Va1 m) c)
  have h0 : Va1 m c main_arg0 = m ((c : Thread nD τ).loc main_arg0) := Cert.KernelIdeal.Host0.V1_arg0 m c
  have h1 := Cert.KernelIdeal.Host0.V1_v2 m c
  rw [h0] at h
  exact h.trans (congrArg (Cert.AttnK.P0 _) h1)

/-- The result array after the run is the specification, on finite arguments. -/
theorem result_eq
    (hx : ∀ i, ∃ r : ℝ, m ((c : Thread nD τ).loc main_arg0) i = (r : EReal)) (hq : ∀ i, ∃ r : ℝ, m ((c : Thread nD τ).loc main_arg1) i = (r : EReal))
    (hk : ∀ i, ∃ r : ℝ, m ((c : Thread nD τ).loc main_arg2) i = (r : EReal)) (hv : ∀ i, ∃ r : ℝ, m ((c : Thread nD τ).loc main_arg3) i = (r : EReal)) :
    V3' (F := Ideal) m c main_v4 = Cert.Attn.G (1 / 32 : ℝ) (m ((c : Thread nD τ).loc main_arg0)) (m ((c : Thread nD τ).loc main_arg1)) (m ((c : Thread nD τ).loc main_arg2)) (m ((c : Thread nD τ).loc main_arg3)) := by
  have e3 : V3' m c main_v4 = (dat1 (F := Ideal) (fun c b => V2' m c b) c).arrAt 3 cfg1.N := (hF1 m c 3).symm
  rw [e3, final1 m c]
  have hq' := q_eq m c
  have hk' := k_eq m c
  have hv' := v_eq m c
  refine Eq.trans ?_ (Cert.AttnK.Gk_eq_G _ _ _ _ hx hq hk hv)
  exact congr (congr (congrArg Cert.AttnK.Gk hq') hk') hv'

end Cert.KernelIdeal.Val

end
-- ==== Proof.AttnRef.lean ====
import proofs.«148373_j65481071407281_2_alg».proof.Proof.Gen.ReferenceIdeal.Read
import proofs.«148373_j65481071407281_2_alg».proof.Proof.AttnSpec
import proofs.«148373_j65481071407281_2_alg».proof.Proof.AttnConsts
import proofs.«148373_j65481071407281_2_alg».proof.Proof.LibOnlineSoftmax
import Idealize.ShloMosaic.Lib.ValueIdx
import Idealize.ShloMosaic.Lib.Pipeline.Value
import Idealize.ShloMosaic.PureOps.Ideal.Laws
import Idealize.ShloMosaic.PureOps.Reduce

/-!
# The reference program computes the attention specification

On finite (real) arguments the reference's result array is, entry by entry, the softmax-weighted
average of the value rows: the three projections and the scores are finite real sums, the row
maximum is a real, and the row of exponentials divided by its sum, contracted with the value
projection, is the two-pass softmax average.
-/

noncomputable section

namespace Cert.ReferenceIdeal.RefValue

open Cert.ReferenceIdeal Cert.ReferenceIdeal.Gen Cert.ReferenceIdeal.Read
open Idealize.ShloMosaic Idealize.ShloMosaic.ValueIdx

/-- An extended real that is a real is the coercion of its real part. -/
theorem coe_toReal {x : EReal} (h : ∃ r : ℝ, x = (r : EReal)) : ((x.toReal : ℝ) : EReal) = x := by
  obtain ⟨r, rfl⟩ := h; rw [EReal.toReal_coe]

/-- The two argument array types. -/
abbrev XT : Type := (⟨S4x4096x1024, .f32⟩ : BufTy).Contents (Elt Ideal)
abbrev WT : Type := (⟨S1024x1024, .f32⟩ : BufTy).Contents (Elt Ideal)

/-- The real parts of the arguments, by coordinates. -/
abbrev rx (x : XT) : Fin 4 → Fin 4096 → Fin 1024 → ℝ := Cert.Attn.re3 (nb := 4) (ns := 4096) (ne := 1024) x
abbrev rw' (w : WT) : Fin 1024 → Fin 1024 → ℝ := Cert.Attn.re2 (ne := 1024) w

/-! ### The projections -/

theorem lidx_v0 (b : Fin 4) (s : Fin 4096) (e k : Fin 1024) : lidx_main_v0 (ix3 b s e) k = ix3 b s k := by
  funext a; match a with | ⟨0, _⟩ => rfl | ⟨1, _⟩ => rfl | ⟨2, _⟩ => rfl

theorem ridx_v0 (b : Fin 4) (s : Fin 4096) (e k : Fin 1024) : ridx_main_v0 (ix3 b s e) k = ix2 e k := by
  funext a; match a with | ⟨0, _⟩ => rfl | ⟨1, _⟩ => rfl

/-- A projection read at coordinates: the real sum over the contracted axis. -/
theorem proj_read (x : XT) (w : WT) (hx : ∀ i, ∃ r : ℝ, x i = (r : EReal)) (hw : ∀ i, ∃ r : ℝ, w i = (r : EReal))
    (b : Fin 4) (s : Fin 4096) (e : Fin 1024) :
    val_main_v0 (F := Ideal) x w (ix3 b s e) = ((Cert.Attn.proj (rx x) (rw' w) b s e : ℝ) : EReal) := by
  rw [val_main_v0_apply, Cert.Attn.proj, OnlineSoftmax.coe_sum]
  refine Finset.sum_congr rfl fun k _ => ?_
  rw [lidx_v0, ridx_v0, EReal.coe_mul]
  show _ = ((x (ix3 b s k)).toReal : EReal) * ((w (ix2 e k)).toReal : EReal)
  rw [coe_toReal (hx _), coe_toReal (hw _)]

/-! ### The scaled scores -/

theorem lidx_v3 (b : Fin 4) (q k : Fin 4096) (e : Fin 1024) : lidx_main_v3 (ix3 b q k) e = ix3 b q e := by
  funext a; match a with | ⟨0, _⟩ => rfl | ⟨1, _⟩ => rfl | ⟨2, _⟩ => rfl

theorem ridx_v3 (b : Fin 4) (q k : Fin 4096) (e : Fin 1024) : ridx_main_v3 (ix3 b q k) e = ix3 b k e := by
  funext a; match a with | ⟨0, _⟩ => rfl | ⟨1, _⟩ => rfl | ⟨2, _⟩ => rfl

/-- The key projection is the same contraction as the query projection, on another weight matrix. -/
theorem v1_eq_v0 (x : XT) (w : WT) : val_main_v1 (F := Ideal) x w = val_main_v0 (F := Ideal) x w := rfl

/-- The value projection likewise. -/
theorem v2_eq_v0 (x : XT) (w : WT) : val_main_v2 (F := Ideal) x w = val_main_v0 (F := Ideal) x w := rfl

/-- The real score of query row q against key row k. -/
abbrev sc (x0 : XT) (x1 x2 : WT) (b : Fin 4) (q k : Fin 4096) : ℝ :=
  Cert.Attn.score (1 / 32 : ℝ) (rx x0) (rw' x1) (rw' x2) b q k

/-- The scaled score array read at coordinates. -/
theorem score_read (x0 : XT) (x1 x2 : WT) (h0 : ∀ i, ∃ r : ℝ, x0 i = (r : EReal)) (h1 : ∀ i, ∃ r : ℝ, x1 i = (r : EReal))
    (h2 : ∀ i, ∃ r : ℝ, x2 i = (r : EReal)) (b : Fin 4) (q k : Fin 4096) :
    val_main_v5 (F := Ideal) x0 x1 x2 (ix3 b q k) = ((sc x0 x1 x2 b q k : ℝ) : EReal) := by
  rw [val_main_v5_apply, val_main_v3_apply, val_main_v4_apply, val_main_cst_apply, Ideal.mulf_def, Ideal.ofBits_def,
    Cert.AttnConsts.ofBits_scale, sc, Cert.Attn.score, EReal.coe_mul, OnlineSoftmax.coe_sum]
  congr 1
  refine Finset.sum_congr rfl fun e _ => ?_
  rw [lidx_v3, ridx_v3, v1_eq_v0, proj_read x0 x1 h0 h1, proj_read x0 x2 h0 h2, EReal.coe_mul]

/-! ### The row maximum -/

/-- Inserting the key coordinate k into the row index (b, q) gives (b, q, k). -/
theorem lift_row3 (h : S4x4096x4096.Reduces [2] S4x4096) (b : Fin 4) (q k : Fin 4096) :
    h.lift (ix2 b q) k = ix3 b q k := by
  funext c
  apply Fin.ext
  match c with
  | ⟨0, _⟩ => rfl
  | ⟨1, _⟩ => rfl
  | ⟨2, _⟩ => rfl

/-- The reduction by maximum over the key axis, from an initial value ⊥, of an array whose row (b, q) is f:
    the fold of max over the row. -/
theorem rowmax_of (y : FVec Ideal S4x4096x4096 .f32) (init : FVec Ideal S_ .f32) (hinit : ∀ j, init j = ⊥)
    (f : Fin 4096 → EReal) (b : Fin 4) (q : Fin 4096) (hy : ∀ k, y (ix3 b q k) = f k) :
    Host.reduce (FloatOps.maximumf (F := Ideal) (φ := .f32)) y init reducesTo_S4x4096x4096_S4x4096_d2 h_S_ (ix2 b q)
      = (Finset.univ : Finset (Fin 4096)).fold max ⊥ f := by
  have hR : S4x4096x4096.Reduces [2] S4x4096 := by decide
  rw [Host.reduce_eq_fold_single (FloatOps.maximumf (F := Ideal) (φ := .f32)) y init
    reducesTo_S4x4096x4096_S4x4096_d2 hR h_S_ (ix2 b q), hinit]
  have e : (y ∘ hR.lift (ix2 b q)) = f := funext fun k => by
    show y (hR.lift (ix2 b q) k) = f k
    rw [lift_row3 hR b q k, hy k]
  rw [e]
  rfl

/-- The maximum of row (b, q), as the reference spells it: the reduction from ⊥, then the maximum with ⊥ again. -/
abbrev mx (x0 : XT) (x1 x2 : WT) (b : Fin 4) (q : Fin 4096) : EReal :=
  max ⊥ ((Finset.univ : Finset (Fin 4096)).fold max ⊥ (fun k => ((sc x0 x1 x2 b q k : ℝ) : EReal)))

theorem rowmax_read (x0 : XT) (x1 x2 : WT) (h0 : ∀ i, ∃ r : ℝ, x0 i = (r : EReal)) (h1 : ∀ i, ∃ r : ℝ, x1 i = (r : EReal))
    (h2 : ∀ i, ∃ r : ℝ, x2 i = (r : EReal)) (b : Fin 4) (q : Fin 4096) :
    val_main_v8 (F := Ideal) x0 x1 x2 (ix2 b q) = mx x0 x1 x2 b q := by
  have hy : ∀ k, val_main_v5 (F := Ideal) x0 x1 x2 (ix3 b q k) = ((sc x0 x1 x2 b q k : ℝ) : EReal) :=
    fun k => score_read x0 x1 x2 h0 h1 h2 b q k
  have h6 : val_main_v6 (F := Ideal) x0 x1 x2 (ix2 b q)
      = (Finset.univ : Finset (Fin 4096)).fold max ⊥ (fun k => ((sc x0 x1 x2 b q k : ℝ) : EReal)) := by
    unfold val_main_v6
    generalize val_main_v5 (F := Ideal) x0 x1 x2 = y at hy ⊢
    exact rowmax_of y _ (fun j => by
      rewrite [val_main_cst_0_apply, Ideal.ofBits_def, Cert.AttnConsts.ofBits_neg_inf]; rfl) _ b q hy
  rewrite [val_main_v8_apply, val_main_v7_apply, val_main_cst_1_apply, Ideal.maximumf_def, Ideal.ofBits_def,
    Cert.AttnConsts.ofBits_neg_inf, h6]
  rfl

/-! ### The exponentials, their row sum, and the quotient -/

theorem idx_v9 (b : Fin 4) (q : Fin 4096) (u : Fin 1) : idx_main_v9 (ix3 b q u) = ix2 b q := by
  funext a; match a with | ⟨0, _⟩ => rfl | ⟨1, _⟩ => rfl

theorem idx_v10 (b : Fin 4) (q k : Fin 4096) : idx_main_v10 (ix3 b q k) = ix3 b q (0 : Fin 1) := by
  funext a; match a with | ⟨0, _⟩ => rfl | ⟨1, _⟩ => rfl | ⟨2, _⟩ => rfl

theorem idx_v13 (b : Fin 4) (q k : Fin 4096) : idx_main_v13 (ix2 b q) k = ix3 b q k := by
  funext a; match a with | ⟨0, _⟩ => rfl | ⟨1, _⟩ => rfl | ⟨2, _⟩ => rfl

theorem idx_v14 (b : Fin 4) (q : Fin 4096) (u : Fin 1) : idx_main_v14 (ix3 b q u) = ix2 b q := by
  funext a; match a with | ⟨0, _⟩ => rfl | ⟨1, _⟩ => rfl

theorem idx_v15 (b : Fin 4) (q k : Fin 4096) : idx_main_v15 (ix3 b q k) = ix3 b q (0 : Fin 1) := by
  funext a; match a with | ⟨0, _⟩ => rfl | ⟨1, _⟩ => rfl | ⟨2, _⟩ => rfl

/-- The exponential of the score minus the row maximum. -/
theorem exp_read (x0 : XT) (x1 x2 : WT) (h0 : ∀ i, ∃ r : ℝ, x0 i = (r : EReal)) (h1 : ∀ i, ∃ r : ℝ, x1 i = (r : EReal))
    (h2 : ∀ i, ∃ r : ℝ, x2 i = (r : EReal)) (b : Fin 4) (q k : Fin 4096) :
    val_main_v12 (F := Ideal) x0 x1 x2 (ix3 b q k)
      = Ideal.exp (((sc x0 x1 x2 b q k : ℝ) : EReal) - mx x0 x1 x2 b q) := by
  rewrite [val_main_v12_apply, val_main_v11_apply, val_main_v10_apply, idx_v10, val_main_v9_apply, idx_v9,
    rowmax_read x0 x1 x2 h0 h1 h2, score_read x0 x1 x2 h0 h1 h2, Ideal.hostUnary_exp_def, Ideal.subf_def]
  rfl

/-- The row sum of the exponentials, started from 0. -/
theorem den_read (x0 : XT) (x1 x2 : WT) (h0 : ∀ i, ∃ r : ℝ, x0 i = (r : EReal)) (h1 : ∀ i, ∃ r : ℝ, x1 i = (r : EReal))
    (h2 : ∀ i, ∃ r : ℝ, x2 i = (r : EReal)) (b : Fin 4) (q : Fin 4096) :
    val_main_v13 (F := Ideal) x0 x1 x2 (ix2 b q)
      = 0 + ∑ k : Fin 4096, Ideal.exp (((sc x0 x1 x2 b q k : ℝ) : EReal) - mx x0 x1 x2 b q) := by
  rewrite [val_main_v13_apply, val_main_cst_2_apply, Ideal.ofBits_def, Ideal.ofBits_zero_f32]
  refine congrArg (0 + ·) (Finset.sum_congr rfl fun k _ => ?_)
  rewrite [idx_v13, exp_read x0 x1 x2 h0 h1 h2]
  rfl

/-- The normalised weight of key k in row (b, q). -/
theorem weight_read (x0 : XT) (x1 x2 : WT) (h0 : ∀ i, ∃ r : ℝ, x0 i = (r : EReal)) (h1 : ∀ i, ∃ r : ℝ, x1 i = (r : EReal))
    (h2 : ∀ i, ∃ r : ℝ, x2 i = (r : EReal)) (b : Fin 4) (q k : Fin 4096) :
    val_main_v16 (F := Ideal) x0 x1 x2 (ix3 b q k)
      = Ideal.div (Ideal.exp (((sc x0 x1 x2 b q k : ℝ) : EReal) - mx x0 x1 x2 b q))
          (0 + ∑ k' : Fin 4096, Ideal.exp (((sc x0 x1 x2 b q k' : ℝ) : EReal) - mx x0 x1 x2 b q)) := by
  rewrite [val_main_v16_apply, val_main_v15_apply, idx_v15, val_main_v14_apply, idx_v14,
    den_read x0 x1 x2 h0 h1 h2, exp_read x0 x1 x2 h0 h1 h2, Ideal.hostDivf_def]
  rfl

/-! ### The result -/

theorem lidx_v17 (b : Fin 4) (q k : Fin 4096) (e : Fin 1024) : lidx_main_v17 (ix3 b q e) k = ix3 b q k := by
  funext a; match a with | ⟨0, _⟩ => rfl | ⟨1, _⟩ => rfl | ⟨2, _⟩ => rfl

theorem ridx_v17 (b : Fin 4) (q k : Fin 4096) (e : Fin 1024) : ridx_main_v17 (ix3 b q e) k = ix3 b k e := by
  funext a; match a with | ⟨0, _⟩ => rfl | ⟨1, _⟩ => rfl | ⟨2, _⟩ => rfl

/-- On real arguments the reference's result is the attention specification with score scale 1/32. -/
theorem ref_eq_G (x0 : (⟨S4x4096x1024, .f32⟩ : BufTy).Contents (Elt Ideal)) (x1 x2 x3 : (⟨S1024x1024, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) :
    Cert.ReferenceIdeal.Read.val_main_v17 (F := Ideal) x0 x1 x2 x3 = Cert.Attn.G (1 / 32 : ℝ) x0 x1 x2 x3 := by
  funext i
  obtain ⟨b, q, e, rfl⟩ : ∃ (b : Fin 4) (q : Fin 4096) (e : Fin 1024), i = ix3 b q e := ⟨i 0, i 1, i 2, eq_ix3 i⟩
  have hsum : val_main_v17 (F := Ideal) x0 x1 x2 x3 (ix3 b q e)
      = ∑ k : Fin 4096,
          Ideal.div (Ideal.exp (((sc x0 x1 x2 b q k : ℝ) : EReal) - mx x0 x1 x2 b q))
              (0 + ∑ k' : Fin 4096, Ideal.exp (((sc x0 x1 x2 b q k' : ℝ) : EReal) - mx x0 x1 x2 b q))
            * ((Cert.Attn.proj (rx x0) (rw' x3) b k e : ℝ) : EReal) := by
    rewrite [val_main_v17_apply]
    refine Finset.sum_congr rfl fun k _ => ?_
    rewrite [lidx_v17, ridx_v17, weight_read x0 x1 x2 h0 h1 h2, v2_eq_v0, proj_read x0 x3 h0 h3]
    rfl
  rewrite [hsum]
  exact OnlineSoftmax.twoPass (N := 4096) (by decide) (fun k => sc x0 x1 x2 b q k)
    (fun k => Cert.Attn.proj (rx x0) (rw' x3) b k e)

end Cert.ReferenceIdeal.RefValue

end
-- ==== Proof.PreFinite.lean ====
import proofs.«148373_j65481071407281_2_alg».proof.Pre_finite_inputs
import proofs.«148373_j65481071407281_2_alg».proof.Proof.AttnConsts
import Idealize.ShloMosaic.Lib.ReduceAll
import Idealize.ShloMosaic.Lib.ValueIdx
import Idealize.ShloMosaic.PureOps.Ideal.Laws

/-!
# From the printed finiteness precondition to "every entry is a real"

The precondition is the conjunction, over the four argument arrays, of "all entries have
absolute value below plus infinity".  On the extended reals an element whose absolute value
max x (-x) is strictly below ⊤ is neither ⊥ nor ⊤, hence a real.
-/

noncomputable section

namespace Cert.Proof.PreFinite

open Idealize.ShloMosaic

/-- The rank-0 shape has one index. -/
instance : Subsingleton Cert.Pre_finite_inputs.S_.Idx := ⟨fun a b => funext fun d => d.elim0⟩

/-- An extended real whose absolute value is strictly below ⊤ is a real. -/
theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- One conjunct: if the conjunction over all entries of "|x| < +inf" is true, every entry is a real. -/
theorem all_finite {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf (F := Ideal) .olt (Host.absf a)
            (broadcastInDim s ![] bc (constant Cert.Pre_finite_inputs.S_ .f32 0x7F800000#32)))
          (constantI Cert.Pre_finite_inputs.S_ 1 1#1) hr hu j = 1#1) :
    ∀ i, ∃ r : ℝ, a i = (r : EReal) := by
  intro i
  have hi := Host.reduce_andi_all _ _ hr hu j e i
  simp only [cmpf, Host.absf, broadcastInDim, constant, Ideal.hostAbsf_def, Ideal.absf_def, Ideal.cmpf_def,
    Ideal.ofBits_def, Cert.AttnConsts.ofBits_pos_inf] at hi
  exact real_of_abs_lt_top _ hi

/-- The precondition decoded: all four argument arrays hold reals only. -/
theorem finite_of_pre [Cert.Pre_finite_inputs.Facts]
    (a0 : (⟨Cert.Pre_finite_inputs.S4x4096x1024, .f32⟩ : BufTy).Contents (Elt Ideal))
    (a1 a2 a3 : (⟨Cert.Pre_finite_inputs.S1024x1024, .f32⟩ : BufTy).Contents (Elt Ideal))
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have e := congrFun h ValueIdx.ix0
  dsimp only [Cert.Pre_finite_inputs.fn, Cert.Pre_finite_inputs.fn_part1] at e
  simp only [andi, IntOp.andi_eq_one] at e
  obtain ⟨⟨⟨e0, e1⟩, e2⟩, e3⟩ := e
  exact ⟨all_finite a0 _ _ _ _ e0, all_finite a1 _ _ _ _ e1, all_finite a2 _ _ _ _ e2,
    all_finite a3 _ _ _ _ e3⟩

end Cert.Proof.PreFinite

end
-- ==== Proof.lean ====
/-
  Single-head self-attention, a two-kernel blockwise program against the textbook softmax formula.

  The kernel's program converts the three weight matrices (a change of format: the identity on extended reals),
  projects the activations in a first kernel (q = x Wqᵀ / 32, k = x Wkᵀ, v = x Wvᵀ: the softmax scale 1024^(-1/2) = 1/32
  is folded into q), and in a second kernel sweeps, for each block of 1024 query rows, the keys in eight blocks of
  512, carrying per row a running maximum m, a running denominator l and a running numerator acc:
      m' = max m (max over the block of s),  a = exp (m - m'),  l' = a l + sum exp (s - m'),  acc' = a acc + sum exp (s - m') v,
  starting from (-inf, 0, 0), and writes acc / l after the eighth block. The reference computes
      softmax (q kᵀ / 32) v  with  softmax s = exp (s - max s) / sum exp (s - max s).
  On finite inputs every quantity is a real number; the first step starts from a = exp (-inf) = 0, each later step
  rescales both accumulators by exp (m - m'), so after all blocks l = sum exp (s - M) and acc = sum exp (s - M) v with M the
  row maximum, and acc / l is the softmax-weighted average of the value rows — the reference's value, the factor exp (-M)
  cancelling. The scale moves from q to the scores by distributivity, which is where finiteness is used.

  Frames: the two kernel programs (word level and idealized: one text, read at two instances) run region by region —
  the host conversions, the projection pipeline, the attention pipeline whose three scratch buffers are carried from
  grid point to grid point inside the region's invariant — and leave their arguments as launched; the reference is a
  straight line of host operations. The idealization rewrote nothing, so there is nothing to preserve.
-/
import proofs.«148373_j65481071407281_2_alg».proof.Defs
import proofs.«148373_j65481071407281_2_alg».proof.Proof.Gen.Kernel
import proofs.«148373_j65481071407281_2_alg».proof.Proof.Gen.KernelIdeal
import proofs.«148373_j65481071407281_2_alg».proof.Proof.Gen.ReferenceIdeal
import proofs.«148373_j65481071407281_2_alg».proof.Proof.Gen.Pre_finite_inputs
import proofs.«148373_j65481071407281_2_alg».proof.Proof.KMain
import proofs.«148373_j65481071407281_2_alg».proof.Proof.KIMain
import proofs.«148373_j65481071407281_2_alg».proof.Proof.RefFrame
import proofs.«148373_j65481071407281_2_alg».proof.Proof.KIValue
import proofs.«148373_j65481071407281_2_alg».proof.Proof.AttnRef
import proofs.«148373_j65481071407281_2_alg».proof.Proof.PreFinite

noncomputable section

namespace Cert.Proof

open Idealize.ShloMosaic Idealize.SL.Sem

/-- The word-level kernel program runs and leaves its arguments as launched. -/
theorem frame_p : Cert.frame_Kernel := fun m ρ _ => Cert.Kernel.Fr.frame m ρ

/-- The idealized kernel program likewise. -/
theorem frame_pi : Cert.frame_KernelIdeal := fun m ρ _ => Cert.KernelIdeal.Fr.frame m ρ

/-- The idealization rewrote no operation. -/
theorem preserves : Cert.preserves_Kernel_KernelIdeal := trivial

/-- On finite inputs both idealized programs end with the result array at the attention formula of the arguments. -/
theorem algebraic : Cert.algebraic_KernelIdeal_ReferenceIdeal := by
  intro m ρ m' ρ' hpre hagree
  refine ⟨fun c => Cert.Attn.G (1 / 32 : ℝ) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Fr.run_main (F := Ideal) m ρ)
    obtain ⟨hx, hq, hk, hv⟩ := Cert.Proof.PreFinite.finite_of_pre _ _ _ _ (hpre c)
    exact Cert.KernelIdeal.Val.result_eq m c hx hq hk hv
  · refine (θ_run Cert.ReferenceIdeal.defs _ _).mono (fun _ h c => ⟨(h c).1.trans ?_, (h c).2⟩) (Cert.ReferenceIdeal.Value.run (F := Ideal) m' ρ')
    obtain ⟨hx, hq, hk, hv⟩ := Cert.Proof.PreFinite.finite_of_pre _ _ _ _ (hpre c)
    rw [Cert.ReferenceIdeal.Read.val_main_v17_eq, (hagree c).1, (hagree c).2.1, (hagree c).2.2.1, (hagree c).2.2.2]
    exact Cert.ReferenceIdeal.RefValue.ref_eq_G _ _ _ _ hx hq hk hv

theorem claim : Cert.Claim :=
  ⟨Cert.Kernel.Gen.facts, Cert.KernelIdeal.Gen.facts, Cert.ReferenceIdeal.Gen.facts, Cert.Pre_finite_inputs.Gen.facts,
    frame_p, frame_pi, Cert.Proof.RefFrame.frame_ri, preserves, algebraic⟩

end Cert.Proof

end
